-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v205)) (v1 : (c : Dev Cert.KernelIdeal.nD) → Buf (Elt Ideal) ((c.tc : Thread Cert.KernelIdeal.nD Cert.KernelIdeal.τ).loc Cert.KernelIdeal.main_v201)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_v201) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v281) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S2x4x128x128 : Shape := ⟨4, ![2, 4, 128, 128]⟩
abbrev S2x4x128 : Shape := ⟨3, ![2, 4, 128]⟩
abbrev S500000 : Shape := ⟨1, ![500000]⟩
abbrev S150000 : Shape := ⟨1, ![150000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_

variable [Facts]

def fn_part1 {F : FTy → Type} [FloatOps F] (main_arg4 : FVec F S2x4x128x128 .f32) (main_v13 : IVec S_ 1) (main_v16 : IVec S2x4x128 1) : IVec S_ 1 :=
  let main_c_5 : IVec S_ 1 := constantI S_ 1 1#1
  let main_v17 : IVec S_ 1 := (fun x v => Host.reduce IntOp.andi x v reducesTo_S2x4x128_S_d0_1_2 h_S_) main_v16 main_c_5
  let main_v18 : IVec S_ 1 := andi main_v13 main_v17
  let main_v19 : FVec F S2x4x128x128 .f32 := Host.absf main_arg4
  let main_cst_6 : FVec F S_ .f32 := constant S_ .f32 0x7F800000#32
  let main_v20 : FVec F S2x4x128x128 .f32 := broadcastInDim S2x4x128x128 ![] bcast_S_S2x4x128x128 main_cst_6
  let main_v21 : IVec S2x4x128x128 1 := cmpf .olt main_v19 main_v20
  let main_c_7 : IVec S_ 1 := constantI S_ 1 1#1
  let main_v22 : IVec S_ 1 := (fun x v => Host.reduce IntOp.andi x v reducesTo_S2x4x128x128_S_d0_1_2_3 h_S_) main_v21 main_c_7
  let main_v23 : IVec S_ 1 := andi main_v18 main_v22
  main_v23

def fn {F : FTy → Type} [FloatOps F] (main_arg0 : FVec F S100000x128 .f32) (main_arg1 : FVec F S200000x128 .f32) (main_arg2 : FVec F S2x4x128x128 .f32) (main_arg3 : FVec F S2x4x128 .f32) (main_arg4 : FVec F S2x4x128x128 .f32) (main_arg5 : IVec S500000 32) (main_arg6 : IVec S500000 32) (main_arg7 : IVec S150000 32) (main_arg8 : IVec S150000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S2x4x128x128 .f32 := Host.absf main_arg2
  let main_cst_2 : FVec F S_ .f32 := constant S_ .f32 0x7F800000#32
  let main_v10 : FVec F S2x4x128x128 .f32 := broadcastInDim S2x4x128x128 ![] bcast_S_S2x4x128x128 main_cst_2
  let main_v11 : IVec S2x4x128x128 1 := cmpf .olt main_v9 main_v10
  let main_c_3 : IVec S_ 1 := constantI S_ 1 1#1
  let main_v12 : IVec S_ 1 := (fun x v => Host.reduce IntOp.andi x v reducesTo_S2x4x128x128_S_d0_1_2_3 h_S_) main_v11 main_c_3
  let main_v13 : IVec S_ 1 := andi main_v8 main_v12
  let main_v14 : FVec F S2x4x128 .f32 := Host.absf main_arg3
  let main_cst_4 : FVec F S_ .f32 := constant S_ .f32 0x7F800000#32
  let main_v15 : FVec F S2x4x128 .f32 := broadcastInDim S2x4x128 ![] bcast_S_S2x4x128 main_cst_4
  let main_v16 : IVec S2x4x128 1 := cmpf .olt main_v14 main_v15
  fn_part1 (F := F) main_arg4 main_v13 main_v16
-- ==== Kernel.lean ====
abbrev S100000x128 : Shape := ⟨2, ![100000, 128]⟩
abbrev S200000x128 : Shape := ⟨2, ![200000, 128]⟩
abbrev S2x4x128x128 : Shape := ⟨4, ![2, 4, 128, 128]⟩
abbrev S2x4x128 : Shape := ⟨3, ![2, 4, 128]⟩
abbrev S500000 : Shape := ⟨1, ![500000]⟩
abbrev S150000 : Shape := ⟨1, ![150000]⟩
abbrev S_ : Shape := ⟨0, ![]⟩
abbrev S200000 : Shape := ⟨1, ![200000]⟩
abbrev S500000x1 : Shape := ⟨2, ![500000, 1]⟩
abbrev S150000x1 : Shape := ⟨2, ![150000, 1]⟩
abbrev S100000 : Shape := ⟨1, ![100000]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S500000x128 : Shape := ⟨2, ![500000, 128]⟩
abbrev S150000x128 : Shape := ⟨2, ![150000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S200000x1 : Shape := ⟨2, ![200000, 1]⟩
abbrev S4000x128 : Shape := ⟨2, ![4000, 128]⟩
abbrev S4000x1 : Shape := ⟨2, ![4000, 1]⟩
abbrev S100000x1 : Shape := ⟨2, ![100000, 1]⟩

abbrev nBuf : Space → Nat
  | .hbm => 253
  | .vmem => 64
  | .smem => 0
  | _ => 0

abbrev hbmTy0_0 (i : Nat) : BufTy := match i % 128 with
  | 0 => ⟨S100000x128, .f32⟩
  | 1 => ⟨S200000x128, .f32⟩
  | 2 => ⟨S2x4x128x128, .f32⟩
  | 3 => ⟨S2x4x128, .f32⟩
  | 4 => ⟨S2x4x128x128, .f32⟩
  | 5 => ⟨S500000, .i32⟩
  | 6 => ⟨S500000, .i32⟩
  | 7 => ⟨S150000, .i32⟩
  | 8 => ⟨S150000, .i32⟩
  | 9 => ⟨S_, .f32⟩
  | 10 => ⟨S500000, .f32⟩
  | 11 => ⟨S_, .f32⟩
  | 12 => ⟨S150000, .f32⟩
  | 13 => ⟨S_, .f32⟩
  | 14 => ⟨S200000, .f32⟩
  | 15 => ⟨S500000x1, .i32⟩
  | 16 => ⟨S200000, .f32⟩
  | 17 => ⟨S_, .f32⟩
  | 18 => ⟨S200000, .f32⟩
  | 19 => ⟨S150000x1, .i32⟩
  | 20 => ⟨S200000, .f32⟩
  | 21 => ⟨S_, .f32⟩
  | 22 => ⟨S100000, .f32⟩
  | 23 => ⟨S500000x1, .i32⟩
  | 24 => ⟨S100000, .f32⟩
  | 25 => ⟨S_, .f32⟩
  | 26 => ⟨S100000, .f32⟩
  | 27 => ⟨S150000x1, .i32⟩
  | 28 => ⟨S100000, .f32⟩
  | 29 => ⟨S_, .f32⟩
  | 30 => ⟨S200000, .f32⟩
  | 31 => ⟨S200000, .f32⟩
  | 32 => ⟨S_, .f32⟩
  | 33 => ⟨S200000, .f32⟩
  | 34 => ⟨S200000, .f32⟩
  | 35 => ⟨S_, .f32⟩
  | 36 => ⟨S200000, .f32⟩
  | 37 => ⟨S200000, .f32⟩
  | 38 => ⟨S_, .f32⟩
  | 39 => ⟨S200000, .f32⟩
  | 40 => ⟨S200000, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .f32⟩
  | 53 => ⟨S1x4x128x128, .f32⟩
  | 54 => ⟨S4x128x128, .f32⟩
  | 55 => ⟨S1x4x128, .f32⟩
  | 56 => ⟨S4x128, .f32⟩
  | 57 => ⟨S1x4x128x128, .f32⟩
  | 58 => ⟨S4x128x128, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x128, .f32⟩
  | 68 => ⟨S_, .f32⟩
  | 69 => ⟨S200000x128, .f32⟩
  | 70 => ⟨S500000x1, .i32⟩
  | 71 => ⟨S200000x128, .f32⟩
  | 72 => ⟨S_, .i32⟩
  | 73 => ⟨S150000, .i32⟩
  | 74 => ⟨S150000, .i1⟩
  | 75 => ⟨S_, .i32⟩
  | 76 => ⟨S150000, .i32⟩
  | 77 => ⟨S150000, .i32⟩
  | 78 => ⟨S150000, .i32⟩
  | 79 => ⟨S150000x1, .i32⟩
  | 80 => ⟨S150000x128, .f32⟩
  | 81 => ⟨S_, .f32⟩
  | 82 => ⟨S200000x128, .f32⟩
  | 83 => ⟨S150000x1, .i32⟩
  | 84 => ⟨S200000x128, .f32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x128, .f32⟩
  | 94 => ⟨S_, .f32⟩
  | 95 => ⟨S100000x128, .f32⟩
  | 96 => ⟨S500000x1, .i32⟩
  | 97 => ⟨S100000x128, .f32⟩
  | 98 => ⟨S_, .i32⟩
  | 99 => ⟨S150000, .i32⟩
  | 100 => ⟨S150000, .i1⟩
  | 101 => ⟨S_, .i32⟩
  | 102 => ⟨S150000, .i32⟩
  | 103 => ⟨S150000, .i32⟩
  | 104 => ⟨S150000, .i32⟩
  | 105 => ⟨S150000x1, .i32⟩
  | 106 => ⟨S150000x128, .f32⟩
  | 107 => ⟨S_, .f32⟩
  | 108 => ⟨S100000x128, .f32⟩
  | 109 => ⟨S150000x1, .i32⟩
  | 110 => ⟨S100000x128, .f32⟩
  | 111 => ⟨S1x128x128, .f32⟩
  | 112 => ⟨S128x128, .f32⟩
  | 113 => ⟨S128x128, .f32⟩
  | 114 => ⟨S1x128x128, .f32⟩
  | 115 => ⟨S128x128, .f32⟩
  | 116 => ⟨S128x128, .f32⟩
  | 117 => ⟨S1x128x128, .f32⟩
  | 118 => ⟨S128x128, .f32⟩
  | 119 => ⟨S1x128x128, .f32⟩
  | 120 => ⟨S128x128, .f32⟩
  | 121 => ⟨S128x128, .f32⟩
  | 122 => ⟨S128x128, .f32⟩
  | 123 => ⟨S1x128, .f32⟩
  | 124 => ⟨S128, .f32⟩
  | 125 => ⟨S1x128, .f32⟩
  | 126 => ⟨S128, .f32⟩
  | 127 => ⟨S128, .f32⟩
  | _ => ⟨S100000x128, .f32⟩

abbrev hbmTy0_1 (i : Nat) : BufTy := match i % 128 with
  | 0 => ⟨S1x128x128, .f32⟩
  | 1 => ⟨S128x128, .f32⟩
  | 2 => ⟨S128x128, .f32⟩
  | 3 => ⟨S1x128x128, .f32⟩
  | 4 => ⟨S128x128, .f32⟩
  | 5 => ⟨S128x128, .f32⟩
  | 6 => ⟨S1x128x128, .f32⟩
  | 7 => ⟨S128x128, .f32⟩
  | 8 => ⟨S1x128x128, .f32⟩
  | 9 => ⟨S128x128, .f32⟩
  | 10 => ⟨S128x128, .f32⟩
  | 11 => ⟨S128x128, .f32⟩
  | 12 => ⟨S1x128, .f32⟩
  | 13 => ⟨S128, .f32⟩
  | 14 => ⟨S1x128, .f32⟩
  | 15 => ⟨S128, .f32⟩
  | 16 => ⟨S128, .f32⟩
  | 17 => ⟨S1x128, .f32⟩
  | 18 => ⟨S200000x1, .f32⟩
  | 19 => ⟨S200000x1, .f32⟩
  | 20 => ⟨S200000x128, .f32⟩
  | 21 => ⟨S1x128, .f32⟩
  | 22 => ⟨S100000x1, .f32⟩
  | 23 => ⟨S100000x1, .f32⟩
  | 24 => ⟨S100000x128, .f32⟩
  | 25 => ⟨S1x4x128x128, .f32⟩
  | 26 => ⟨S4x128x128, .f32⟩
  | 27 => ⟨S1x4x128, .f32⟩
  | 28 => ⟨S4x128, .f32⟩
  | 29 => ⟨S1x4x128x128, .f32⟩
  | 30 => ⟨S4x128x128, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S_, .f32⟩
  | 41 => ⟨S200000x128, .f32⟩
  | 42 => ⟨S500000x1, .i32⟩
  | 43 => ⟨S200000x128, .f32⟩
  | 44 => ⟨S_, .i32⟩
  | 45 => ⟨S150000, .i32⟩
  | 46 => ⟨S150000, .i1⟩
  | 47 => ⟨S_, .i32⟩
  | 48 => ⟨S150000, .i32⟩
  | 49 => ⟨S150000, .i32⟩
  | 50 => ⟨S150000, .i32⟩
  | 51 => ⟨S150000x1, .i32⟩
  | 52 => ⟨S150000x128, .f32⟩
  | 53 => ⟨S_, .f32⟩
  | 54 => ⟨S200000x128, .f32⟩
  | 55 => ⟨S150000x1, .i32⟩
  | 56 => ⟨S200000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S_, .f32⟩
  | 67 => ⟨S100000x128, .f32⟩
  | 68 => ⟨S500000x1, .i32⟩
  | 69 => ⟨S100000x128, .f32⟩
  | 70 => ⟨S_, .i32⟩
  | 71 => ⟨S150000, .i32⟩
  | 72 => ⟨S150000, .i1⟩
  | 73 => ⟨S_, .i32⟩
  | 74 => ⟨S150000, .i32⟩
  | 75 => ⟨S150000, .i32⟩
  | 76 => ⟨S150000, .i32⟩
  | 77 => ⟨S150000x1, .i32⟩
  | 78 => ⟨S150000x128, .f32⟩
  | 79 => ⟨S_, .f32⟩
  | 80 => ⟨S100000x128, .f32⟩
  | 81 => ⟨S150000x1, .i32⟩
  | 82 => ⟨S100000x128, .f32⟩
  | 83 => ⟨S1x128x128, .f32⟩
  | 84 => ⟨S128x128, .f32⟩
  | 85 => ⟨S128x128, .f32⟩
  | 86 => ⟨S1x128x128, .f32⟩
  | 87 => ⟨S128x128, .f32⟩
  | 88 => ⟨S128x128, .f32⟩
  | 89 => ⟨S1x128x128, .f32⟩
  | 90 => ⟨S128x128, .f32⟩
  | 91 => ⟨S1x128x128, .f32⟩
  | 92 => ⟨S128x128, .f32⟩
  | 93 => ⟨S128x128, .f32⟩
  | 94 => ⟨S128x128, .f32⟩
  | 95 => ⟨S1x128, .f32⟩
  | 96 => ⟨S128, .f32⟩
  | 97 => ⟨S1x128, .f32⟩
  | 98 => ⟨S128, .f32⟩
  | 99 => ⟨S128, .f32⟩
  | 100 => ⟨S1x128x128, .f32⟩
  | 101 => ⟨S128x128, .f32⟩
  | 102 => ⟨S128x128, .f32⟩
  | 103 => ⟨S1x128x128, .f32⟩
  | 104 => ⟨S128x128, .f32⟩
  | 105 => ⟨S128x128, .f32⟩
  | 106 => ⟨S1x128x128, .f32⟩
  | 107 => ⟨S128x128, .f32⟩
  | 108 => ⟨S1x128x128, .f32⟩
  | 109 => ⟨S128x128, .f32⟩
  | 110 => ⟨S128x128, .f32⟩
  | 111 => ⟨S128x128, .f32⟩
  | 112 => ⟨S1x128, .f32⟩
  | 113 => ⟨S128, .f32⟩
  | 114 => ⟨S1x128, .f32⟩
  | 115 => ⟨S128, .f32⟩
  | 116 => ⟨S128, .f32⟩
  | 117 => ⟨S1x128, .f32⟩
  | 118 => ⟨S200000x1, .f32⟩
  | 119 => ⟨S200000x1, .f32⟩
  | 120 => ⟨S200000x128, .f32⟩
  | 121 => ⟨S1x128, .f32⟩
  | 122 => ⟨S100000x1, .f32⟩
  | 123 => ⟨S100000x1, .f32⟩
  | 124 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x1, .f32⟩
  | .local _ .vmem, ⟨7, _⟩ => ⟨S4000x1, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x1, .f32⟩
  | .local _ .vmem, ⟨21, _⟩ => ⟨S4000x1, .f32⟩
  | .local _ .vmem, ⟨22, _⟩ => ⟨S4000x1, .f32⟩
  | .local _ .vmem, ⟨23, _⟩ => ⟨S4000x1, .f32⟩
  | .local _ .vmem, ⟨24, _⟩ => ⟨S4000x128, .f32⟩
  | .local _ .vmem, ⟨25, _⟩ => ⟨S4000x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S4000x128, .f32⟩
  | .local _ .vmem, ⟨35, _⟩ => ⟨S4000x128, .f32⟩
  | .local _ .vmem, ⟨36, _⟩ => ⟨S4000x1, .f32⟩
  | .local _ .vmem, ⟨37, _⟩ => ⟨S4000x1, .f32⟩
  | .local _ .vmem, ⟨38, _⟩ => ⟨S4000x1, .f32⟩
  | .local _ .vmem, ⟨39, _⟩ => ⟨S4000x1, .f32⟩
  | .local _ .vmem, ⟨40, _⟩ => ⟨S4000x128, .f32⟩
  | .local _ .vmem, ⟨41, _⟩ => ⟨S4000x128, .f32⟩
  | .local _ .vmem, ⟨42, _⟩ => ⟨S128x128, .f32⟩
  | .local _ .vmem, ⟨43, _⟩ => ⟨S128x128, .f32⟩
  | .local _ .vmem, ⟨44, _⟩ => ⟨S128x128, .f32⟩
  | .local _ .vmem, ⟨45, _⟩ => ⟨S1x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x1, .f32⟩
  | .local _ .vmem, ⟨53, _⟩ => ⟨S4000x1, .f32⟩
  | .local _ .vmem, ⟨54, _⟩ => ⟨S4000x1, .f32⟩
  | .local _ .vmem, ⟨55, _⟩ => ⟨S4000x1, .f32⟩
  | .local _ .vmem, ⟨56, _⟩ => ⟨S4000x128, .f32⟩
  | .local _ .vmem, ⟨57, _⟩ => ⟨S4000x128, .f32⟩
  | .local _ .vmem, ⟨58, _⟩ => ⟨S128x128, .f32⟩
  | .local _ .vmem, ⟨59, _⟩ => ⟨S128x128, .f32⟩
  | .local _ .vmem, ⟨60, _⟩ => ⟨S128x128, .f32⟩
  | .local _ .vmem, ⟨61, _⟩ => ⟨S1x128, .f32⟩
  | .local _ .vmem, ⟨62, _⟩ => ⟨S4000x128, .f32⟩
  | .local _ .vmem, ⟨63, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_v19 : Ref sig .tc := ⟨.hbm, 37, rfl⟩
abbrev main_cst_8 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_v22 : Ref sig .tc := ⟨.hbm, 42, rfl⟩
abbrev main_v23 : Ref sig .tc := ⟨.hbm, 43, rfl⟩
abbrev main_cst_10 : Ref sig .tc := ⟨.hbm, 44, rfl⟩
abbrev main_v24 : Ref sig .tc := ⟨.hbm, 45, rfl⟩
abbrev main_v25 : Ref sig .tc := ⟨.hbm, 46, rfl⟩
abbrev main_cst_11 : Ref sig .tc := ⟨.hbm, 47, rfl⟩
abbrev main_v26 : Ref sig .tc := ⟨.hbm, 48, rfl⟩
abbrev main_v27 : Ref sig .tc := ⟨.hbm, 49, rfl⟩
abbrev main_cst_12 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c : Ref sig .tc := ⟨.hbm, 59, rfl⟩
abbrev main_v36 : Ref sig .tc := ⟨.hbm, 60, rfl⟩
abbrev main_v37 : Ref sig .tc := ⟨.hbm, 61, rfl⟩
abbrev main_c_13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_15 : Ref sig .tc := ⟨.hbm, 72, rfl⟩
abbrev main_v46 : Ref sig .tc := ⟨.hbm, 73, rfl⟩
abbrev main_v47 : Ref sig .tc := ⟨.hbm, 74, rfl⟩
abbrev main_c_16 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_17 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_18 : Ref sig .tc := ⟨.hbm, 85, rfl⟩
abbrev main_v56 : Ref sig .tc := ⟨.hbm, 86, rfl⟩
abbrev main_v57 : Ref sig .tc := ⟨.hbm, 87, rfl⟩
abbrev main_c_19 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_20 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_21 : Ref sig .tc := ⟨.hbm, 98, rfl⟩
abbrev main_v66 : Ref sig .tc := ⟨.hbm, 99, rfl⟩
abbrev main_v67 : Ref sig .tc := ⟨.hbm, 100, rfl⟩
abbrev main_c_22 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_23 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_c_24 : Ref sig .tc := ⟨.hbm, 159, rfl⟩
abbrev main_v124 : Ref sig .tc := ⟨.hbm, 160, rfl⟩
abbrev main_v125 : Ref sig .tc := ⟨.hbm, 161, rfl⟩
abbrev main_c_25 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_26 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_c_27 : Ref sig .tc := ⟨.hbm, 172, rfl⟩
abbrev main_v134 : Ref sig .tc := ⟨.hbm, 173, rfl⟩
abbrev main_v135 : Ref sig .tc := ⟨.hbm, 174, rfl⟩
abbrev main_c_28 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_29 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_c_30 : Ref sig .tc := ⟨.hbm, 185, rfl⟩
abbrev main_v144 : Ref sig .tc := ⟨.hbm, 186, rfl⟩
abbrev main_v145 : Ref sig .tc := ⟨.hbm, 187, rfl⟩
abbrev main_c_31 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_cst_32 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_c_33 : Ref sig .tc := ⟨.hbm, 198, rfl⟩
abbrev main_v154 : Ref sig .tc := ⟨.hbm, 199, rfl⟩
abbrev main_v155 : Ref sig .tc := ⟨.hbm, 200, rfl⟩
abbrev main_c_34 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_35 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg9_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg6_0 : Ref sig .tc := ⟨.vmem, 59, rfl⟩
abbrev cc3_stg7_0 : Ref sig .tc := ⟨.vmem, 60, rfl⟩
abbrev cc3_stg8_0 : Ref sig .tc := ⟨.vmem, 61, rfl⟩
abbrev cc3_stg9_0 : Ref sig .tc := ⟨.vmem, 62, rfl⟩
abbrev cc3_stg9_1 : Ref sig .tc := ⟨.vmem, 63, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem6_0 : DmaSem sig := 43
abbrev cc2_sem7_0 : DmaSem sig := 44
abbrev cc2_sem8_0 : DmaSem sig := 45
abbrev cc2_sem9_0 : DmaSem sig := 46
abbrev cc2_sem9_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem6_0 : DmaSem sig := 59
abbrev cc3_sem7_0 : DmaSem sig := 60
abbrev cc3_sem8_0 : DmaSem sig := 61
abbrev cc3_sem9_0 : DmaSem sig := 62
abbrev cc3_sem9_1 : DmaSem sig := 63

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S500000 : S_.BroadcastsInDim S500000 (![] : Fin 0 → Fin S500000.rank)
  bcast_S_S150000 : S_.BroadcastsInDim S150000 (![] : Fin 0 → Fin S150000.rank)
  bcast_S_S200000 : S_.BroadcastsInDim S200000 (![] : Fin 0 → Fin S200000.rank)
  bcast_S500000_S500000x1_0 : S500000.BroadcastsInDim S500000x1 (![0] : Fin 1 → Fin S500000x1.rank)
  bcast_S150000_S150000x1_0 : S150000.BroadcastsInDim S150000x1 (![0] : Fin 1 → Fin S150000x1.rank)
  bcast_S_S100000 : S_.BroadcastsInDim S100000 (![] : Fin 0 → Fin S100000.rank)
  slices_S2x4x128x128_S1x4x128x128_0_0_0_0 : S2x4x128x128.Slices ![0, 0, 0, 0] S1x4x128x128
  shapeCasts_S1x4x128x128_S4x128x128 : S1x4x128x128.ShapeCasts S4x128x128
  slices_S2x4x128_S1x4x128_0_0_0 : S2x4x128.Slices ![0, 0, 0] S1x4x128
  shapeCasts_S1x4x128_S4x128 : S1x4x128.ShapeCasts S4x128
  bcast_S_S200000x128 : S_.BroadcastsInDim S200000x128 (![] : Fin 0 → Fin S200000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128x128_S1x128x128_2_0_0 : S4x128x128.Slices ![2, 0, 0] S1x128x128
  slices_S4x128_S1x128_0_0 : S4x128.Slices ![0, 0] S1x128
  shapeCasts_S1x128_S128 : S1x128.ShapeCasts S128
  slices_S4x128_S1x128_2_0 : S4x128.Slices ![2, 0] S1x128
  slices_S4x128x128_S1x128x128_1_0_0 : S4x128x128.Slices ![1, 0, 0] S1x128x128
  slices_S4x128x128_S1x128x128_3_0_0 : S4x128x128.Slices ![3, 0, 0] S1x128x128
  slices_S4x128_S1x128_1_0 : S4x128.Slices ![1, 0] S1x128
  slices_S4x128_S1x128_3_0 : S4x128.Slices ![3, 0] S1x128
  shapeCasts_S128_S1x128 : S128.ShapeCasts S1x128
  shapeCasts_S200000_S200000x1 : S200000.ShapeCasts S200000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S100000_S100000x1 : S100000.ShapeCasts S100000x1
  slices_S2x4x128x128_S1x4x128x128_1_0_0_0 : S2x4x128x128.Slices ![1, 0, 0, 0] S1x4x128x128
  slices_S2x4x128_S1x4x128_1_0_0 : S2x4x128.Slices ![1, 0, 0] S1x4x128
  scatter_S200000_S500000x1_S500000_n_0_0_1_wf : ScatterDims.WF S200000 S500000x1 S500000 [] [0] [0] 1
  scatter_S200000_S150000x1_S150000_n_0_0_1_wf : ScatterDims.WF S200000 S150000x1 S150000 [] [0] [0] 1
  scatter_S100000_S500000x1_S500000_n_0_0_1_wf : ScatterDims.WF S100000 S500000x1 S500000 [] [0] [0] 1
  scatter_S100000_S150000x1_S150000_n_0_0_1_wf : ScatterDims.WF S100000 S150000x1 S150000 [] [0] [0] 1
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  gather_S100000x128_S150000x1_S150000x128_1_0_n_n_0_1_1128_wf : GatherDims.WF S100000x128 S150000x1 S150000x128 [1] [0] [] [0] [] 1 ![1, 128]
  scatter_S200000x128_S150000x1_S150000x128_1_0_0_1_wf : ScatterDims.WF S200000x128 S150000x1 S150000x128 [1] [0] [0] 1
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  gather_S200000x128_S150000x1_S150000x128_1_0_n_n_0_1_1128_wf : GatherDims.WF S200000x128 S150000x1 S150000x128 [1] [0] [] [0] [] 1 ![1, 128]
  scatter_S100000x128_S150000x1_S150000x128_1_0_0_1_wf : ScatterDims.WF S100000x128 S150000x1 S150000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S200000x128.size a
  hwx0_1 : ∀ i : grid0.Coords, EltTy.bits .f32 = 32 ∨ (Rect.block (s := S200000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S200000x1.size a
  hwx0_2 : ∀ i : grid0.Coords, EltTy.bits .f32 = 32 ∨ (Rect.block (s := S200000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S200000x1.size a
  hwx0_3 : ∀ i : grid0.Coords, EltTy.bits .f32 = 32 ∨ (Rect.block (s := S200000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S200000x128.size a
  hwx0_4 : ∀ i : grid0.Coords, EltTy.bits .f32 = 32 ∨ (Rect.block (s := S200000x128) S4000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S200000x128.size a
  hwx0_9 : ∀ i : grid0.Coords, EltTy.bits .f32 = 32 ∨ (Rect.block (s := S200000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S200000x128.size a
  hwx2_0 : ∀ i : grid2.Coords, EltTy.bits .f32 = 32 ∨ (Rect.block (s := S200000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S200000x128.size a
  hwx2_1 : ∀ i : grid2.Coords, EltTy.bits .f32 = 32 ∨ (Rect.block (s := S200000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S200000x1.size a
  hwx2_2 : ∀ i : grid2.Coords, EltTy.bits .f32 = 32 ∨ (Rect.block (s := S200000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S200000x1.size a
  hwx2_3 : ∀ i : grid2.Coords, EltTy.bits .f32 = 32 ∨ (Rect.block (s := S200000x1) S4000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S200000x128.size a
  hwx2_4 : ∀ i : grid2.Coords, EltTy.bits .f32 = 32 ∨ (Rect.block (s := S200000x128) S4000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S200000x128.size a
  hwx2_9 : ∀ i : grid2.Coords, EltTy.bits .f32 = 32 ∨ (Rect.block (s := S200000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x1.size a ≤ S100000x1.size a
  hwx3_3 : ∀ i : grid3.Coords, EltTy.bits .f32 = 32 ∨ (Rect.block (s := S100000x1) S4000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .f32 = 32 ∨ (Rect.block (s := S100000x128) S4000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S100000x128.size a
  hwx3_9 : ∀ i : grid3.Coords, EltTy.bits .f32 = 32 ∨ (Rect.block (s := S100000x128) S4000x128.size (cc3_transform_9 i) (hinb3_9 i)).WholeWords (EltTy.packing .f32)

variable [Facts₀]

def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def scatter_S200000_S150000x1_S150000_n_0_0_1 : ScatterDims S200000 S150000x1 S150000 where
  updateWindowDims := []
  insertedWindowDims := [0]
  scatterDimsToOperandDims := [0]
  indexVectorDim := 1
  wf := scatter_S200000_S150000x1_S150000_n_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S200000x128_S150000x1_S150000x128_1_0_0_1 : ScatterDims S200000x128 S150000x1 S150000x128 where
  updateWindowDims := [1]
  insertedWindowDims := [0]
  scatterDimsToOperandDims := [0]
  indexVectorDim := 1
  wf := scatter_S200000x128_S150000x1_S150000x128_1_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S200000x128_S150000x1_S150000x128_1_0_n_n_0_1_1128 : GatherDims S200000x128 S150000x1 S150000x128 where
  offsetDims := [1]
  collapsedSliceDims := [0]
  operandBatchingDims := []
  startIndicesBatchingDims := []
  startIndexMap := [0]
  indexVectorDim := 1
  sliceSizes := ![1, 128]
  wf := gather_S200000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v45) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v111) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v112) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S4000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v78) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v81) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v87) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v110) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v113) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v65) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v115) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v116) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v95) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v98) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v104) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v114) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v117) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v133) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v143) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v199) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v200) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v113) S4000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v166) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v169) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v175) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v198) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v201) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v153) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v163) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v203) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v204) S4000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v117) S4000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v183) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v186) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v192) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v202) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v205) S4000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S2x4x128x128 : Shape := ⟨4, ![2, 4, 128, 128]⟩
abbrev S2x4x128 : Shape := ⟨3, ![2, 4, 128]⟩
abbrev S500000 : Shape := ⟨1, ![500000]⟩
abbrev S150000 : Shape := ⟨1, ![150000]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S500000x1 : Shape := ⟨2, ![500000, 1]⟩
abbrev S500000x128 : Shape := ⟨2, ![500000, 128]⟩
abbrev S200000 : Shape := ⟨1, ![200000]⟩
abbrev S200000x1 : Shape := ⟨2, ![200000, 1]⟩
abbrev S150000x1 : Shape := ⟨2, ![150000, 1]⟩
abbrev S150000x128 : Shape := ⟨2, ![150000, 128]⟩
abbrev S100000 : Shape := ⟨1, ![100000]⟩
abbrev S100000x1 : Shape := ⟨2, ![100000, 1]⟩

abbrev nBuf : Space → Nat
  | .hbm => 343
  | .vmem => 0
  | .smem => 0
  | _ => 0

abbrev hbmTy0_0 (i : Nat) : BufTy := match i % 128 with
  | 0 => ⟨S100000x128, .f32⟩
  | 1 => ⟨S200000x128, .f32⟩
  | 2 => ⟨S2x4x128x128, .f32⟩
  | 3 => ⟨S2x4x128, .f32⟩
  | 4 => ⟨S2x4x128x128, .f32⟩
  | 5 => ⟨S500000, .i32⟩
  | 6 => ⟨S500000, .i32⟩
  | 7 => ⟨S150000, .i32⟩
  | 8 => ⟨S150000, .i32⟩
  | 9 => ⟨S1x4x128x128, .f32⟩
  | 10 => ⟨S4x128x128, .f32⟩
  | 11 => ⟨S1x4x128, .f32⟩
  | 12 => ⟨S4x128, .f32⟩
  | 13 => ⟨S1x4x128x128, .f32⟩
  | 14 => ⟨S4x128x128, .f32⟩
  | 15 => ⟨S1x128x128, .f32⟩
  | 16 => ⟨S128x128, .f32⟩
  | 17 => ⟨S1x128, .f32⟩
  | 18 => ⟨S128, .f32⟩
  | 19 => ⟨S1x128x128, .f32⟩
  | 20 => ⟨S128x128, .f32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S500000x1, .i32⟩
  | 29 => ⟨S500000x128, .f32⟩
  | 30 => ⟨S_, .f32⟩
  | 31 => ⟨S200000x128, .f32⟩
  | 32 => ⟨S500000x1, .i32⟩
  | 33 => ⟨S200000x128, .f32⟩
  | 34 => ⟨S_, .f32⟩
  | 35 => ⟨S500000, .f32⟩
  | 36 => ⟨S_, .f32⟩
  | 37 => ⟨S200000, .f32⟩
  | 38 => ⟨S500000x1, .i32⟩
  | 39 => ⟨S200000, .f32⟩
  | 40 => ⟨S_, .f32⟩
  | 41 => ⟨S200000, .f32⟩
  | 42 => ⟨S200000, .f32⟩
  | 43 => ⟨S200000x1, .f32⟩
  | 44 => ⟨S200000x128, .f32⟩
  | 45 => ⟨S200000x128, .f32⟩
  | 46 => ⟨S128x128, .f32⟩
  | 47 => ⟨S200000x128, .f32⟩
  | 48 => ⟨S1x128, .f32⟩
  | 49 => ⟨S200000x128, .f32⟩
  | 50 => ⟨S200000x128, .f32⟩
  | 51 => ⟨S128x128, .f32⟩
  | 52 => ⟨S200000x128, .f32⟩
  | 53 => ⟨S200000x128, .f32⟩
  | 54 => ⟨S1x128x128, .f32⟩
  | 55 => ⟨S128x128, .f32⟩
  | 56 => ⟨S1x128, .f32⟩
  | 57 => ⟨S128, .f32⟩
  | 58 => ⟨S1x128x128, .f32⟩
  | 59 => ⟨S128x128, .f32⟩
  | 60 => ⟨S_, .i32⟩
  | 61 => ⟨S150000, .i32⟩
  | 62 => ⟨S150000, .i1⟩
  | 63 => ⟨S_, .i32⟩
  | 64 => ⟨S150000, .i32⟩
  | 65 => ⟨S150000, .i32⟩
  | 66 => ⟨S150000, .i32⟩
  | 67 => ⟨S150000x1, .i32⟩
  | 68 => ⟨S150000x128, .f32⟩
  | 69 => ⟨S_, .f32⟩
  | 70 => ⟨S200000x128, .f32⟩
  | 71 => ⟨S150000x1, .i32⟩
  | 72 => ⟨S200000x128, .f32⟩
  | 73 => ⟨S_, .f32⟩
  | 74 => ⟨S150000, .f32⟩
  | 75 => ⟨S_, .f32⟩
  | 76 => ⟨S200000, .f32⟩
  | 77 => ⟨S150000x1, .i32⟩
  | 78 => ⟨S200000, .f32⟩
  | 79 => ⟨S_, .f32⟩
  | 80 => ⟨S200000, .f32⟩
  | 81 => ⟨S200000, .f32⟩
  | 82 => ⟨S200000x1, .f32⟩
  | 83 => ⟨S200000x128, .f32⟩
  | 84 => ⟨S200000x128, .f32⟩
  | 85 => ⟨S128x128, .f32⟩
  | 86 => ⟨S200000x128, .f32⟩
  | 87 => ⟨S1x128, .f32⟩
  | 88 => ⟨S200000x128, .f32⟩
  | 89 => ⟨S200000x128, .f32⟩
  | 90 => ⟨S128x128, .f32⟩
  | 91 => ⟨S200000x128, .f32⟩
  | 92 => ⟨S200000x128, .f32⟩
  | 93 => ⟨S200000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S500000x1, .i32⟩
  | 108 => ⟨S500000x128, .f32⟩
  | 109 => ⟨S_, .f32⟩
  | 110 => ⟨S100000x128, .f32⟩
  | 111 => ⟨S500000x1, .i32⟩
  | 112 => ⟨S100000x128, .f32⟩
  | 113 => ⟨S_, .f32⟩
  | 114 => ⟨S500000, .f32⟩
  | 115 => ⟨S_, .f32⟩
  | 116 => ⟨S100000, .f32⟩
  | 117 => ⟨S500000x1, .i32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S128x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S128x128, .f32⟩
  | 3 => ⟨S100000x128, .f32⟩
  | 4 => ⟨S100000x128, .f32⟩
  | 5 => ⟨S1x128x128, .f32⟩
  | 6 => ⟨S128x128, .f32⟩
  | 7 => ⟨S1x128, .f32⟩
  | 8 => ⟨S128, .f32⟩
  | 9 => ⟨S1x128x128, .f32⟩
  | 10 => ⟨S128x128, .f32⟩
  | 11 => ⟨S_, .i32⟩
  | 12 => ⟨S150000, .i32⟩
  | 13 => ⟨S150000, .i1⟩
  | 14 => ⟨S_, .i32⟩
  | 15 => ⟨S150000, .i32⟩
  | 16 => ⟨S150000, .i32⟩
  | 17 => ⟨S150000, .i32⟩
  | 18 => ⟨S150000x1, .i32⟩
  | 19 => ⟨S150000x128, .f32⟩
  | 20 => ⟨S_, .f32⟩
  | 21 => ⟨S100000x128, .f32⟩
  | 22 => ⟨S150000x1, .i32⟩
  | 23 => ⟨S100000x128, .f32⟩
  | 24 => ⟨S_, .f32⟩
  | 25 => ⟨S150000, .f32⟩
  | 26 => ⟨S_, .f32⟩
  | 27 => ⟨S100000, .f32⟩
  | 28 => ⟨S150000x1, .i32⟩
  | 29 => ⟨S100000, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S100000x128, .f32⟩
  | 36 => ⟨S128x128, .f32⟩
  | 37 => ⟨S100000x128, .f32⟩
  | 38 => ⟨S1x128, .f32⟩
  | 39 => ⟨S100000x128, .f32⟩
  | 40 => ⟨S100000x128, .f32⟩
  | 41 => ⟨S128x128, .f32⟩
  | 42 => ⟨S100000x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .f32⟩
  | 49 => ⟨S200000x128, .f32⟩
  | 50 => ⟨S200000x128, .f32⟩
  | 51 => ⟨S1x4x128x128, .f32⟩
  | 52 => ⟨S4x128x128, .f32⟩
  | 53 => ⟨S1x4x128, .f32⟩
  | 54 => ⟨S4x128, .f32⟩
  | 55 => ⟨S1x4x128x128, .f32⟩
  | 56 => ⟨S4x128x128, .f32⟩
  | 57 => ⟨S1x128x128, .f32⟩
  | 58 => ⟨S128x128, .f32⟩
  | 59 => ⟨S1x128, .f32⟩
  | 60 => ⟨S128, .f32⟩
  | 61 => ⟨S1x128x128, .f32⟩
  | 62 => ⟨S128x128, .f32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x128, .f32⟩
  | 72 => ⟨S_, .f32⟩
  | 73 => ⟨S200000x128, .f32⟩
  | 74 => ⟨S500000x1, .i32⟩
  | 75 => ⟨S200000x128, .f32⟩
  | 76 => ⟨S_, .f32⟩
  | 77 => ⟨S500000, .f32⟩
  | 78 => ⟨S_, .f32⟩
  | 79 => ⟨S200000, .f32⟩
  | 80 => ⟨S500000x1, .i32⟩
  | 81 => ⟨S200000, .f32⟩
  | 82 => ⟨S_, .f32⟩
  | 83 => ⟨S200000, .f32⟩
  | 84 => ⟨S200000, .f32⟩
  | 85 => ⟨S200000x1, .f32⟩
  | 86 => ⟨S200000x128, .f32⟩
  | 87 => ⟨S200000x128, .f32⟩
  | 88 => ⟨S128x128, .f32⟩
  | 89 => ⟨S200000x128, .f32⟩
  | 90 => ⟨S1x128, .f32⟩
  | 91 => ⟨S200000x128, .f32⟩
  | 92 => ⟨S200000x128, .f32⟩
  | 93 => ⟨S128x128, .f32⟩
  | 94 => ⟨S200000x128, .f32⟩
  | 95 => ⟨S200000x128, .f32⟩
  | 96 => ⟨S1x128x128, .f32⟩
  | 97 => ⟨S128x128, .f32⟩
  | 98 => ⟨S1x128, .f32⟩
  | 99 => ⟨S128, .f32⟩
  | 100 => ⟨S1x128x128, .f32⟩
  | 101 => ⟨S128x128, .f32⟩
  | 102 => ⟨S_, .i32⟩
  | 103 => ⟨S150000, .i32⟩
  | 104 => ⟨S150000, .i1⟩
  | 105 => ⟨S_, .i32⟩
  | 106 => ⟨S150000, .i32⟩
  | 107 => ⟨S150000, .i32⟩
  | 108 => ⟨S150000, .i32⟩
  | 109 => ⟨S150000x1, .i32⟩
  | 110 => ⟨S150000x128, .f32⟩
  | 111 => ⟨S_, .f32⟩
  | 112 => ⟨S200000x128, .f32⟩
  | 113 => ⟨S150000x1, .i32⟩
  | 114 => ⟨S200000x128, .f32⟩
  | 115 => ⟨S_, .f32⟩
  | 116 => ⟨S150000, .f32⟩
  | 117 => ⟨S_, .f32⟩
  | 118 => ⟨S200000, .f32⟩
  | 119 => ⟨S150000x1, .i32⟩
  | 120 => ⟨S200000, .f32⟩
  | 121 => ⟨S_, .f32⟩
  | 122 => ⟨S200000, .f32⟩
  | 123 => ⟨S200000, .f32⟩
  | 124 => ⟨S200000x1, .f32⟩
  | 125 => ⟨S200000x128, .f32⟩
  | 126 => ⟨S200000x128, .f32⟩
  | 127 => ⟨S128x128, .f32⟩
  | _ => ⟨S100000x128, .f32⟩

abbrev hbmTy0_2 (i : Nat) : BufTy := match i % 128 with
  | 0 => ⟨S200000x128, .f32⟩
  | 1 => ⟨S1x128, .f32⟩
  | 2 => ⟨S200000x128, .f32⟩
  | 3 => ⟨S200000x128, .f32⟩
  | 4 => ⟨S128x128, .f32⟩
  | 5 => ⟨S200000x128, .f32⟩
  | 6 => ⟨S200000x128, .f32⟩
  | 7 => ⟨S200000x128, .f32⟩
  | 8 => ⟨S1x128x128, .f32⟩
  | 9 => ⟨S128x128, .f32⟩
  | 10 => ⟨S1x128, .f32⟩
  | 11 => ⟨S128, .f32⟩
  | 12 => ⟨S1x128x128, .f32⟩
  | 13 => ⟨S128x128, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x128, .f32⟩
  | 23 => ⟨S_, .f32⟩
  | 24 => ⟨S100000x128, .f32⟩
  | 25 => ⟨S500000x1, .i32⟩
  | 26 => ⟨S100000x128, .f32⟩
  | 27 => ⟨S_, .f32⟩
  | 28 => ⟨S500000, .f32⟩
  | 29 => ⟨S_, .f32⟩
  | 30 => ⟨S100000, .f32⟩
  | 31 => ⟨S500000x1, .i32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x128, .f32⟩
  | 38 => ⟨S100000x128, .f32⟩
  | 39 => ⟨S128x128, .f32⟩
  | 40 => ⟨S100000x128, .f32⟩
  | 41 => ⟨S1x128, .f32⟩
  | 42 => ⟨S100000x128, .f32⟩
  | 43 => ⟨S100000x128, .f32⟩
  | 44 => ⟨S128x128, .f32⟩
  | 45 => ⟨S100000x128, .f32⟩
  | 46 => ⟨S100000x128, .f32⟩
  | 47 => ⟨S1x128x128, .f32⟩
  | 48 => ⟨S128x128, .f32⟩
  | 49 => ⟨S1x128, .f32⟩
  | 50 => ⟨S128, .f32⟩
  | 51 => ⟨S1x128x128, .f32⟩
  | 52 => ⟨S128x128, .f32⟩
  | 53 => ⟨S_, .i32⟩
  | 54 => ⟨S150000, .i32⟩
  | 55 => ⟨S150000, .i1⟩
  | 56 => ⟨S_, .i32⟩
  | 57 => ⟨S150000, .i32⟩
  | 58 => ⟨S150000, .i32⟩
  | 59 => ⟨S150000, .i32⟩
  | 60 => ⟨S150000x1, .i32⟩
  | 61 => ⟨S150000x128, .f32⟩
  | 62 => ⟨S_, .f32⟩
  | 63 => ⟨S100000x128, .f32⟩
  | 64 => ⟨S150000x1, .i32⟩
  | 65 => ⟨S100000x128, .f32⟩
  | 66 => ⟨S_, .f32⟩
  | 67 => ⟨S150000, .f32⟩
  | 68 => ⟨S_, .f32⟩
  | 69 => ⟨S100000, .f32⟩
  | 70 => ⟨S150000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S128x128, .f32⟩
  | 79 => ⟨S100000x128, .f32⟩
  | 80 => ⟨S1x128, .f32⟩
  | 81 => ⟨S100000x128, .f32⟩
  | 82 => ⟨S100000x128, .f32⟩
  | 83 => ⟨S128x128, .f32⟩
  | 84 => ⟨S100000x128, .f32⟩
  | 85 => ⟨S100000x128, .f32⟩
  | 86 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_4 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c_10 : Ref sig .tc := ⟨.hbm, 100, rfl⟩
abbrev main_v79 : Ref sig .tc := ⟨.hbm, 101, rfl⟩
abbrev main_v80 : Ref sig .tc := ⟨.hbm, 102, rfl⟩
abbrev main_c_11 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_12 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_13 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_c_16 : Ref sig .tc := ⟨.hbm, 139, rfl⟩
abbrev main_v112 : Ref sig .tc := ⟨.hbm, 140, rfl⟩
abbrev main_v113 : Ref sig .tc := ⟨.hbm, 141, rfl⟩
abbrev main_c_17 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_18 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_19 : Ref sig .tc := ⟨.hbm, 152, rfl⟩
abbrev main_v122 : Ref sig .tc := ⟨.hbm, 153, rfl⟩
abbrev main_cst_20 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_cst_21 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_call0_cst : Ref sig .tc := ⟨.hbm, 173, rfl⟩
abbrev main_call0_v0 : Ref sig .tc := ⟨.hbm, 174, rfl⟩
abbrev main_v140 : Ref sig .tc := ⟨.hbm, 175, rfl⟩
abbrev main_call1_cst : Ref sig .tc := ⟨.hbm, 176, rfl⟩
abbrev main_call1_v0 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_c_22 : Ref sig .tc := ⟨.hbm, 191, rfl⟩
abbrev main_v154 : Ref sig .tc := ⟨.hbm, 192, rfl⟩
abbrev main_v155 : Ref sig .tc := ⟨.hbm, 193, rfl⟩
abbrev main_c_23 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_24 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_25 : Ref sig .tc := ⟨.hbm, 204, rfl⟩
abbrev main_v164 : Ref sig .tc := ⟨.hbm, 205, rfl⟩
abbrev main_cst_26 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_27 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_c_28 : Ref sig .tc := ⟨.hbm, 230, rfl⟩
abbrev main_v187 : Ref sig .tc := ⟨.hbm, 231, rfl⟩
abbrev main_v188 : Ref sig .tc := ⟨.hbm, 232, rfl⟩
abbrev main_c_29 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_cst_30 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_cst_31 : Ref sig .tc := ⟨.hbm, 243, rfl⟩
abbrev main_v197 : Ref sig .tc := ⟨.hbm, 244, rfl⟩
abbrev main_cst_32 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_33 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_c_34 : Ref sig .tc := ⟨.hbm, 270, rfl⟩
abbrev main_v221 : Ref sig .tc := ⟨.hbm, 271, rfl⟩
abbrev main_v222 : Ref sig .tc := ⟨.hbm, 272, rfl⟩
abbrev main_c_35 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_cst_36 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_cst_37 : Ref sig .tc := ⟨.hbm, 283, rfl⟩
abbrev main_v231 : Ref sig .tc := ⟨.hbm, 284, rfl⟩
abbrev main_cst_38 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_cst_39 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_c_40 : Ref sig .tc := ⟨.hbm, 309, rfl⟩
abbrev main_v254 : Ref sig .tc := ⟨.hbm, 310, rfl⟩
abbrev main_v255 : Ref sig .tc := ⟨.hbm, 311, rfl⟩
abbrev main_c_41 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_cst_42 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_cst_43 : Ref sig .tc := ⟨.hbm, 322, rfl⟩
abbrev main_v264 : Ref sig .tc := ⟨.hbm, 323, rfl⟩
abbrev main_cst_44 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_cst_45 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩

abbrev nD : Nat := 1
abbrev τ : Topo := Topo.v7x

variable {F : FTy → Type} [FloatOps F]

class Facts₀ : Prop where
  slices_S2x4x128x128_S1x4x128x128_0_0_0_0 : S2x4x128x128.Slices ![0, 0, 0, 0] S1x4x128x128
  shapeCasts_S1x4x128x128_S4x128x128 : S1x4x128x128.ShapeCasts S4x128x128
  slices_S2x4x128_S1x4x128_0_0_0 : S2x4x128.Slices ![0, 0, 0] S1x4x128
  shapeCasts_S1x4x128_S4x128 : S1x4x128.ShapeCasts S4x128
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S500000 : S_.BroadcastsInDim S500000 (![] : Fin 0 → Fin S500000.rank)
  bcast_S500000_S500000x1_0 : S500000.BroadcastsInDim S500000x1 (![0] : Fin 1 → Fin S500000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  slices_S4x128x128_S1x128x128_2_0_0 : S4x128x128.Slices ![2, 0, 0] S1x128x128
  slices_S4x128_S1x128_2_0 : S4x128.Slices ![2, 0] S1x128
  bcast_S_S150000 : S_.BroadcastsInDim S150000 (![] : Fin 0 → Fin S150000.rank)
  bcast_S150000_S150000x1_0 : S150000.BroadcastsInDim S150000x1 (![0] : Fin 1 → Fin S150000x1.rank)
  slices_S4x128x128_S1x128x128_1_0_0 : S4x128x128.Slices ![1, 0, 0] S1x128x128
  slices_S4x128_S1x128_1_0 : S4x128.Slices ![1, 0] S1x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S4x128x128_S1x128x128_3_0_0 : S4x128x128.Slices ![3, 0, 0] S1x128x128
  slices_S4x128_S1x128_3_0 : S4x128.Slices ![3, 0] S1x128
  slices_S2x4x128x128_S1x4x128x128_1_0_0_0 : S2x4x128x128.Slices ![1, 0, 0, 0] S1x4x128x128
  slices_S2x4x128_S1x4x128_1_0_0 : S2x4x128.Slices ![1, 0, 0] S1x4x128
  gather_S100000x128_S500000x1_S500000x128_1_0_n_n_0_1_1128_wf : GatherDims.WF S100000x128 S500000x1 S500000x128 [1] [0] [] [0] [] 1 ![1, 128]
  scatter_S200000x128_S500000x1_S500000x128_1_0_0_1_wf : ScatterDims.WF S200000x128 S500000x1 S500000x128 [1] [0] [0] 1
  scatter_S200000_S500000x1_S500000_n_0_0_1_wf : ScatterDims.WF S200000 S500000x1 S500000 [] [0] [0] 1
  dot_S200000x128_S128x128_S200000x128_1_0_0_1_n_n_wf : DotDims.WF S200000x128 S128x128 S200000x128 [1] [0] [0] [1] [] []
  gather_S100000x128_S150000x1_S150000x128_1_0_n_n_0_1_1128_wf : GatherDims.WF S100000x128 S150000x1 S150000x128 [1] [0] [] [0] [] 1 ![1, 128]
  scatter_S200000x128_S150000x1_S150000x128_1_0_0_1_wf : ScatterDims.WF S200000x128 S150000x1 S150000x128 [1] [0] [0] 1
  scatter_S200000_S150000x1_S150000_n_0_0_1_wf : ScatterDims.WF S200000 S150000x1 S150000 [] [0] [0] 1
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []
  gather_S200000x128_S150000x1_S150000x128_1_0_n_n_0_1_1128_wf : GatherDims.WF S200000x128 S150000x1 S150000x128 [1] [0] [] [0] [] 1 ![1, 128]
  scatter_S100000x128_S150000x1_S150000x128_1_0_0_1_wf : ScatterDims.WF S100000x128 S150000x1 S150000x128 [1] [0] [0] 1
  scatter_S100000_S150000x1_S150000_n_0_0_1_wf : ScatterDims.WF S100000 S150000x1 S150000 [] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S200000x128_S500000x1_S500000x128_1_0_0_1 : ScatterDims S200000x128 S500000x1 S500000x128 where
  updateWindowDims := [1]
  insertedWindowDims := [0]
  scatterDimsToOperandDims := [0]
  indexVectorDim := 1
  wf := scatter_S200000x128_S500000x1_S500000x128_1_0_0_1_wf
def scatter_S200000_S500000x1_S500000_n_0_0_1 : ScatterDims S200000 S500000x1 S500000 where
  updateWindowDims := []
  insertedWindowDims := [0]
  scatterDimsToOperandDims := [0]
  indexVectorDim := 1
  wf := scatter_S200000_S500000x1_S500000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S100000x128_S150000x1_S150000x128_1_0_n_n_0_1_1128 : GatherDims S100000x128 S150000x1 S150000x128 where
  offsetDims := [1]
  collapsedSliceDims := [0]
  operandBatchingDims := []
  startIndicesBatchingDims := []
  startIndexMap := [0]
  indexVectorDim := 1
  sliceSizes := ![1, 128]
  wf := gather_S100000x128_S150000x1_S150000x128_1_0_n_n_0_1_1128_wf
def scatter_S200000x128_S150000x1_S150000x128_1_0_0_1 : ScatterDims S200000x128 S150000x1 S150000x128 where
  updateWindowDims := [1]
  insertedWindowDims := [0]
  scatterDimsToOperandDims := [0]
  indexVectorDim := 1
  wf := scatter_S200000x128_S150000x1_S150000x128_1_0_0_1_wf
def scatter_S200000_S150000x1_S150000_n_0_0_1 : ScatterDims S200000 S150000x1 S150000 where
  updateWindowDims := []
  insertedWindowDims := [0]
  scatterDimsToOperandDims := [0]
  indexVectorDim := 1
  wf := scatter_S200000_S150000x1_S150000_n_0_0_1_wf
def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S200000x128_S150000x1_S150000x128_1_0_n_n_0_1_1128 : GatherDims S200000x128 S150000x1 S150000x128 where
  offsetDims := [1]
  collapsedSliceDims := [0]
  operandBatchingDims := []
  startIndicesBatchingDims := []
  startIndexMap := [0]
  indexVectorDim := 1
  sliceSizes := ![1, 128]
  wf := gather_S200000x128_S150000x1_S150000x128_1_0_n_n_0_1_1128_wf
def scatter_S100000x128_S150000x1_S150000x128_1_0_0_1 : ScatterDims S100000x128 S150000x1 S150000x128 where
  updateWindowDims := [1]
  insertedWindowDims := [0]
  scatterDimsToOperandDims := [0]
  indexVectorDim := 1
  wf := scatter_S100000x128_S150000x1_S150000x128_1_0_0_1_wf
def scatter_S100000_S150000x1_S150000_n_0_0_1 : ScatterDims S100000 S150000x1 S150000 where
  updateWindowDims := []
  insertedWindowDims := [0]
  scatterDimsToOperandDims := [0]
  indexVectorDim := 1
  wf := scatter_S100000_S150000x1_S150000_n_0_0_1_wf

class Facts : Prop extends Facts₀ where

variable [Facts]
-- ==== Proof.KernelRun.lean ====
/-
  The idealized kernel program's run, with what it leaves in memory kept.

  The program is eight segments: four stretches of host operations, each followed by one pipelined kernel
  region. Running them in order from the launch memory leaves every buffer at the last boundary's contents
  `W8` (each host stretch applied to the contents before it; each region's arrays at what its write-backs
  leave, every other buffer as the region found it). The frame claim only keeps the argument arrays of that;
  here the whole final contents are kept, so that the two result arrays can be read off.
-/
import proofs.«147864_j85770496901303_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last boundary's contents: the segments' launch, the last thread state read against the
    final memory. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, with the two result arrays and the nine argument arrays named. -/
theorem run_results : θ_run defs (onTc (τ := τ) (main (F := F))) ⟨m, fun _ => 0, ρ⟩ (fun r => ∀ c : Dev nD,
      r.2.mem ((c.tc : Thread nD τ).loc main_v205) = W8 m ρ c (Proc.devRef .tc main_v205)
      ∧ r.2.mem ((c.tc : Thread nD τ).loc main_v201) = W8 m ρ c (Proc.devRef .tc main_v201)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v205 (by decide)),
     h c _ (mem_uc main_v201 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c)⟩)
    (run_final m ρ)

end Cert.KernelIdeal.Hand

end
-- ==== Proof.HostOps.lean ====
/-
  The host operations of the idealized kernel program, stretch by stretch: what each buffer that a later
  kernel region or stretch reads holds after the stretch, as a term of the contents `W` before it.

  The first stretch computes, from the argument arrays, the four neighbour aggregates of the first layer (rows
  gathered along the edges and summed per destination), the four reciprocal clamped neighbour counts, and the
  first layer's weights in the form the kernel takes them (neighbour weights transposed; the two self weights
  of a destination side summed, then transposed; the two biases summed). The third stretch does the same for
  the second layer, gathering from the first layer's two outputs. The second and fourth stretches only reshape
  a bias to a row and two reciprocal counts to columns. Wherever the reference program computes the same
  array, the term is written with the reference's own stage; each equation holds by running the stretch's
  operations in order.
-/
import proofs.«147864_j85770496901303_2_alg».proof.Proof.Gen.KernelIdeal.Frame
import proofs.«147864_j85770496901303_2_alg».proof.Proof.RefRead
import Idealize.ShloMosaic.Lib.StableHlo.Run
import Idealize.ShloMosaic.PureOps.Ideal

set_option maxRecDepth 16384

noncomputable section

namespace Cert.KernelIdeal.HostOps

open Cert.KernelIdeal Cert.KernelIdeal.Gen
open Idealize.ShloMosaic Idealize.ShloMosaic.TcCoe Idealize.SL.Sem Idealize.ShloMosaic.StableHlo
open Cert.ReferenceIdeal.Read

variable (W : Valuation τ sig (Elt Ideal))

/-! ## Stretch 0 -/

set_option maxHeartbeats 4000000 in
theorem ops0_main_v45 : StableHlo.after (hostOps0 (F := Ideal)) W (Proc.devRef .tc main_v45)
    = (val_main_v21 (F := Ideal) (W (Proc.devRef .tc main_arg0)) (W (Proc.devRef .tc main_arg5)) (W (Proc.devRef .tc main_arg6))) := by
  after_results_simp <;> rfl

set_option maxHeartbeats 4000000 in
theorem ops0_main_v55 : StableHlo.after (hostOps0 (F := Ideal)) W (Proc.devRef .tc main_v55)
    = (val_main_v54 (F := Ideal) (W (Proc.devRef .tc main_arg0)) (W (Proc.devRef .tc main_arg7)) (W (Proc.devRef .tc main_arg8))) := by
  after_results_simp <;> rfl

set_option maxHeartbeats 4000000 in
theorem ops0_main_v65 : StableHlo.after (hostOps0 (F := Ideal)) W (Proc.devRef .tc main_v65)
    = (val_main_v88 (F := Ideal) (W (Proc.devRef .tc main_arg1)) (W (Proc.devRef .tc main_arg5)) (W (Proc.devRef .tc main_arg6))) := by
  after_results_simp <;> rfl

set_option maxHeartbeats 4000000 in
theorem ops0_main_v75 : StableHlo.after (hostOps0 (F := Ideal)) W (Proc.devRef .tc main_v75)
    = (val_main_v121 (F := Ideal) (W (Proc.devRef .tc main_arg1)) (W (Proc.devRef .tc main_arg7)) (W (Proc.devRef .tc main_arg8))) := by
  after_results_simp <;> rfl

set_option maxHeartbeats 4000000 in
theorem ops0_main_v17 : StableHlo.after (hostOps0 (F := Ideal)) W (Proc.devRef .tc main_v17)
    = (Host.divf (broadcastInDim S200000 ![] bcast_S_S200000 (constant (F := Ideal) S_ .f32 0x3F800000#32)) (val_main_v27 (F := Ideal) (W (Proc.devRef .tc main_arg6)))) := by
  after_results_simp <;> rfl

set_option maxHeartbeats 4000000 in
theorem ops0_main_v21 : StableHlo.after (hostOps0 (F := Ideal)) W (Proc.devRef .tc main_v21)
    = (Host.divf (broadcastInDim S200000 ![] bcast_S_S200000 (constant (F := Ideal) S_ .f32 0x3F800000#32)) (val_main_v60 (F := Ideal) (W (Proc.devRef .tc main_arg8)))) := by
  after_results_simp <;> rfl

set_option maxHeartbeats 4000000 in
theorem ops0_main_v25 : StableHlo.after (hostOps0 (F := Ideal)) W (Proc.devRef .tc main_v25)
    = (Host.divf (broadcastInDim S100000 ![] bcast_S_S100000 (constant (F := Ideal) S_ .f32 0x3F800000#32)) (val_main_v94 (F := Ideal) (W (Proc.devRef .tc main_arg5)))) := by
  after_results_simp <;> rfl

set_option maxHeartbeats 4000000 in
theorem ops0_main_v29 : StableHlo.after (hostOps0 (F := Ideal)) W (Proc.devRef .tc main_v29)
    = (Host.divf (broadcastInDim S100000 ![] bcast_S_S100000 (constant (F := Ideal) S_ .f32 0x3F800000#32)) (val_main_v127 (F := Ideal) (W (Proc.devRef .tc main_arg7)))) := by
  after_results_simp <;> rfl

set_option maxHeartbeats 4000000 in
theorem ops0_main_v111 : StableHlo.after (hostOps0 (F := Ideal)) W (Proc.devRef .tc main_v111)
    = (shapeCast S200000x1 (Host.divf (broadcastInDim S200000 ![] bcast_S_S200000 (constant (F := Ideal) S_ .f32 0x3F800000#32)) (val_main_v27 (F := Ideal) (W (Proc.devRef .tc main_arg6)))) shapeCasts_S200000_S200000x1) := by
  after_results_simp <;> rfl

set_option maxHeartbeats 4000000 in
theorem ops0_main_v112 : StableHlo.after (hostOps0 (F := Ideal)) W (Proc.devRef .tc main_v112)
    = (shapeCast S200000x1 (Host.divf (broadcastInDim S200000 ![] bcast_S_S200000 (constant (F := Ideal) S_ .f32 0x3F800000#32)) (val_main_v60 (F := Ideal) (W (Proc.devRef .tc main_arg8)))) shapeCasts_S200000_S200000x1) := by
  after_results_simp <;> rfl

set_option maxHeartbeats 4000000 in
theorem ops0_main_v78 : StableHlo.after (hostOps0 (F := Ideal)) W (Proc.devRef .tc main_v78)
    = (val_main_v31 (F := Ideal) (W (Proc.devRef .tc main_arg2))) := by
  after_results_simp <;> rfl

set_option maxHeartbeats 4000000 in
theorem ops0_main_v81 : StableHlo.after (hostOps0 (F := Ideal)) W (Proc.devRef .tc main_v81)
    = (val_main_v64 (F := Ideal) (W (Proc.devRef .tc main_arg2))) := by
  after_results_simp <;> rfl

set_option maxHeartbeats 4000000 in
theorem ops0_main_v87 : StableHlo.after (hostOps0 (F := Ideal)) W (Proc.devRef .tc main_v87)
    = (transpose S128x128 [1, 0] (addf (F := Ideal) (φ := .f32) (val_main_v11 (F := Ideal) (W (Proc.devRef .tc main_arg4))) (val_main_v44 (F := Ideal) (W (Proc.devRef .tc main_arg4)))) transposes_S128x128_S128x128_1_0) := by
  after_results_simp <;> rfl

set_option maxHeartbeats 4000000 in
theorem ops0_main_v110 : StableHlo.after (hostOps0 (F := Ideal)) W (Proc.devRef .tc main_v110)
    = (shapeCast S1x128 (addf (F := Ideal) (φ := .f32) (val_main_v9 (F := Ideal) (W (Proc.devRef .tc main_arg3))) (val_main_v42 (F := Ideal) (W (Proc.devRef .tc main_arg3)))) shapeCasts_S128_S1x128) := by
  after_results_simp <;> rfl

set_option maxHeartbeats 4000000 in
theorem ops0_main_v95 : StableHlo.after (hostOps0 (F := Ideal)) W (Proc.devRef .tc main_v95)
    = (val_main_v98 (F := Ideal) (W (Proc.devRef .tc main_arg2))) := by
  after_results_simp <;> rfl

set_option maxHeartbeats 4000000 in
theorem ops0_main_v98 : StableHlo.after (hostOps0 (F := Ideal)) W (Proc.devRef .tc main_v98)
    = (val_main_v131 (F := Ideal) (W (Proc.devRef .tc main_arg2))) := by
  after_results_simp <;> rfl

set_option maxHeartbeats 4000000 in
theorem ops0_main_v104 : StableHlo.after (hostOps0 (F := Ideal)) W (Proc.devRef .tc main_v104)
    = (transpose S128x128 [1, 0] (addf (F := Ideal) (φ := .f32) (val_main_v78 (F := Ideal) (W (Proc.devRef .tc main_arg4))) (val_main_v111 (F := Ideal) (W (Proc.devRef .tc main_arg4)))) transposes_S128x128_S128x128_1_0) := by
  after_results_simp <;> rfl

set_option maxHeartbeats 4000000 in
theorem ops0_main_v109 : StableHlo.after (hostOps0 (F := Ideal)) W (Proc.devRef .tc main_v109)
    = (addf (F := Ideal) (φ := .f32) (val_main_v76 (F := Ideal) (W (Proc.devRef .tc main_arg3))) (val_main_v109 (F := Ideal) (W (Proc.devRef .tc main_arg3)))) := by
  after_results_simp <;> rfl

/-! ### Buffers the stretch does not write -/

set_option maxHeartbeats 4000000 in
theorem pass0_main_arg0 : StableHlo.after (hostOps0 (F := Ideal)) W (Proc.devRef .tc main_arg0) = W (Proc.devRef .tc main_arg0) := by
  after_results_simp <;> rfl

set_option maxHeartbeats 4000000 in
theorem pass0_main_arg1 : StableHlo.after (hostOps0 (F := Ideal)) W (Proc.devRef .tc main_arg1) = W (Proc.devRef .tc main_arg1) := by
  after_results_simp <;> rfl

set_option maxHeartbeats 4000000 in
theorem pass0_main_arg2 : StableHlo.after (hostOps0 (F := Ideal)) W (Proc.devRef .tc main_arg2) = W (Proc.devRef .tc main_arg2) := by
  after_results_simp <;> rfl

set_option maxHeartbeats 4000000 in
theorem pass0_main_arg3 : StableHlo.after (hostOps0 (F := Ideal)) W (Proc.devRef .tc main_arg3) = W (Proc.devRef .tc main_arg3) := by
  after_results_simp <;> rfl

set_option maxHeartbeats 4000000 in
theorem pass0_main_arg4 : StableHlo.after (hostOps0 (F := Ideal)) W (Proc.devRef .tc main_arg4) = W (Proc.devRef .tc main_arg4) := by
  after_results_simp <;> rfl

set_option maxHeartbeats 4000000 in
theorem pass0_main_arg5 : StableHlo.after (hostOps0 (F := Ideal)) W (Proc.devRef .tc main_arg5) = W (Proc.devRef .tc main_arg5) := by
  after_results_simp <;> rfl

set_option maxHeartbeats 4000000 in
theorem pass0_main_arg6 : StableHlo.after (hostOps0 (F := Ideal)) W (Proc.devRef .tc main_arg6) = W (Proc.devRef .tc main_arg6) := by
  after_results_simp <;> rfl

set_option maxHeartbeats 4000000 in
theorem pass0_main_arg7 : StableHlo.after (hostOps0 (F := Ideal)) W (Proc.devRef .tc main_arg7) = W (Proc.devRef .tc main_arg7) := by
  after_results_simp <;> rfl

set_option maxHeartbeats 4000000 in
theorem pass0_main_arg8 : StableHlo.after (hostOps0 (F := Ideal)) W (Proc.devRef .tc main_arg8) = W (Proc.devRef .tc main_arg8) := by
  after_results_simp <;> rfl

/-! ## Stretch 1 -/

set_option maxHeartbeats 4000000 in
theorem ops1_main_v114 : StableHlo.after (hostOps1 (F := Ideal)) W (Proc.devRef .tc main_v114)
    = (shapeCast S1x128 (W (Proc.devRef .tc main_v109)) shapeCasts_S128_S1x128) := by
  after_results_simp <;> rfl

set_option maxHeartbeats 4000000 in
theorem ops1_main_v115 : StableHlo.after (hostOps1 (F := Ideal)) W (Proc.devRef .tc main_v115)
    = (shapeCast S100000x1 (W (Proc.devRef .tc main_v25)) shapeCasts_S100000_S100000x1) := by
  after_results_simp <;> rfl

set_option maxHeartbeats 4000000 in
theorem ops1_main_v116 : StableHlo.after (hostOps1 (F := Ideal)) W (Proc.devRef .tc main_v116)
    = (shapeCast S100000x1 (W (Proc.devRef .tc main_v29)) shapeCasts_S100000_S100000x1) := by
  after_results_simp <;> rfl

/-! ### Buffers the stretch does not write -/

set_option maxHeartbeats 4000000 in
theorem pass1_main_arg0 : StableHlo.after (hostOps1 (F := Ideal)) W (Proc.devRef .tc main_arg0) = W (Proc.devRef .tc main_arg0) := by
  after_results_simp <;> rfl

set_option maxHeartbeats 4000000 in
theorem pass1_main_arg2 : StableHlo.after (hostOps1 (F := Ideal)) W (Proc.devRef .tc main_arg2) = W (Proc.devRef .tc main_arg2) := by
  after_results_simp <;> rfl

set_option maxHeartbeats 4000000 in
theorem pass1_main_arg3 : StableHlo.after (hostOps1 (F := Ideal)) W (Proc.devRef .tc main_arg3) = W (Proc.devRef .tc main_arg3) := by
  after_results_simp <;> rfl

set_option maxHeartbeats 4000000 in
theorem pass1_main_arg4 : StableHlo.after (hostOps1 (F := Ideal)) W (Proc.devRef .tc main_arg4) = W (Proc.devRef .tc main_arg4) := by
  after_results_simp <;> rfl

set_option maxHeartbeats 4000000 in
theorem pass1_main_arg5 : StableHlo.after (hostOps1 (F := Ideal)) W (Proc.devRef .tc main_arg5) = W (Proc.devRef .tc main_arg5) := by
  after_results_simp <;> rfl

set_option maxHeartbeats 4000000 in
theorem pass1_main_arg6 : StableHlo.after (hostOps1 (F := Ideal)) W (Proc.devRef .tc main_arg6) = W (Proc.devRef .tc main_arg6) := by
  after_results_simp <;> rfl

set_option maxHeartbeats 4000000 in
theorem pass1_main_arg7 : StableHlo.after (hostOps1 (F := Ideal)) W (Proc.devRef .tc main_arg7) = W (Proc.devRef .tc main_arg7) := by
  after_results_simp <;> rfl

set_option maxHeartbeats 4000000 in
theorem pass1_main_arg8 : StableHlo.after (hostOps1 (F := Ideal)) W (Proc.devRef .tc main_arg8) = W (Proc.devRef .tc main_arg8) := by
  after_results_simp <;> rfl

set_option maxHeartbeats 4000000 in
theorem pass1_main_v65 : StableHlo.after (hostOps1 (F := Ideal)) W (Proc.devRef .tc main_v65) = W (Proc.devRef .tc main_v65) := by
  after_results_simp <;> rfl

set_option maxHeartbeats 4000000 in
theorem pass1_main_v75 : StableHlo.after (hostOps1 (F := Ideal)) W (Proc.devRef .tc main_v75) = W (Proc.devRef .tc main_v75) := by
  after_results_simp <;> rfl

set_option maxHeartbeats 4000000 in
theorem pass1_main_v95 : StableHlo.after (hostOps1 (F := Ideal)) W (Proc.devRef .tc main_v95) = W (Proc.devRef .tc main_v95) := by
  after_results_simp <;> rfl

set_option maxHeartbeats 4000000 in
theorem pass1_main_v98 : StableHlo.after (hostOps1 (F := Ideal)) W (Proc.devRef .tc main_v98) = W (Proc.devRef .tc main_v98) := by
  after_results_simp <;> rfl

set_option maxHeartbeats 4000000 in
theorem pass1_main_v104 : StableHlo.after (hostOps1 (F := Ideal)) W (Proc.devRef .tc main_v104) = W (Proc.devRef .tc main_v104) := by
  after_results_simp <;> rfl

set_option maxHeartbeats 4000000 in
theorem pass1_main_v113 : StableHlo.after (hostOps1 (F := Ideal)) W (Proc.devRef .tc main_v113) = W (Proc.devRef .tc main_v113) := by
  after_results_simp <;> rfl

set_option maxHeartbeats 4000000 in
theorem pass1_main_v17 : StableHlo.after (hostOps1 (F := Ideal)) W (Proc.devRef .tc main_v17) = W (Proc.devRef .tc main_v17) := by
  after_results_simp <;> rfl

set_option maxHeartbeats 4000000 in
theorem pass1_main_v21 : StableHlo.after (hostOps1 (F := Ideal)) W (Proc.devRef .tc main_v21) = W (Proc.devRef .tc main_v21) := by
  after_results_simp <;> rfl

set_option maxHeartbeats 4000000 in
theorem pass1_main_v25 : StableHlo.after (hostOps1 (F := Ideal)) W (Proc.devRef .tc main_v25) = W (Proc.devRef .tc main_v25) := by
  after_results_simp <;> rfl

set_option maxHeartbeats 4000000 in
theorem pass1_main_v29 : StableHlo.after (hostOps1 (F := Ideal)) W (Proc.devRef .tc main_v29) = W (Proc.devRef .tc main_v29) := by
  after_results_simp <;> rfl

/-! ## Stretch 2 -/

set_option maxHeartbeats 4000000 in
theorem ops2_main_v133 : StableHlo.after (hostOps2 (F := Ideal)) W (Proc.devRef .tc main_v133)
    = (Host.scatterAdd (F := Ideal) (φ := .f32) scatter_S200000x128_S500000x1_S500000x128_1_0_0_1 (val_main_v161 (F := Ideal)) (val_main_v162 (F := Ideal) (W (Proc.devRef .tc main_arg6))) (Host.gather gather_S100000x128_S500000x1_S500000x128_1_0_n_n_0_1_1128 (W (Proc.devRef .tc main_v117)) (val_main_v159 (F := Ideal) (W (Proc.devRef .tc main_arg5))))) := by
  after_results_simp <;> rfl

set_option maxHeartbeats 4000000 in
theorem ops2_main_v143 : StableHlo.after (hostOps2 (F := Ideal)) W (Proc.devRef .tc main_v143)
    = (Host.scatterAdd (F := Ideal) (φ := .f32) scatter_S200000x128_S150000x1_S150000x128_1_0_0_1 (val_main_v194 (F := Ideal)) (val_main_v195 (F := Ideal) (W (Proc.devRef .tc main_arg8))) (Host.gather gather_S100000x128_S150000x1_S150000x128_1_0_n_n_0_1_1128 (W (Proc.devRef .tc main_v117)) (val_main_v192 (F := Ideal) (W (Proc.devRef .tc main_arg7))))) := by
  after_results_simp <;> rfl

set_option maxHeartbeats 4000000 in
theorem ops2_main_v153 : StableHlo.after (hostOps2 (F := Ideal)) W (Proc.devRef .tc main_v153)
    = (Host.scatterAdd (F := Ideal) (φ := .f32) scatter_S100000x128_S500000x1_S500000x128_1_0_0_1 (val_main_v228 (F := Ideal)) (val_main_v229 (F := Ideal) (W (Proc.devRef .tc main_arg5))) (Host.gather gather_S200000x128_S500000x1_S500000x128_1_0_n_n_0_1_1128 (W (Proc.devRef .tc main_v113)) (val_main_v226 (F := Ideal) (W (Proc.devRef .tc main_arg6))))) := by
  after_results_simp <;> rfl

set_option maxHeartbeats 4000000 in
theorem ops2_main_v163 : StableHlo.after (hostOps2 (F := Ideal)) W (Proc.devRef .tc main_v163)
    = (Host.scatterAdd (F := Ideal) (φ := .f32) scatter_S100000x128_S150000x1_S150000x128_1_0_0_1 (val_main_v261 (F := Ideal)) (val_main_v262 (F := Ideal) (W (Proc.devRef .tc main_arg7))) (Host.gather gather_S200000x128_S150000x1_S150000x128_1_0_n_n_0_1_1128 (W (Proc.devRef .tc main_v113)) (val_main_v259 (F := Ideal) (W (Proc.devRef .tc main_arg8))))) := by
  after_results_simp <;> rfl

set_option maxHeartbeats 4000000 in
theorem ops2_main_v199 : StableHlo.after (hostOps2 (F := Ideal)) W (Proc.devRef .tc main_v199)
    = (shapeCast S200000x1 (W (Proc.devRef .tc main_v17)) shapeCasts_S200000_S200000x1) := by
  after_results_simp <;> rfl

set_option maxHeartbeats 4000000 in
theorem ops2_main_v200 : StableHlo.after (hostOps2 (F := Ideal)) W (Proc.devRef .tc main_v200)
    = (shapeCast S200000x1 (W (Proc.devRef .tc main_v21)) shapeCasts_S200000_S200000x1) := by
  after_results_simp <;> rfl

set_option maxHeartbeats 4000000 in
theorem ops2_main_v166 : StableHlo.after (hostOps2 (F := Ideal)) W (Proc.devRef .tc main_v166)
    = (val_main_v173 (F := Ideal) (W (Proc.devRef .tc main_arg2))) := by
  after_results_simp <;> rfl

set_option maxHeartbeats 4000000 in
theorem ops2_main_v169 : StableHlo.after (hostOps2 (F := Ideal)) W (Proc.devRef .tc main_v169)
    = (val_main_v206 (F := Ideal) (W (Proc.devRef .tc main_arg2))) := by
  after_results_simp <;> rfl

set_option maxHeartbeats 4000000 in
theorem ops2_main_v175 : StableHlo.after (hostOps2 (F := Ideal)) W (Proc.devRef .tc main_v175)
    = (transpose S128x128 [1, 0] (addf (F := Ideal) (φ := .f32) (val_main_v153 (F := Ideal) (W (Proc.devRef .tc main_arg4))) (val_main_v186 (F := Ideal) (W (Proc.devRef .tc main_arg4)))) transposes_S128x128_S128x128_1_0) := by
  after_results_simp <;> rfl

set_option maxHeartbeats 4000000 in
theorem ops2_main_v198 : StableHlo.after (hostOps2 (F := Ideal)) W (Proc.devRef .tc main_v198)
    = (shapeCast S1x128 (addf (F := Ideal) (φ := .f32) (val_main_v151 (F := Ideal) (W (Proc.devRef .tc main_arg3))) (val_main_v184 (F := Ideal) (W (Proc.devRef .tc main_arg3)))) shapeCasts_S128_S1x128) := by
  after_results_simp <;> rfl

set_option maxHeartbeats 4000000 in
theorem ops2_main_v183 : StableHlo.after (hostOps2 (F := Ideal)) W (Proc.devRef .tc main_v183)
    = (val_main_v240 (F := Ideal) (W (Proc.devRef .tc main_arg2))) := by
  after_results_simp <;> rfl

set_option maxHeartbeats 4000000 in
theorem ops2_main_v186 : StableHlo.after (hostOps2 (F := Ideal)) W (Proc.devRef .tc main_v186)
    = (val_main_v273 (F := Ideal) (W (Proc.devRef .tc main_arg2))) := by
  after_results_simp <;> rfl

set_option maxHeartbeats 4000000 in
theorem ops2_main_v192 : StableHlo.after (hostOps2 (F := Ideal)) W (Proc.devRef .tc main_v192)
    = (transpose S128x128 [1, 0] (addf (F := Ideal) (φ := .f32) (val_main_v220 (F := Ideal) (W (Proc.devRef .tc main_arg4))) (val_main_v253 (F := Ideal) (W (Proc.devRef .tc main_arg4)))) transposes_S128x128_S128x128_1_0) := by
  after_results_simp <;> rfl

set_option maxHeartbeats 4000000 in
theorem ops2_main_v197 : StableHlo.after (hostOps2 (F := Ideal)) W (Proc.devRef .tc main_v197)
    = (addf (F := Ideal) (φ := .f32) (val_main_v218 (F := Ideal) (W (Proc.devRef .tc main_arg3))) (val_main_v251 (F := Ideal) (W (Proc.devRef .tc main_arg3)))) := by
  after_results_simp <;> rfl

/-! ### Buffers the stretch does not write -/

set_option maxHeartbeats 4000000 in
theorem pass2_main_v113 : StableHlo.after (hostOps2 (F := Ideal)) W (Proc.devRef .tc main_v113) = W (Proc.devRef .tc main_v113) := by
  after_results_simp <;> rfl

set_option maxHeartbeats 4000000 in
theorem pass2_main_v117 : StableHlo.after (hostOps2 (F := Ideal)) W (Proc.devRef .tc main_v117) = W (Proc.devRef .tc main_v117) := by
  after_results_simp <;> rfl

set_option maxHeartbeats 4000000 in
theorem pass2_main_v25 : StableHlo.after (hostOps2 (F := Ideal)) W (Proc.devRef .tc main_v25) = W (Proc.devRef .tc main_v25) := by
  after_results_simp <;> rfl

set_option maxHeartbeats 4000000 in
theorem pass2_main_v29 : StableHlo.after (hostOps2 (F := Ideal)) W (Proc.devRef .tc main_v29) = W (Proc.devRef .tc main_v29) := by
  after_results_simp <;> rfl

/-! ## Stretch 3 -/

set_option maxHeartbeats 4000000 in
theorem ops3_main_v202 : StableHlo.after (hostOps3 (F := Ideal)) W (Proc.devRef .tc main_v202)
    = (shapeCast S1x128 (W (Proc.devRef .tc main_v197)) shapeCasts_S128_S1x128) := by
  after_results_simp <;> rfl

set_option maxHeartbeats 4000000 in
theorem ops3_main_v203 : StableHlo.after (hostOps3 (F := Ideal)) W (Proc.devRef .tc main_v203)
    = (shapeCast S100000x1 (W (Proc.devRef .tc main_v25)) shapeCasts_S100000_S100000x1) := by
  after_results_simp <;> rfl

set_option maxHeartbeats 4000000 in
theorem ops3_main_v204 : StableHlo.after (hostOps3 (F := Ideal)) W (Proc.devRef .tc main_v204)
    = (shapeCast S100000x1 (W (Proc.devRef .tc main_v29)) shapeCasts_S100000_S100000x1) := by
  after_results_simp <;> rfl

/-! ### Buffers the stretch does not write -/

set_option maxHeartbeats 4000000 in
theorem pass3_main_v153 : StableHlo.after (hostOps3 (F := Ideal)) W (Proc.devRef .tc main_v153) = W (Proc.devRef .tc main_v153) := by
  after_results_simp <;> rfl

set_option maxHeartbeats 4000000 in
theorem pass3_main_v163 : StableHlo.after (hostOps3 (F := Ideal)) W (Proc.devRef .tc main_v163) = W (Proc.devRef .tc main_v163) := by
  after_results_simp <;> rfl

set_option maxHeartbeats 4000000 in
theorem pass3_main_v117 : StableHlo.after (hostOps3 (F := Ideal)) W (Proc.devRef .tc main_v117) = W (Proc.devRef .tc main_v117) := by
  after_results_simp <;> rfl

set_option maxHeartbeats 4000000 in
theorem pass3_main_v183 : StableHlo.after (hostOps3 (F := Ideal)) W (Proc.devRef .tc main_v183) = W (Proc.devRef .tc main_v183) := by
  after_results_simp <;> rfl

set_option maxHeartbeats 4000000 in
theorem pass3_main_v186 : StableHlo.after (hostOps3 (F := Ideal)) W (Proc.devRef .tc main_v186) = W (Proc.devRef .tc main_v186) := by
  after_results_simp <;> rfl

set_option maxHeartbeats 4000000 in
theorem pass3_main_v192 : StableHlo.after (hostOps3 (F := Ideal)) W (Proc.devRef .tc main_v192) = W (Proc.devRef .tc main_v192) := by
  after_results_simp <;> rfl

set_option maxHeartbeats 4000000 in
theorem pass3_main_v201 : StableHlo.after (hostOps3 (F := Ideal)) W (Proc.devRef .tc main_v201) = W (Proc.devRef .tc main_v201) := by
  after_results_simp <;> rfl

end Cert.KernelIdeal.HostOps

end
-- ==== Proof.Combine.lean ====
/-
  One destination side of one message-passing layer, as a function of whole arrays, index by index.

  For a destination node `r` (a row) and an output feature `q` (a column), with two incoming relations
  "a" and "b":

      out[r, q] = act ( Σ_k (aggA[r, k] · invA[r]) · WlA[k, q]
                      + Σ_k (aggB[r, k] · invB[r]) · WlB[k, q]
                      + Σ_k x[r, k] · Wr[k, q]
                      + bias[q] )

  where `aggA`, `aggB` are the summed neighbour features per relation, `invA`, `invB` the reciprocal
  neighbour counts (kept as an `n × 1` column), `x` the node's own features, `WlA`, `WlB` the (transposed)
  neighbour weights, `Wr` the (transposed, summed) self weights, `bias` a `1 × 128` row, and `act` is
  `max · 0` after the first layer and the identity after the second. The association of the three sums
  and the bias is the one written here, left to right.
-/
import Idealize.ShloMosaic.PureOps.Ideal
import Idealize.ShloMosaic.Lib.ValueIdx

noncomputable section

namespace Cert.Sage

open Idealize.ShloMosaic Idealize.ShloMosaic.ValueIdx

/-- The activation between the layers: `max z 0` (the zero kept as the f32 word of `+0.0`), or the identity. -/
def act (relu : Bool) (z : EReal) : EReal :=
  if relu then max z (Ideal.ofBits .f32 0x00000000#32) else z

/-- One entry of the combined output, from the row's data (`aggA`, `aggB`, `x` along the contracted feature
    axis, the two reciprocal counts) and the column's data (the three weight columns, the bias entry). -/
def combineAt (relu : Bool) (aggA aggB x : Fin 128 → EReal) (invA invB : EReal)
    (wlA wlB wr : Fin 128 → EReal) (b : EReal) : EReal :=
  act relu ((((∑ k : Fin 128, (aggA k * invA) * wlA k) + ∑ k : Fin 128, (aggB k * invB) * wlB k)
    + ∑ k : Fin 128, x k * wr k) + b)

/-- The combined output for `n` destination nodes as one function of the nine arrays. -/
def combine (n : Nat) (relu : Bool)
    (aggA aggB : (⟨2, ![n, 128]⟩ : Shape).Idx → EReal)
    (invA invB : (⟨2, ![n, 1]⟩ : Shape).Idx → EReal)
    (x : (⟨2, ![n, 128]⟩ : Shape).Idx → EReal)
    (wlA wlB wr : (⟨2, ![128, 128]⟩ : Shape).Idx → EReal)
    (bias : (⟨2, ![1, 128]⟩ : Shape).Idx → EReal) : (⟨2, ![n, 128]⟩ : Shape).Idx → EReal :=
  fun i => combineAt relu (fun k => aggA (ix2 (i 0) k)) (fun k => aggB (ix2 (i 0) k)) (fun k => x (ix2 (i 0) k))
    (invA (ix2 (i 0) 0)) (invB (ix2 (i 0) 0))
    (fun k => wlA (ix2 k (i 1))) (fun k => wlB (ix2 k (i 1))) (fun k => wr (ix2 k (i 1)))
    (bias (ix2 0 (i 1)))

end Cert.Sage

end
-- ==== Proof.SageMath.lean ====
/-
  Extended-real algebra for one destination side of one layer.

  The two programs differ, at one output entry, by three laws:
    * a quotient by a nonzero count is the product with the count's reciprocal, `a / c = a · (1 / c)`;
    * a sum of products against a sum of two weights splits, `Σ x·(u + v) = Σ x·u + Σ x·v`, which on the
      extended reals needs `x`, `u`, `v` to be real numbers (at an infinity the two sides can differ);
    * sums may be re-associated and commuted freely.
  Because the second layer's `x` is the first layer's output, "is a real number" has to be carried through
  every operation of a layer: sums over the neighbours of a node, products, maxima, reciprocals of nonzero counts.
-/
import proofs.«147864_j85770496901303_2_alg».proof.Proof.Combine

noncomputable section

namespace Cert.Sage

open Idealize.ShloMosaic

/-- `x` is a real number: neither infinity. -/
def IsReal (x : EReal) : Prop := ∃ r : ℝ, x = (r : EReal)

/-- The f32 word of `1.0`. -/
abbrev oneW : EReal := Ideal.ofBits .f32 0x3F800000#32
/-- The f32 word of `+0.0`. -/
abbrev zeroW : EReal := Ideal.ofBits .f32 0x00000000#32

theorem zeroW_eq : zeroW = 0 := by
  show Ideal.ofBits .f32 0x00000000#32 = 0
  simp [Ideal.ofBits, Ideal.ieee]

theorem oneW_eq : oneW = 1 := by
  show Ideal.ofBits .f32 0x3F800000#32 = 1
  simp [Ideal.ofBits, Ideal.ieee, -EReal.coe_mul]
  norm_num

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  -- the maximum of two values is one of them
  rcases le_total x y with h | h
  · rw [max_eq_right h]; exact hy
  · rw [max_eq_left h]; exact hx

theorem IsReal.sum {ι : Type} (s : Finset ι) (f : ι → EReal) (h : ∀ i ∈ s, IsReal (f i)) : IsReal (∑ i ∈ s, f i) :=
  Finset.sum_induction f IsReal (fun _ _ ha hb => ha.add hb) ⟨0, EReal.coe_zero.symm⟩ h

theorem isReal_zeroW : IsReal zeroW := by
  rw [zeroW_eq]; exact ⟨0, EReal.coe_zero.symm⟩

theorem isReal_oneW : IsReal oneW := by
  rw [oneW_eq]; exact ⟨1, EReal.coe_one.symm⟩

theorem isReal_act (relu : Bool) {z : EReal} (hz : IsReal z) : IsReal (act relu z) := by
  cases relu
  · exact hz
  · exact hz.max isReal_zeroW

/-- A count clamped below by one is not zero. -/
theorem max_one_ne_zero (c : EReal) : max c oneW ≠ 0 := by
  rw [oneW_eq]
  intro h
  have h1 : (1 : EReal) ≤ max c 1 := le_max_right c 1
  rw [h] at h1
  exact absurd h1 (not_le.2 zero_lt_one)

/-- The reciprocal of a nonzero extended real is a real number (the reciprocal of an infinity is zero). -/
theorem isReal_div_one {c : EReal} (hc : c ≠ 0) : IsReal (Ideal.div oneW c) := by
  rw [Ideal.div, if_neg hc, oneW_eq, one_mul]
  induction c using EReal.rec with
  | bot => exact ⟨0, by rw [EReal.inv_bot, EReal.coe_zero]⟩
  | top => exact ⟨0, by rw [EReal.inv_top, EReal.coe_zero]⟩
  | coe r => exact ⟨r⁻¹, (EReal.coe_inv r).symm⟩

/-- A quotient by a nonzero extended real is the product with its reciprocal. -/
theorem div_eq_mul_div_one (a : EReal) {c : EReal} (hc : c ≠ 0) : Ideal.div a c = a * Ideal.div oneW c := by
  simp only [Ideal.div, if_neg hc, oneW_eq, one_mul]

/-- A quotient of a real number by a nonzero extended real is a real number. -/
theorem isReal_div {a c : EReal} (ha : IsReal a) (hc : c ≠ 0) : IsReal (Ideal.div a c) := by
  rw [div_eq_mul_div_one a hc]
  exact ha.mul (isReal_div_one hc)

/-- Summing real updates into a real array gives a real array. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ (fun j _ => hu j))

/-- Distributivity on real numbers inside the extended reals. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- An output entry computed from real data is a real number. -/
theorem isReal_combineAt (relu : Bool) {aggA aggB x : Fin 128 → EReal} {invA invB : EReal}
    {wlA wlB wr : Fin 128 → EReal} {b : EReal}
    (hA : ∀ k, IsReal (aggA k)) (hB : ∀ k, IsReal (aggB k)) (hx : ∀ k, IsReal (x k))
    (hiA : IsReal invA) (hiB : IsReal invB)
    (hwA : ∀ k, IsReal (wlA k)) (hwB : ∀ k, IsReal (wlB k)) (hwr : ∀ k, IsReal (wr k)) (hb : IsReal b) :
    IsReal (combineAt relu aggA aggB x invA invB wlA wlB wr b) := by
  unfold combineAt
  apply isReal_act
  refine IsReal.add (IsReal.add (IsReal.add ?_ ?_) ?_) hb
  · exact IsReal.sum _ _ (fun k _ => ((hA k).mul hiA).mul (hwA k))
  · exact IsReal.sum _ _ (fun k _ => ((hB k).mul hiB).mul (hwB k))
  · exact IsReal.sum _ _ (fun k _ => (hx k).mul (hwr k))

/-- THE LAW JOINING THE TWO PROGRAMS at one output entry: reciprocal counts multiplied in, the two self
    weights summed before the product and the two biases summed before the addition, against two separate
    neighbour-mean + bias + self terms added at the end. -/
theorem sage_pair (relu : Bool) (aggA aggB x : Fin 128 → EReal) (cA cB : EReal)
    (wlA wlB wrA wrB : Fin 128 → EReal) (bA bB : EReal)
    (hcA : cA ≠ 0) (hcB : cB ≠ 0) (hx : ∀ k, IsReal (x k)) (hrA : ∀ k, IsReal (wrA k)) (hrB : ∀ k, IsReal (wrB k)) :
    combineAt relu aggA aggB x (Ideal.div oneW cA) (Ideal.div oneW cB) wlA wlB (fun k => wrA k + wrB k) (bA + bB)
    = act relu ((((∑ k : Fin 128, Ideal.div (aggA k) cA * wlA k) + bA) + ∑ k : Fin 128, x k * wrA k)
        + (((∑ k : Fin 128, Ideal.div (aggB k) cB * wlB k) + bB) + ∑ k : Fin 128, x k * wrB k)) := by
  unfold combineAt
  refine congrArg (act relu) ?_
  -- each quotient is the product with the reciprocal
  have h1 : ∀ k, Ideal.div (aggA k) cA = aggA k * Ideal.div oneW cA := fun k => div_eq_mul_div_one _ hcA
  have h2 : ∀ k, Ideal.div (aggB k) cB = aggB k * Ideal.div oneW cB := fun k => div_eq_mul_div_one _ hcB
  -- the self term splits along the two weights, entry by entry on real numbers
  have h3 : (∑ k : Fin 128, x k * (wrA k + wrB k)) = (∑ k : Fin 128, x k * wrA k) + ∑ k : Fin 128, x k * wrB k := by
    rw [← Finset.sum_add_distrib]
    exact Finset.sum_congr rfl (fun k _ => mul_add_of_isReal (hx k) (hrA k) (hrB k))
  simp only [h1, h2]
  rw [h3]
  -- what is left is a rearrangement of six summands in a commutative monoid
  generalize (∑ k : Fin 128, aggA k * Ideal.div oneW cA * wlA k) = sA
  generalize (∑ k : Fin 128, aggB k * Ideal.div oneW cB * wlB k) = sB
  generalize (∑ k : Fin 128, x k * wrA k) = tA
  generalize (∑ k : Fin 128, x k * wrB k) = tB
  simp only [add_assoc, add_left_comm, add_comm]

end Cert.Sage

end
-- ==== Proof.BridgeBase.lean ====
/-
  The two programs agree, one destination side of one layer at a time.

  A side's output in the kernel's form is `combine` of: the two neighbour aggregates, the two reciprocal clamped
  counts as columns, the side's own features, the two transposed neighbour weights, the transposed SUM of the two
  self weights, and the row of the SUM of the two biases. In the reference's form it is two neighbour terms added
  (then clamped at zero after the first layer), each term = (aggregate / clamped count) · Wlᵀ + bias + own · Wrᵀ.
  Read at an entry (row `r`, column `q`) both are sums over the 128 features of the same numbers; the law joining
  them is `sage_pair` (a quotient by a nonzero count is a product with its reciprocal; the product against the
  summed self weights splits because the own features and the self weights are real numbers; sums re-associate).
  The index functions the reference's reading lemmas use are identified with coordinates once per operation.
  This module: the kernel side's small host arrays (a vector as a column or a row, the transpose of a sum, the
  host quotient, the all-ones vector) read at an index.
-/
import proofs.«147864_j85770496901303_2_alg».proof.Proof.RefRead
import proofs.«147864_j85770496901303_2_alg».proof.Proof.SageMath
import Idealize.ShloMosaic.Lib.Pipeline.Value
import Idealize.ShloMosaic.Lib.ValueIdx

noncomputable section

namespace Cert.Bridge

open Cert.ReferenceIdeal Cert.ReferenceIdeal.Read Cert.Sage
open Idealize.ShloMosaic Idealize.ShloMosaic.ValueIdx

/-! ## Reading the kernel side's small host arrays at an index -/

/-- A length-`n` vector reshaped to an `n × 1` column, read at row `r`. -/
theorem col_apply {n : Nat} (y : (⟨1, ![n]⟩ : Shape).Idx → EReal) (h : (⟨1, ![n]⟩ : Shape).ShapeCasts ⟨2, ![n, 1]⟩)
    (r : Fin n) (z : Fin 1) : shapeCast ⟨2, ![n, 1]⟩ y h (ix2 r z) = y (ix1 r) := by
  refine shapeCast_apply y h (ix2 r z) (ix1 r) ?_
  rw [Shape.rowMajor_val_one, Shape.rowMajor_val_two]
  show r.val = r.val * 1 + z.val
  have := z.isLt; omega

/-- A length-`n` vector reshaped to a `1 × n` row, read at column `q`. -/
theorem row_apply {n : Nat} (y : (⟨1, ![n]⟩ : Shape).Idx → EReal) (h : (⟨1, ![n]⟩ : Shape).ShapeCasts ⟨2, ![1, n]⟩)
    (z : Fin 1) (q : Fin n) : shapeCast ⟨2, ![1, n]⟩ y h (ix2 z q) = y (ix1 q) := by
  refine shapeCast_apply y h (ix2 z q) (ix1 q) ?_
  rw [Shape.rowMajor_val_one, Shape.rowMajor_val_two]
  show q.val = z.val * n + q.val
  have := z.isLt
  have hz : z.val = 0 := by omega
  rw [hz]; omega

/-- The transpose of a sum of two square matrices, read at an entry. -/
theorem transpose_add_apply {n : Nat} (a b : (⟨2, ![n, n]⟩ : Shape).Idx → EReal)
    (h : (⟨2, ![n, n]⟩ : Shape).Transposes [1, 0] ⟨2, ![n, n]⟩) (k q : Fin n) :
    transpose ⟨2, ![n, n]⟩ [1, 0] (addf (F := Ideal) (φ := .f32) a b) h (ix2 k q) = a (ix2 q k) + b (ix2 q k) :=
  transpose_apply [1, 0] (addf (F := Ideal) (φ := .f32) a b) h (ix2 k q) (ix2 q k)
    (fun c => match c with | ⟨0, _⟩ => rfl | ⟨1, _⟩ => rfl)

/-- The host's quotient of two arrays, read at an index. -/
theorem hostDivf_apply {s : Shape} (a b : FVec Ideal s .f32) (j : s.Idx) : Host.divf a b j = Ideal.div (a j) (b j) := rfl

/-- The all-ones vector of length 200000, read at an index. -/
theorem one_bcast_200000 (hb : S_.BroadcastsInDim S200000 (![] : Fin 0 → Fin S200000.rank)) (j : S200000.Idx) :
    broadcastInDim S200000 ![] hb (constant (F := Ideal) S_ .f32 0x3F800000#32) j = oneW :=
  (broadcastInDim_apply _ hb (constant (F := Ideal) S_ .f32 0x3F800000#32) j (fun a => a.elim0) (fun a => a.elim0)).trans
    (constant_apply _ _)

/-- The all-ones vector of length 100000, read at an index. -/
theorem one_bcast_100000 (hb : S_.BroadcastsInDim S100000 (![] : Fin 0 → Fin S100000.rank)) (j : S100000.Idx) :
    broadcastInDim S100000 ![] hb (constant (F := Ideal) S_ .f32 0x3F800000#32) j = oneW :=
  (broadcastInDim_apply _ hb (constant (F := Ideal) S_ .f32 0x3F800000#32) j (fun a => a.elim0) (fun a => a.elim0)).trans
    (constant_apply _ _)

end Cert.Bridge

end
-- ==== Proof.RealPieces.lean ====
/-
  Pieces of the reference program that hold real numbers when its inputs do.

  Every weight matrix and bias vector the program uses is a rearrangement (slices, reshapes, a transpose) of one
  of its input arrays, so each of its entries is an entry of that input. A neighbour aggregate is an array of
  zeros into which gathered rows of a feature array are summed, so each of its entries is a finite sum of
  entries of that feature array.
-/
import proofs.«147864_j85770496901303_2_alg».proof.Proof.RefRead
import proofs.«147864_j85770496901303_2_alg».proof.Proof.SageMath

noncomputable section

namespace Cert.Bridge

open Cert.ReferenceIdeal Cert.ReferenceIdeal.Read Cert.Sage Idealize.ShloMosaic

/-! ### Self weights: entries of the fifth input -/

theorem real_wr_21 (x4 : (⟨S2x4x128x128, .f32⟩ : BufTy).Contents (Elt Ideal)) (h4 : ∀ i, IsReal (x4 i)) (j : S128x128.Idx) :
    IsReal (val_main_v11 (F := Ideal) x4 j) := by
  rw [val_main_v11_apply, val_main_v10_apply, val_main_v5_apply, val_main_v4_apply]
  exact h4 _

theorem real_wr_54 (x4 : (⟨S2x4x128x128, .f32⟩ : BufTy).Contents (Elt Ideal)) (h4 : ∀ i, IsReal (x4 i)) (j : S128x128.Idx) :
    IsReal (val_main_v44 (F := Ideal) x4 j) := by
  rw [val_main_v44_apply, val_main_v43_apply, val_main_v5_apply, val_main_v4_apply]
  exact h4 _

theorem real_wr_88 (x4 : (⟨S2x4x128x128, .f32⟩ : BufTy).Contents (Elt Ideal)) (h4 : ∀ i, IsReal (x4 i)) (j : S128x128.Idx) :
    IsReal (val_main_v78 (F := Ideal) x4 j) := by
  rw [val_main_v78_apply, val_main_v77_apply, val_main_v5_apply, val_main_v4_apply]
  exact h4 _

theorem real_wr_121 (x4 : (⟨S2x4x128x128, .f32⟩ : BufTy).Contents (Elt Ideal)) (h4 : ∀ i, IsReal (x4 i)) (j : S128x128.Idx) :
    IsReal (val_main_v111 (F := Ideal) x4 j) := by
  rw [val_main_v111_apply, val_main_v110_apply, val_main_v5_apply, val_main_v4_apply]
  exact h4 _

theorem real_wr_163 (x4 : (⟨S2x4x128x128, .f32⟩ : BufTy).Contents (Elt Ideal)) (h4 : ∀ i, IsReal (x4 i)) (j : S128x128.Idx) :
    IsReal (val_main_v153 (F := Ideal) x4 j) := by
  rw [val_main_v153_apply, val_main_v152_apply, val_main_v147_apply, val_main_v146_apply]
  exact h4 _

theorem real_wr_196 (x4 : (⟨S2x4x128x128, .f32⟩ : BufTy).Contents (Elt Ideal)) (h4 : ∀ i, IsReal (x4 i)) (j : S128x128.Idx) :
    IsReal (val_main_v186 (F := Ideal) x4 j) := by
  rw [val_main_v186_apply, val_main_v185_apply, val_main_v147_apply, val_main_v146_apply]
  exact h4 _

theorem real_wr_230 (x4 : (⟨S2x4x128x128, .f32⟩ : BufTy).Contents (Elt Ideal)) (h4 : ∀ i, IsReal (x4 i)) (j : S128x128.Idx) :
    IsReal (val_main_v220 (F := Ideal) x4 j) := by
  rw [val_main_v220_apply, val_main_v219_apply, val_main_v147_apply, val_main_v146_apply]
  exact h4 _

theorem real_wr_263 (x4 : (⟨S2x4x128x128, .f32⟩ : BufTy).Contents (Elt Ideal)) (h4 : ∀ i, IsReal (x4 i)) (j : S128x128.Idx) :
    IsReal (val_main_v253 (F := Ideal) x4 j) := by
  rw [val_main_v253_apply, val_main_v252_apply, val_main_v147_apply, val_main_v146_apply]
  exact h4 _

/-! ### Neighbour weights (transposed): entries of the third input -/

theorem real_wl_21 (x2 : (⟨S2x4x128x128, .f32⟩ : BufTy).Contents (Elt Ideal)) (h2 : ∀ i, IsReal (x2 i)) (j : S128x128.Idx) :
    IsReal (val_main_v31 (F := Ideal) x2 j) := by
  rw [val_main_v31_apply, val_main_v7_apply, val_main_v6_apply, val_main_v1_apply, val_main_v0_apply]
  exact h2 _

theorem real_wl_54 (x2 : (⟨S2x4x128x128, .f32⟩ : BufTy).Contents (Elt Ideal)) (h2 : ∀ i, IsReal (x2 i)) (j : S128x128.Idx) :
    IsReal (val_main_v64 (F := Ideal) x2 j) := by
  rw [val_main_v64_apply, val_main_v40_apply, val_main_v39_apply, val_main_v1_apply, val_main_v0_apply]
  exact h2 _

theorem real_wl_88 (x2 : (⟨S2x4x128x128, .f32⟩ : BufTy).Contents (Elt Ideal)) (h2 : ∀ i, IsReal (x2 i)) (j : S128x128.Idx) :
    IsReal (val_main_v98 (F := Ideal) x2 j) := by
  rw [val_main_v98_apply, val_main_v74_apply, val_main_v73_apply, val_main_v1_apply, val_main_v0_apply]
  exact h2 _

theorem real_wl_121 (x2 : (⟨S2x4x128x128, .f32⟩ : BufTy).Contents (Elt Ideal)) (h2 : ∀ i, IsReal (x2 i)) (j : S128x128.Idx) :
    IsReal (val_main_v131 (F := Ideal) x2 j) := by
  rw [val_main_v131_apply, val_main_v107_apply, val_main_v106_apply, val_main_v1_apply, val_main_v0_apply]
  exact h2 _

/-! ### Biases: entries of the fourth input -/

theorem real_b_21 (x3 : (⟨S2x4x128, .f32⟩ : BufTy).Contents (Elt Ideal)) (h3 : ∀ i, IsReal (x3 i)) (j : S128.Idx) :
    IsReal (val_main_v9 (F := Ideal) x3 j) := by
  rw [val_main_v9_apply, val_main_v8_apply, val_main_v3_apply, val_main_v2_apply]
  exact h3 _

theorem real_b_54 (x3 : (⟨S2x4x128, .f32⟩ : BufTy).Contents (Elt Ideal)) (h3 : ∀ i, IsReal (x3 i)) (j : S128.Idx) :
    IsReal (val_main_v42 (F := Ideal) x3 j) := by
  rw [val_main_v42_apply, val_main_v41_apply, val_main_v3_apply, val_main_v2_apply]
  exact h3 _

theorem real_b_88 (x3 : (⟨S2x4x128, .f32⟩ : BufTy).Contents (Elt Ideal)) (h3 : ∀ i, IsReal (x3 i)) (j : S128.Idx) :
    IsReal (val_main_v76 (F := Ideal) x3 j) := by
  rw [val_main_v76_apply, val_main_v75_apply, val_main_v3_apply, val_main_v2_apply]
  exact h3 _

theorem real_b_121 (x3 : (⟨S2x4x128, .f32⟩ : BufTy).Contents (Elt Ideal)) (h3 : ∀ i, IsReal (x3 i)) (j : S128.Idx) :
    IsReal (val_main_v109 (F := Ideal) x3 j) := by
  rw [val_main_v109_apply, val_main_v108_apply, val_main_v3_apply, val_main_v2_apply]
  exact h3 _

/-! ### Neighbour aggregates: zeros plus sums of gathered rows -/

theorem real_agg_21 (x0 : (⟨S100000x128, .f32⟩ : BufTy).Contents (Elt Ideal)) (x5 x6 : (⟨S500000, .i32⟩ : BufTy).Contents (Elt Ideal))
    (hs : ∀ i, IsReal (x0 i)) (j : S200000x128.Idx) :
    IsReal (val_main_v21 (F := Ideal) x0 x5 x6 j) := by
  unfold val_main_v21
  show IsReal (Ideal.hostScatterAdd _ _ _ _ j)
  refine isReal_scatterAdd _ _ _ _ (fun i => ?_) (fun k => ?_) j
  · -- the array summed into is zero everywhere
    rw [val_main_v19_apply, val_main_cst_apply]
    exact isReal_zeroW
  · -- a gathered row entry is an entry of the source array
    unfold val_main_v18
    exact hs _

theorem real_agg_54 (x0 : (⟨S100000x128, .f32⟩ : BufTy).Contents (Elt Ideal)) (x7 x8 : (⟨S150000, .i32⟩ : BufTy).Contents (Elt Ideal))
    (hs : ∀ i, IsReal (x0 i)) (j : S200000x128.Idx) :
    IsReal (val_main_v54 (F := Ideal) x0 x7 x8 j) := by
  unfold val_main_v54
  show IsReal (Ideal.hostScatterAdd _ _ _ _ j)
  refine isReal_scatterAdd _ _ _ _ (fun i => ?_) (fun k => ?_) j
  · -- the array summed into is zero everywhere
    rw [val_main_v52_apply, val_main_cst_6_apply]
    exact isReal_zeroW
  · -- a gathered row entry is an entry of the source array
    unfold val_main_v51
    exact hs _

theorem real_agg_88 (x1 : (⟨S200000x128, .f32⟩ : BufTy).Contents (Elt Ideal)) (x5 x6 : (⟨S500000, .i32⟩ : BufTy).Contents (Elt Ideal))
    (hs : ∀ i, IsReal (x1 i)) (j : S100000x128.Idx) :
    IsReal (val_main_v88 (F := Ideal) x1 x5 x6 j) := by
  unfold val_main_v88
  show IsReal (Ideal.hostScatterAdd _ _ _ _ j)
  refine isReal_scatterAdd _ _ _ _ (fun i => ?_) (fun k => ?_) j
  · -- the array summed into is zero everywhere
    rw [val_main_v86_apply, val_main_cst_12_apply]
    exact isReal_zeroW
  · -- a gathered row entry is an entry of the source array
    unfold val_main_v85
    exact hs _

theorem real_agg_121 (x1 : (⟨S200000x128, .f32⟩ : BufTy).Contents (Elt Ideal)) (x7 x8 : (⟨S150000, .i32⟩ : BufTy).Contents (Elt Ideal))
    (hs : ∀ i, IsReal (x1 i)) (j : S100000x128.Idx) :
    IsReal (val_main_v121 (F := Ideal) x1 x7 x8 j) := by
  unfold val_main_v121
  show IsReal (Ideal.hostScatterAdd _ _ _ _ j)
  refine isReal_scatterAdd _ _ _ _ (fun i => ?_) (fun k => ?_) j
  · -- the array summed into is zero everywhere
    rw [val_main_v119_apply, val_main_cst_18_apply]
    exact isReal_zeroW
  · -- a gathered row entry is an entry of the source array
    unfold val_main_v118
    exact hs _

end Cert.Bridge

end
-- ==== Proof.BridgePost1.lean ====
/-
  The two programs agree, one destination side of one layer at a time.

  A side's output in the kernel's form is `combine` of: the two neighbour aggregates, the two reciprocal clamped
  counts as columns, the side's own features, the two transposed neighbour weights, the transposed SUM of the two
  self weights, and the row of the SUM of the two biases. In the reference's form it is two neighbour terms added
  (then clamped at zero after the first layer), each term = (aggregate / clamped count) · Wlᵀ + bias + own · Wrᵀ.
  Read at an entry (row `r`, column `q`) both are sums over the 128 features of the same numbers; the law joining
  them is `sage_pair` (a quotient by a nonzero count is a product with its reciprocal; the product against the
  summed self weights splits because the own features and the self weights are real numbers; sums re-associate).
  The index functions the reference's reading lemmas use are identified with coordinates once per operation.
  This module: the post side of the first layer (neighbour blocks 21 and 54).
-/
import proofs.«147864_j85770496901303_2_alg».proof.Proof.BridgeBase
import proofs.«147864_j85770496901303_2_alg».proof.Proof.RealPieces

noncomputable section

namespace Cert.Bridge

open Cert.ReferenceIdeal Cert.ReferenceIdeal.Read Cert.Sage
open Idealize.ShloMosaic Idealize.ShloMosaic.ValueIdx

/-! ### The neighbour term whose aggregate is operation 21 -/

theorem lidx_32 (i : S200000x128.Idx) (k : Fin 128) : lidx_main_v32 i k = ix2 (n0 := 200000) (n1 := 128) (i 0) k := by
  funext a; match a with | ⟨0, _⟩ => rfl | ⟨1, _⟩ => rfl
theorem ridx_32 (i : S200000x128.Idx) (k : Fin 128) : ridx_main_v32 i k = ix2 (n0 := 128) (n1 := 128) k (i 1) := by
  funext a; match a with | ⟨0, _⟩ => rfl | ⟨1, _⟩ => rfl
theorem lidx_37 (i : S200000x128.Idx) (k : Fin 128) : lidx_main_v37 i k = ix2 (n0 := 200000) (n1 := 128) (i 0) k := by
  funext a; match a with | ⟨0, _⟩ => rfl | ⟨1, _⟩ => rfl
/-- The count is read at the entry's row, whatever the contracted feature. -/
theorem cidx_21 (i : S200000x128.Idx) (k : Fin 128) :
    idx_main_v28 (idx_main_v29 (lidx_main_v32 i k)) = ix1 (n := 200000) (i 0) := by
  funext a; match a with | ⟨0, _⟩ => rfl
/-- The bias is read at the entry's column. -/
theorem bidx_21 (i : S200000x128.Idx) : idx_main_v33 (idx_main_v34 i) = ix1 (n := 128) (i 1) := by
  funext a; match a with | ⟨0, _⟩ => rfl
/-- The transposed self weights at (feature, column) are the self weights at (column, feature). -/
theorem widx_21 (i : S200000x128.Idx) (k : Fin 128) :
    idx_main_v36 (ridx_main_v37 i k) = ix2 (n0 := 128) (n1 := 128) (i 1) k := by
  funext a; match a with | ⟨0, _⟩ => rfl | ⟨1, _⟩ => rfl

/-- The clamped neighbour count is not zero. -/
theorem cnt_ne_21 (x6 : (⟨S500000, .i32⟩ : BufTy).Contents (Elt Ideal)) (j : S200000.Idx) : (val_main_v27 (F := Ideal) x6) j ≠ 0 :=
  max_one_ne_zero _

/-- The neighbour term at an entry: the mean of the neighbours' rows against the weight column, the bias entry,
    and the node's own row against the self-weight column. -/
theorem sage_21 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (i : S200000x128.Idx) :
    (val_main_v38 (F := Ideal) x0 x1 x2 x3 x4 x5 x6) i
      = ((∑ k : Fin 128, Ideal.div ((val_main_v21 (F := Ideal) x0 x5 x6) (ix2 (i 0) k)) ((val_main_v27 (F := Ideal) x6) (ix1 (i 0))) * (val_main_v31 (F := Ideal) x2) (ix2 k (i 1)))
          + (val_main_v9 (F := Ideal) x3) (ix1 (i 1)))
        + ∑ k : Fin 128, x1 (ix2 (i 0) k) * (val_main_v11 (F := Ideal) x4) (ix2 (i 1) k) := by
  rw [val_main_v38_apply, val_main_v35_apply, val_main_v32_apply, val_main_v37_apply]
  simp only [val_main_v30_apply, val_main_v29_apply, val_main_v28_apply, val_main_v34_apply,
    val_main_v33_apply, val_main_v36_apply, Ideal.hostDivf_def, Ideal.addf_def]
  simp only [cidx_21, bidx_21, widx_21]
  simp only [lidx_32, ridx_32, lidx_37]

/-! ### The neighbour term whose aggregate is operation 54 -/

theorem lidx_65 (i : S200000x128.Idx) (k : Fin 128) : lidx_main_v65 i k = ix2 (n0 := 200000) (n1 := 128) (i 0) k := by
  funext a; match a with | ⟨0, _⟩ => rfl | ⟨1, _⟩ => rfl
theorem ridx_65 (i : S200000x128.Idx) (k : Fin 128) : ridx_main_v65 i k = ix2 (n0 := 128) (n1 := 128) k (i 1) := by
  funext a; match a with | ⟨0, _⟩ => rfl | ⟨1, _⟩ => rfl
theorem lidx_70 (i : S200000x128.Idx) (k : Fin 128) : lidx_main_v70 i k = ix2 (n0 := 200000) (n1 := 128) (i 0) k := by
  funext a; match a with | ⟨0, _⟩ => rfl | ⟨1, _⟩ => rfl
/-- The count is read at the entry's row, whatever the contracted feature. -/
theorem cidx_54 (i : S200000x128.Idx) (k : Fin 128) :
    idx_main_v61 (idx_main_v62 (lidx_main_v65 i k)) = ix1 (n := 200000) (i 0) := by
  funext a; match a with | ⟨0, _⟩ => rfl
/-- The bias is read at the entry's column. -/
theorem bidx_54 (i : S200000x128.Idx) : idx_main_v66 (idx_main_v67 i) = ix1 (n := 128) (i 1) := by
  funext a; match a with | ⟨0, _⟩ => rfl
/-- The transposed self weights at (feature, column) are the self weights at (column, feature). -/
theorem widx_54 (i : S200000x128.Idx) (k : Fin 128) :
    idx_main_v69 (ridx_main_v70 i k) = ix2 (n0 := 128) (n1 := 128) (i 1) k := by
  funext a; match a with | ⟨0, _⟩ => rfl | ⟨1, _⟩ => rfl

/-- The clamped neighbour count is not zero. -/
theorem cnt_ne_54 (x8 : (⟨S150000, .i32⟩ : BufTy).Contents (Elt Ideal)) (j : S200000.Idx) : (val_main_v60 (F := Ideal) x8) j ≠ 0 :=
  max_one_ne_zero _

/-- The neighbour term at an entry: the mean of the neighbours' rows against the weight column, the bias entry,
    and the node's own row against the self-weight column. -/
theorem sage_54 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x7 : (⟨S150000, .i32⟩ : BufTy).Contents (Elt Ideal)) (x8 : (⟨S150000, .i32⟩ : BufTy).Contents (Elt Ideal)) (i : S200000x128.Idx) :
    (val_main_v71 (F := Ideal) x0 x1 x2 x3 x4 x7 x8) i
      = ((∑ k : Fin 128, Ideal.div ((val_main_v54 (F := Ideal) x0 x7 x8) (ix2 (i 0) k)) ((val_main_v60 (F := Ideal) x8) (ix1 (i 0))) * (val_main_v64 (F := Ideal) x2) (ix2 k (i 1)))
          + (val_main_v42 (F := Ideal) x3) (ix1 (i 1)))
        + ∑ k : Fin 128, x1 (ix2 (i 0) k) * (val_main_v44 (F := Ideal) x4) (ix2 (i 1) k) := by
  rw [val_main_v71_apply, val_main_v68_apply, val_main_v65_apply, val_main_v70_apply]
  simp only [val_main_v63_apply, val_main_v62_apply, val_main_v61_apply, val_main_v67_apply,
    val_main_v66_apply, val_main_v69_apply, Ideal.hostDivf_def, Ideal.addf_def]
  simp only [cidx_54, bidx_54, widx_54]
  simp only [lidx_65, ridx_65, lidx_70]

/-! ### The post1 side -/

/-- The combined output of the kernel's form of this side (reciprocal counts as a column, self weights summed
    and transposed, biases summed into a row) is the reference's two neighbour terms added, then clamped at zero. -/
theorem side_post1 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal))
    (hb : S_.BroadcastsInDim S200000 (![] : Fin 0 → Fin S200000.rank)) (hsc : S200000.ShapeCasts S200000x1)
    (htr : S128x128.Transposes [1, 0] S128x128) (hsr : S128.ShapeCasts S1x128)
    (hx : ∀ j, IsReal (x1 j)) (hrA : ∀ j, IsReal ((val_main_v11 (F := Ideal) x4) j)) (hrB : ∀ j, IsReal ((val_main_v44 (F := Ideal) x4) j)) :
    combine 200000 true (val_main_v21 (F := Ideal) x0 x5 x6) (val_main_v54 (F := Ideal) x0 x7 x8)
      (shapeCast S200000x1 (Host.divf (broadcastInDim S200000 ![] hb (constant (F := Ideal) S_ .f32 0x3F800000#32)) (val_main_v27 (F := Ideal) x6)) hsc)
      (shapeCast S200000x1 (Host.divf (broadcastInDim S200000 ![] hb (constant (F := Ideal) S_ .f32 0x3F800000#32)) (val_main_v60 (F := Ideal) x8)) hsc)
      x1 (val_main_v31 (F := Ideal) x2) (val_main_v64 (F := Ideal) x2)
      (transpose S128x128 [1, 0] (addf (F := Ideal) (φ := .f32) (val_main_v11 (F := Ideal) x4) (val_main_v44 (F := Ideal) x4)) htr)
      (shapeCast S1x128 (addf (F := Ideal) (φ := .f32) (val_main_v9 (F := Ideal) x3) (val_main_v42 (F := Ideal) x3)) hsr)
    = (val_main_v141 (F := Ideal) x0 x1 x2 x3 x4 x5 x6 x7 x8) := by
  funext i
  refine Eq.trans ?_ ((sage_pair true
    (fun k => (val_main_v21 (F := Ideal) x0 x5 x6) (ix2 (i 0) k)) (fun k => (val_main_v54 (F := Ideal) x0 x7 x8) (ix2 (i 0) k)) (fun k => x1 (ix2 (i 0) k))
    ((val_main_v27 (F := Ideal) x6) (ix1 (i 0))) ((val_main_v60 (F := Ideal) x8) (ix1 (i 0)))
    (fun k => (val_main_v31 (F := Ideal) x2) (ix2 k (i 1))) (fun k => (val_main_v64 (F := Ideal) x2) (ix2 k (i 1)))
    (fun k => (val_main_v11 (F := Ideal) x4) (ix2 (i 1) k)) (fun k => (val_main_v44 (F := Ideal) x4) (ix2 (i 1) k))
    ((val_main_v9 (F := Ideal) x3) (ix1 (i 1))) ((val_main_v42 (F := Ideal) x3) (ix1 (i 1)))
    (cnt_ne_21 _ _) (cnt_ne_54 _ _) (fun k => hx _) (fun k => hrA _) (fun k => hrB _)).trans ?_)
  · unfold combine
    have e1 := col_apply (Host.divf (broadcastInDim S200000 ![] hb (constant (F := Ideal) S_ .f32 0x3F800000#32)) (val_main_v27 (F := Ideal) x6)) hsc (i 0) 0
    have e2 := col_apply (Host.divf (broadcastInDim S200000 ![] hb (constant (F := Ideal) S_ .f32 0x3F800000#32)) (val_main_v60 (F := Ideal) x8)) hsc (i 0) 0
    have e3 := row_apply (addf (F := Ideal) (φ := .f32) (val_main_v9 (F := Ideal) x3) (val_main_v42 (F := Ideal) x3)) hsr 0 (i 1)
    have e4 : (fun k : Fin 128 => transpose S128x128 [1, 0] (addf (F := Ideal) (φ := .f32) (val_main_v11 (F := Ideal) x4) (val_main_v44 (F := Ideal) x4)) htr (ix2 k (i 1)))
        = fun k => (val_main_v11 (F := Ideal) x4) (ix2 (i 1) k) + (val_main_v44 (F := Ideal) x4) (ix2 (i 1) k) :=
      funext fun k => transpose_add_apply _ _ htr k (i 1)
    rw [e1, e2, e3, e4]
    simp only [hostDivf_apply, one_bcast_200000 hb, addf_apply]
  · rw [val_main_v141_apply, val_main_v72_apply, sage_21, sage_54]
    rfl

/-- With real inputs the post1 side's output is real at every entry: every piece of every entry is. -/
theorem real_out_post1 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal))
    (hb : S_.BroadcastsInDim S200000 (![] : Fin 0 → Fin S200000.rank)) (hsc : S200000.ShapeCasts S200000x1)
    (htr : S128x128.Transposes [1, 0] S128x128) (hsr : S128.ShapeCasts S1x128)
    (h0 : ∀ j, IsReal (x0 j)) (h1 : ∀ j, IsReal (x1 j)) (h2 : ∀ j, IsReal (x2 j)) (h3 : ∀ j, IsReal (x3 j)) (h4 : ∀ j, IsReal (x4 j))
    (i : S200000x128.Idx) : IsReal ((val_main_v141 (F := Ideal) x0 x1 x2 x3 x4 x5 x6 x7 x8) i) := by
  rw [← side_post1 x0 x1 x2 x3 x4 x5 x6 x7 x8 hb hsc htr hsr h1 (real_wr_21 x4 h4) (real_wr_54 x4 h4)]
  unfold combine
  refine isReal_combineAt true (fun k => real_agg_21 x0 x5 x6 h0 _) (fun k => real_agg_54 x0 x7 x8 h0 _)
    (fun k => h1 _) ?_ ?_ (fun k => real_wl_21 x2 h2 _) (fun k => real_wl_54 x2 h2 _) (fun k => ?_) ?_
  · rw [col_apply (Host.divf (broadcastInDim S200000 ![] hb (constant (F := Ideal) S_ .f32 0x3F800000#32)) (val_main_v27 (F := Ideal) x6)) hsc (i 0) 0, hostDivf_apply, one_bcast_200000 hb]; exact isReal_div_one (cnt_ne_21 _ _)
  · rw [col_apply (Host.divf (broadcastInDim S200000 ![] hb (constant (F := Ideal) S_ .f32 0x3F800000#32)) (val_main_v60 (F := Ideal) x8)) hsc (i 0) 0, hostDivf_apply, one_bcast_200000 hb]; exact isReal_div_one (cnt_ne_54 _ _)
  · rw [transpose_add_apply _ _ htr k (i 1)]; exact (real_wr_21 x4 h4 _).add (real_wr_54 x4 h4 _)
  · rw [row_apply (addf (F := Ideal) (φ := .f32) (val_main_v9 (F := Ideal) x3) (val_main_v42 (F := Ideal) x3)) hsr 0 (i 1), addf_apply]; exact (real_b_21 x3 h3 _).add (real_b_54 x3 h3 _)

end Cert.Bridge

end
-- ==== Proof.BridgeUser1.lean ====
/-
  The two programs agree, one destination side of one layer at a time.

  A side's output in the kernel's form is `combine` of: the two neighbour aggregates, the two reciprocal clamped
  counts as columns, the side's own features, the two transposed neighbour weights, the transposed SUM of the two
  self weights, and the row of the SUM of the two biases. In the reference's form it is two neighbour terms added
  (then clamped at zero after the first layer), each term = (aggregate / clamped count) · Wlᵀ + bias + own · Wrᵀ.
  Read at an entry (row `r`, column `q`) both are sums over the 128 features of the same numbers; the law joining
  them is `sage_pair` (a quotient by a nonzero count is a product with its reciprocal; the product against the
  summed self weights splits because the own features and the self weights are real numbers; sums re-associate).
  The index functions the reference's reading lemmas use are identified with coordinates once per operation.
  This module: the user side of the first layer (neighbour blocks 88 and 121).
-/
import proofs.«147864_j85770496901303_2_alg».proof.Proof.BridgeBase
import proofs.«147864_j85770496901303_2_alg».proof.Proof.RealPieces

noncomputable section

namespace Cert.Bridge

open Cert.ReferenceIdeal Cert.ReferenceIdeal.Read Cert.Sage
open Idealize.ShloMosaic Idealize.ShloMosaic.ValueIdx

/-! ### The neighbour term whose aggregate is operation 88 -/

theorem lidx_99 (i : S100000x128.Idx) (k : Fin 128) : lidx_main_v99 i k = ix2 (n0 := 100000) (n1 := 128) (i 0) k := by
  funext a; match a with | ⟨0, _⟩ => rfl | ⟨1, _⟩ => rfl
theorem ridx_99 (i : S100000x128.Idx) (k : Fin 128) : ridx_main_v99 i k = ix2 (n0 := 128) (n1 := 128) k (i 1) := by
  funext a; match a with | ⟨0, _⟩ => rfl | ⟨1, _⟩ => rfl
theorem lidx_104 (i : S100000x128.Idx) (k : Fin 128) : lidx_main_v104 i k = ix2 (n0 := 100000) (n1 := 128) (i 0) k := by
  funext a; match a with | ⟨0, _⟩ => rfl | ⟨1, _⟩ => rfl
/-- The count is read at the entry's row, whatever the contracted feature. -/
theorem cidx_88 (i : S100000x128.Idx) (k : Fin 128) :
    idx_main_v95 (idx_main_v96 (lidx_main_v99 i k)) = ix1 (n := 100000) (i 0) := by
  funext a; match a with | ⟨0, _⟩ => rfl
/-- The bias is read at the entry's column. -/
theorem bidx_88 (i : S100000x128.Idx) : idx_main_v100 (idx_main_v101 i) = ix1 (n := 128) (i 1) := by
  funext a; match a with | ⟨0, _⟩ => rfl
/-- The transposed self weights at (feature, column) are the self weights at (column, feature). -/
theorem widx_88 (i : S100000x128.Idx) (k : Fin 128) :
    idx_main_v103 (ridx_main_v104 i k) = ix2 (n0 := 128) (n1 := 128) (i 1) k := by
  funext a; match a with | ⟨0, _⟩ => rfl | ⟨1, _⟩ => rfl

/-- The clamped neighbour count is not zero. -/
theorem cnt_ne_88 (x5 : (⟨S500000, .i32⟩ : BufTy).Contents (Elt Ideal)) (j : S100000.Idx) : (val_main_v94 (F := Ideal) x5) j ≠ 0 :=
  max_one_ne_zero _

/-- The neighbour term at an entry: the mean of the neighbours' rows against the weight column, the bias entry,
    and the node's own row against the self-weight column. -/
theorem sage_88 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (i : S100000x128.Idx) :
    (val_main_v105 (F := Ideal) x0 x1 x2 x3 x4 x5 x6) i
      = ((∑ k : Fin 128, Ideal.div ((val_main_v88 (F := Ideal) x1 x5 x6) (ix2 (i 0) k)) ((val_main_v94 (F := Ideal) x5) (ix1 (i 0))) * (val_main_v98 (F := Ideal) x2) (ix2 k (i 1)))
          + (val_main_v76 (F := Ideal) x3) (ix1 (i 1)))
        + ∑ k : Fin 128, x0 (ix2 (i 0) k) * (val_main_v78 (F := Ideal) x4) (ix2 (i 1) k) := by
  rw [val_main_v105_apply, val_main_v102_apply, val_main_v99_apply, val_main_v104_apply]
  simp only [val_main_v97_apply, val_main_v96_apply, val_main_v95_apply, val_main_v101_apply,
    val_main_v100_apply, val_main_v103_apply, Ideal.hostDivf_def, Ideal.addf_def]
  simp only [cidx_88, bidx_88, widx_88]
  simp only [lidx_99, ridx_99, lidx_104]

/-! ### The neighbour term whose aggregate is operation 121 -/

theorem lidx_132 (i : S100000x128.Idx) (k : Fin 128) : lidx_main_v132 i k = ix2 (n0 := 100000) (n1 := 128) (i 0) k := by
  funext a; match a with | ⟨0, _⟩ => rfl | ⟨1, _⟩ => rfl
theorem ridx_132 (i : S100000x128.Idx) (k : Fin 128) : ridx_main_v132 i k = ix2 (n0 := 128) (n1 := 128) k (i 1) := by
  funext a; match a with | ⟨0, _⟩ => rfl | ⟨1, _⟩ => rfl
theorem lidx_137 (i : S100000x128.Idx) (k : Fin 128) : lidx_main_v137 i k = ix2 (n0 := 100000) (n1 := 128) (i 0) k := by
  funext a; match a with | ⟨0, _⟩ => rfl | ⟨1, _⟩ => rfl
/-- The count is read at the entry's row, whatever the contracted feature. -/
theorem cidx_121 (i : S100000x128.Idx) (k : Fin 128) :
    idx_main_v128 (idx_main_v129 (lidx_main_v132 i k)) = ix1 (n := 100000) (i 0) := by
  funext a; match a with | ⟨0, _⟩ => rfl
/-- The bias is read at the entry's column. -/
theorem bidx_121 (i : S100000x128.Idx) : idx_main_v133 (idx_main_v134 i) = ix1 (n := 128) (i 1) := by
  funext a; match a with | ⟨0, _⟩ => rfl
/-- The transposed self weights at (feature, column) are the self weights at (column, feature). -/
theorem widx_121 (i : S100000x128.Idx) (k : Fin 128) :
    idx_main_v136 (ridx_main_v137 i k) = ix2 (n0 := 128) (n1 := 128) (i 1) k := by
  funext a; match a with | ⟨0, _⟩ => rfl | ⟨1, _⟩ => rfl

/-- The clamped neighbour count is not zero. -/
theorem cnt_ne_121 (x7 : (⟨S150000, .i32⟩ : BufTy).Contents (Elt Ideal)) (j : S100000.Idx) : (val_main_v127 (F := Ideal) x7) j ≠ 0 :=
  max_one_ne_zero _

/-- The neighbour term at an entry: the mean of the neighbours' rows against the weight column, the bias entry,
    and the node's own row against the self-weight column. -/
theorem sage_121 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x7 : (⟨S150000, .i32⟩ : BufTy).Contents (Elt Ideal)) (x8 : (⟨S150000, .i32⟩ : BufTy).Contents (Elt Ideal)) (i : S100000x128.Idx) :
    (val_main_v138 (F := Ideal) x0 x1 x2 x3 x4 x7 x8) i
      = ((∑ k : Fin 128, Ideal.div ((val_main_v121 (F := Ideal) x1 x7 x8) (ix2 (i 0) k)) ((val_main_v127 (F := Ideal) x7) (ix1 (i 0))) * (val_main_v131 (F := Ideal) x2) (ix2 k (i 1)))
          + (val_main_v109 (F := Ideal) x3) (ix1 (i 1)))
        + ∑ k : Fin 128, x0 (ix2 (i 0) k) * (val_main_v111 (F := Ideal) x4) (ix2 (i 1) k) := by
  rw [val_main_v138_apply, val_main_v135_apply, val_main_v132_apply, val_main_v137_apply]
  simp only [val_main_v130_apply, val_main_v129_apply, val_main_v128_apply, val_main_v134_apply,
    val_main_v133_apply, val_main_v136_apply, Ideal.hostDivf_def, Ideal.addf_def]
  simp only [cidx_121, bidx_121, widx_121]
  simp only [lidx_132, ridx_132, lidx_137]

/-! ### The user1 side -/

/-- The combined output of the kernel's form of this side (reciprocal counts as a column, self weights summed
    and transposed, biases summed into a row) is the reference's two neighbour terms added, then clamped at zero. -/
theorem side_user1 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal))
    (hb : S_.BroadcastsInDim S100000 (![] : Fin 0 → Fin S100000.rank)) (hsc : S100000.ShapeCasts S100000x1)
    (htr : S128x128.Transposes [1, 0] S128x128) (hsr : S128.ShapeCasts S1x128)
    (hx : ∀ j, IsReal (x0 j)) (hrA : ∀ j, IsReal ((val_main_v78 (F := Ideal) x4) j)) (hrB : ∀ j, IsReal ((val_main_v111 (F := Ideal) x4) j)) :
    combine 100000 true (val_main_v88 (F := Ideal) x1 x5 x6) (val_main_v121 (F := Ideal) x1 x7 x8)
      (shapeCast S100000x1 (Host.divf (broadcastInDim S100000 ![] hb (constant (F := Ideal) S_ .f32 0x3F800000#32)) (val_main_v94 (F := Ideal) x5)) hsc)
      (shapeCast S100000x1 (Host.divf (broadcastInDim S100000 ![] hb (constant (F := Ideal) S_ .f32 0x3F800000#32)) (val_main_v127 (F := Ideal) x7)) hsc)
      x0 (val_main_v98 (F := Ideal) x2) (val_main_v131 (F := Ideal) x2)
      (transpose S128x128 [1, 0] (addf (F := Ideal) (φ := .f32) (val_main_v78 (F := Ideal) x4) (val_main_v111 (F := Ideal) x4)) htr)
      (shapeCast S1x128 (addf (F := Ideal) (φ := .f32) (val_main_v76 (F := Ideal) x3) (val_main_v109 (F := Ideal) x3)) hsr)
    = (val_main_v140 (F := Ideal) x0 x1 x2 x3 x4 x5 x6 x7 x8) := by
  funext i
  refine Eq.trans ?_ ((sage_pair true
    (fun k => (val_main_v88 (F := Ideal) x1 x5 x6) (ix2 (i 0) k)) (fun k => (val_main_v121 (F := Ideal) x1 x7 x8) (ix2 (i 0) k)) (fun k => x0 (ix2 (i 0) k))
    ((val_main_v94 (F := Ideal) x5) (ix1 (i 0))) ((val_main_v127 (F := Ideal) x7) (ix1 (i 0)))
    (fun k => (val_main_v98 (F := Ideal) x2) (ix2 k (i 1))) (fun k => (val_main_v131 (F := Ideal) x2) (ix2 k (i 1)))
    (fun k => (val_main_v78 (F := Ideal) x4) (ix2 (i 1) k)) (fun k => (val_main_v111 (F := Ideal) x4) (ix2 (i 1) k))
    ((val_main_v76 (F := Ideal) x3) (ix1 (i 1))) ((val_main_v109 (F := Ideal) x3) (ix1 (i 1)))
    (cnt_ne_88 _ _) (cnt_ne_121 _ _) (fun k => hx _) (fun k => hrA _) (fun k => hrB _)).trans ?_)
  · unfold combine
    have e1 := col_apply (Host.divf (broadcastInDim S100000 ![] hb (constant (F := Ideal) S_ .f32 0x3F800000#32)) (val_main_v94 (F := Ideal) x5)) hsc (i 0) 0
    have e2 := col_apply (Host.divf (broadcastInDim S100000 ![] hb (constant (F := Ideal) S_ .f32 0x3F800000#32)) (val_main_v127 (F := Ideal) x7)) hsc (i 0) 0
    have e3 := row_apply (addf (F := Ideal) (φ := .f32) (val_main_v76 (F := Ideal) x3) (val_main_v109 (F := Ideal) x3)) hsr 0 (i 1)
    have e4 : (fun k : Fin 128 => transpose S128x128 [1, 0] (addf (F := Ideal) (φ := .f32) (val_main_v78 (F := Ideal) x4) (val_main_v111 (F := Ideal) x4)) htr (ix2 k (i 1)))
        = fun k => (val_main_v78 (F := Ideal) x4) (ix2 (i 1) k) + (val_main_v111 (F := Ideal) x4) (ix2 (i 1) k) :=
      funext fun k => transpose_add_apply _ _ htr k (i 1)
    rw [e1, e2, e3, e4]
    simp only [hostDivf_apply, one_bcast_100000 hb, addf_apply]
  · rw [val_main_v140_apply, val_main_v139_apply, sage_88, sage_121]
    rfl

/-- With real inputs the user1 side's output is real at every entry: every piece of every entry is. -/
theorem real_out_user1 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal))
    (hb : S_.BroadcastsInDim S100000 (![] : Fin 0 → Fin S100000.rank)) (hsc : S100000.ShapeCasts S100000x1)
    (htr : S128x128.Transposes [1, 0] S128x128) (hsr : S128.ShapeCasts S1x128)
    (h0 : ∀ j, IsReal (x0 j)) (h1 : ∀ j, IsReal (x1 j)) (h2 : ∀ j, IsReal (x2 j)) (h3 : ∀ j, IsReal (x3 j)) (h4 : ∀ j, IsReal (x4 j))
    (i : S100000x128.Idx) : IsReal ((val_main_v140 (F := Ideal) x0 x1 x2 x3 x4 x5 x6 x7 x8) i) := by
  rw [← side_user1 x0 x1 x2 x3 x4 x5 x6 x7 x8 hb hsc htr hsr h0 (real_wr_88 x4 h4) (real_wr_121 x4 h4)]
  unfold combine
  refine isReal_combineAt true (fun k => real_agg_88 x1 x5 x6 h1 _) (fun k => real_agg_121 x1 x7 x8 h1 _)
    (fun k => h0 _) ?_ ?_ (fun k => real_wl_88 x2 h2 _) (fun k => real_wl_121 x2 h2 _) (fun k => ?_) ?_
  · rw [col_apply (Host.divf (broadcastInDim S100000 ![] hb (constant (F := Ideal) S_ .f32 0x3F800000#32)) (val_main_v94 (F := Ideal) x5)) hsc (i 0) 0, hostDivf_apply, one_bcast_100000 hb]; exact isReal_div_one (cnt_ne_88 _ _)
  · rw [col_apply (Host.divf (broadcastInDim S100000 ![] hb (constant (F := Ideal) S_ .f32 0x3F800000#32)) (val_main_v127 (F := Ideal) x7)) hsc (i 0) 0, hostDivf_apply, one_bcast_100000 hb]; exact isReal_div_one (cnt_ne_121 _ _)
  · rw [transpose_add_apply _ _ htr k (i 1)]; exact (real_wr_88 x4 h4 _).add (real_wr_121 x4 h4 _)
  · rw [row_apply (addf (F := Ideal) (φ := .f32) (val_main_v76 (F := Ideal) x3) (val_main_v109 (F := Ideal) x3)) hsr 0 (i 1), addf_apply]; exact (real_b_88 x3 h3 _).add (real_b_121 x3 h3 _)

end Cert.Bridge

end
-- ==== Proof.BridgePost2.lean ====
/-
  The two programs agree, one destination side of one layer at a time.

  A side's output in the kernel's form is `combine` of: the two neighbour aggregates, the two reciprocal clamped
  counts as columns, the side's own features, the two transposed neighbour weights, the transposed SUM of the two
  self weights, and the row of the SUM of the two biases. In the reference's form it is two neighbour terms added
  (then clamped at zero after the first layer), each term = (aggregate / clamped count) · Wlᵀ + bias + own · Wrᵀ.
  Read at an entry (row `r`, column `q`) both are sums over the 128 features of the same numbers; the law joining
  them is `sage_pair` (a quotient by a nonzero count is a product with its reciprocal; the product against the
  summed self weights splits because the own features and the self weights are real numbers; sums re-associate).
  The index functions the reference's reading lemmas use are identified with coordinates once per operation.
  This module: the post side of the second layer (neighbour blocks 163 and 196).
-/
import proofs.«147864_j85770496901303_2_alg».proof.Proof.BridgeBase
import proofs.«147864_j85770496901303_2_alg».proof.Proof.RealPieces

noncomputable section

namespace Cert.Bridge

open Cert.ReferenceIdeal Cert.ReferenceIdeal.Read Cert.Sage
open Idealize.ShloMosaic Idealize.ShloMosaic.ValueIdx

/-! ### The neighbour term whose aggregate is operation 163 -/

theorem lidx_174 (i : S200000x128.Idx) (k : Fin 128) : lidx_main_v174 i k = ix2 (n0 := 200000) (n1 := 128) (i 0) k := by
  funext a; match a with | ⟨0, _⟩ => rfl | ⟨1, _⟩ => rfl
theorem ridx_174 (i : S200000x128.Idx) (k : Fin 128) : ridx_main_v174 i k = ix2 (n0 := 128) (n1 := 128) k (i 1) := by
  funext a; match a with | ⟨0, _⟩ => rfl | ⟨1, _⟩ => rfl
theorem lidx_179 (i : S200000x128.Idx) (k : Fin 128) : lidx_main_v179 i k = ix2 (n0 := 200000) (n1 := 128) (i 0) k := by
  funext a; match a with | ⟨0, _⟩ => rfl | ⟨1, _⟩ => rfl
/-- The count is read at the entry's row, whatever the contracted feature. -/
theorem cidx_163 (i : S200000x128.Idx) (k : Fin 128) :
    idx_main_v170 (idx_main_v171 (lidx_main_v174 i k)) = ix1 (n := 200000) (i 0) := by
  funext a; match a with | ⟨0, _⟩ => rfl
/-- The bias is read at the entry's column. -/
theorem bidx_163 (i : S200000x128.Idx) : idx_main_v175 (idx_main_v176 i) = ix1 (n := 128) (i 1) := by
  funext a; match a with | ⟨0, _⟩ => rfl
/-- The transposed self weights at (feature, column) are the self weights at (column, feature). -/
theorem widx_163 (i : S200000x128.Idx) (k : Fin 128) :
    idx_main_v178 (ridx_main_v179 i k) = ix2 (n0 := 128) (n1 := 128) (i 1) k := by
  funext a; match a with | ⟨0, _⟩ => rfl | ⟨1, _⟩ => rfl

/-- The clamped neighbour count is not zero. -/
theorem cnt_ne_163 (x6 : (⟨S500000, .i32⟩ : BufTy).Contents (Elt Ideal)) (j : S200000.Idx) : (val_main_v169 (F := Ideal) x6) j ≠ 0 :=
  max_one_ne_zero _

/-- The neighbour term at an entry: the mean of the neighbours' rows against the weight column, the bias entry,
    and the node's own row against the self-weight column. -/
theorem sage_163 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal)) (i : S200000x128.Idx) :
    (val_main_v180 (F := Ideal) x0 x1 x2 x3 x4 x5 x6 x7 x8) i
      = ((∑ k : Fin 128, Ideal.div ((val_main_v163 (F := Ideal) x0 x1 x2 x3 x4 x5 x6 x7 x8) (ix2 (i 0) k)) ((val_main_v169 (F := Ideal) x6) (ix1 (i 0))) * (val_main_v173 (F := Ideal) x2) (ix2 k (i 1)))
          + (val_main_v151 (F := Ideal) x3) (ix1 (i 1)))
        + ∑ k : Fin 128, (val_main_v141 (F := Ideal) x0 x1 x2 x3 x4 x5 x6 x7 x8) (ix2 (i 0) k) * (val_main_v153 (F := Ideal) x4) (ix2 (i 1) k) := by
  rw [val_main_v180_apply, val_main_v177_apply, val_main_v174_apply, val_main_v179_apply]
  simp only [val_main_v172_apply, val_main_v171_apply, val_main_v170_apply, val_main_v176_apply,
    val_main_v175_apply, val_main_v178_apply, Ideal.hostDivf_def, Ideal.addf_def]
  simp only [cidx_163, bidx_163, widx_163]
  simp only [lidx_174, ridx_174, lidx_179]

/-! ### The neighbour term whose aggregate is operation 196 -/

theorem lidx_207 (i : S200000x128.Idx) (k : Fin 128) : lidx_main_v207 i k = ix2 (n0 := 200000) (n1 := 128) (i 0) k := by
  funext a; match a with | ⟨0, _⟩ => rfl | ⟨1, _⟩ => rfl
theorem ridx_207 (i : S200000x128.Idx) (k : Fin 128) : ridx_main_v207 i k = ix2 (n0 := 128) (n1 := 128) k (i 1) := by
  funext a; match a with | ⟨0, _⟩ => rfl | ⟨1, _⟩ => rfl
theorem lidx_212 (i : S200000x128.Idx) (k : Fin 128) : lidx_main_v212 i k = ix2 (n0 := 200000) (n1 := 128) (i 0) k := by
  funext a; match a with | ⟨0, _⟩ => rfl | ⟨1, _⟩ => rfl
/-- The count is read at the entry's row, whatever the contracted feature. -/
theorem cidx_196 (i : S200000x128.Idx) (k : Fin 128) :
    idx_main_v203 (idx_main_v204 (lidx_main_v207 i k)) = ix1 (n := 200000) (i 0) := by
  funext a; match a with | ⟨0, _⟩ => rfl
/-- The bias is read at the entry's column. -/
theorem bidx_196 (i : S200000x128.Idx) : idx_main_v208 (idx_main_v209 i) = ix1 (n := 128) (i 1) := by
  funext a; match a with | ⟨0, _⟩ => rfl
/-- The transposed self weights at (feature, column) are the self weights at (column, feature). -/
theorem widx_196 (i : S200000x128.Idx) (k : Fin 128) :
    idx_main_v211 (ridx_main_v212 i k) = ix2 (n0 := 128) (n1 := 128) (i 1) k := by
  funext a; match a with | ⟨0, _⟩ => rfl | ⟨1, _⟩ => rfl

/-- The clamped neighbour count is not zero. -/
theorem cnt_ne_196 (x8 : (⟨S150000, .i32⟩ : BufTy).Contents (Elt Ideal)) (j : S200000.Idx) : (val_main_v202 (F := Ideal) x8) j ≠ 0 :=
  max_one_ne_zero _

/-- The neighbour term at an entry: the mean of the neighbours' rows against the weight column, the bias entry,
    and the node's own row against the self-weight column. -/
theorem sage_196 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal)) (i : S200000x128.Idx) :
    (val_main_v213 (F := Ideal) x0 x1 x2 x3 x4 x5 x6 x7 x8) i
      = ((∑ k : Fin 128, Ideal.div ((val_main_v196 (F := Ideal) x0 x1 x2 x3 x4 x5 x6 x7 x8) (ix2 (i 0) k)) ((val_main_v202 (F := Ideal) x8) (ix1 (i 0))) * (val_main_v206 (F := Ideal) x2) (ix2 k (i 1)))
          + (val_main_v184 (F := Ideal) x3) (ix1 (i 1)))
        + ∑ k : Fin 128, (val_main_v141 (F := Ideal) x0 x1 x2 x3 x4 x5 x6 x7 x8) (ix2 (i 0) k) * (val_main_v186 (F := Ideal) x4) (ix2 (i 1) k) := by
  rw [val_main_v213_apply, val_main_v210_apply, val_main_v207_apply, val_main_v212_apply]
  simp only [val_main_v205_apply, val_main_v204_apply, val_main_v203_apply, val_main_v209_apply,
    val_main_v208_apply, val_main_v211_apply, Ideal.hostDivf_def, Ideal.addf_def]
  simp only [cidx_196, bidx_196, widx_196]
  simp only [lidx_207, ridx_207, lidx_212]

/-! ### The post2 side -/

/-- The combined output of the kernel's form of this side (reciprocal counts as a column, self weights summed
    and transposed, biases summed into a row) is the reference's two neighbour terms added. -/
theorem side_post2 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal))
    (hb : S_.BroadcastsInDim S200000 (![] : Fin 0 → Fin S200000.rank)) (hsc : S200000.ShapeCasts S200000x1)
    (htr : S128x128.Transposes [1, 0] S128x128) (hsr : S128.ShapeCasts S1x128)
    (hx : ∀ j, IsReal ((val_main_v141 (F := Ideal) x0 x1 x2 x3 x4 x5 x6 x7 x8) j)) (hrA : ∀ j, IsReal ((val_main_v153 (F := Ideal) x4) j)) (hrB : ∀ j, IsReal ((val_main_v186 (F := Ideal) x4) j)) :
    combine 200000 false (val_main_v163 (F := Ideal) x0 x1 x2 x3 x4 x5 x6 x7 x8) (val_main_v196 (F := Ideal) x0 x1 x2 x3 x4 x5 x6 x7 x8)
      (shapeCast S200000x1 (Host.divf (broadcastInDim S200000 ![] hb (constant (F := Ideal) S_ .f32 0x3F800000#32)) (val_main_v169 (F := Ideal) x6)) hsc)
      (shapeCast S200000x1 (Host.divf (broadcastInDim S200000 ![] hb (constant (F := Ideal) S_ .f32 0x3F800000#32)) (val_main_v202 (F := Ideal) x8)) hsc)
      (val_main_v141 (F := Ideal) x0 x1 x2 x3 x4 x5 x6 x7 x8) (val_main_v173 (F := Ideal) x2) (val_main_v206 (F := Ideal) x2)
      (transpose S128x128 [1, 0] (addf (F := Ideal) (φ := .f32) (val_main_v153 (F := Ideal) x4) (val_main_v186 (F := Ideal) x4)) htr)
      (shapeCast S1x128 (addf (F := Ideal) (φ := .f32) (val_main_v151 (F := Ideal) x3) (val_main_v184 (F := Ideal) x3)) hsr)
    = (val_main_v214 (F := Ideal) x0 x1 x2 x3 x4 x5 x6 x7 x8) := by
  funext i
  refine Eq.trans ?_ ((sage_pair false
    (fun k => (val_main_v163 (F := Ideal) x0 x1 x2 x3 x4 x5 x6 x7 x8) (ix2 (i 0) k)) (fun k => (val_main_v196 (F := Ideal) x0 x1 x2 x3 x4 x5 x6 x7 x8) (ix2 (i 0) k)) (fun k => (val_main_v141 (F := Ideal) x0 x1 x2 x3 x4 x5 x6 x7 x8) (ix2 (i 0) k))
    ((val_main_v169 (F := Ideal) x6) (ix1 (i 0))) ((val_main_v202 (F := Ideal) x8) (ix1 (i 0)))
    (fun k => (val_main_v173 (F := Ideal) x2) (ix2 k (i 1))) (fun k => (val_main_v206 (F := Ideal) x2) (ix2 k (i 1)))
    (fun k => (val_main_v153 (F := Ideal) x4) (ix2 (i 1) k)) (fun k => (val_main_v186 (F := Ideal) x4) (ix2 (i 1) k))
    ((val_main_v151 (F := Ideal) x3) (ix1 (i 1))) ((val_main_v184 (F := Ideal) x3) (ix1 (i 1)))
    (cnt_ne_163 _ _) (cnt_ne_196 _ _) (fun k => hx _) (fun k => hrA _) (fun k => hrB _)).trans ?_)
  · unfold combine
    have e1 := col_apply (Host.divf (broadcastInDim S200000 ![] hb (constant (F := Ideal) S_ .f32 0x3F800000#32)) (val_main_v169 (F := Ideal) x6)) hsc (i 0) 0
    have e2 := col_apply (Host.divf (broadcastInDim S200000 ![] hb (constant (F := Ideal) S_ .f32 0x3F800000#32)) (val_main_v202 (F := Ideal) x8)) hsc (i 0) 0
    have e3 := row_apply (addf (F := Ideal) (φ := .f32) (val_main_v151 (F := Ideal) x3) (val_main_v184 (F := Ideal) x3)) hsr 0 (i 1)
    have e4 : (fun k : Fin 128 => transpose S128x128 [1, 0] (addf (F := Ideal) (φ := .f32) (val_main_v153 (F := Ideal) x4) (val_main_v186 (F := Ideal) x4)) htr (ix2 k (i 1)))
        = fun k => (val_main_v153 (F := Ideal) x4) (ix2 (i 1) k) + (val_main_v186 (F := Ideal) x4) (ix2 (i 1) k) :=
      funext fun k => transpose_add_apply _ _ htr k (i 1)
    rw [e1, e2, e3, e4]
    simp only [hostDivf_apply, one_bcast_200000 hb, addf_apply]
  · rw [val_main_v214_apply, sage_163, sage_196]
    rfl

end Cert.Bridge

end
-- ==== Proof.BridgeUser2.lean ====
/-
  The two programs agree, one destination side of one layer at a time.

  A side's output in the kernel's form is `combine` of: the two neighbour aggregates, the two reciprocal clamped
  counts as columns, the side's own features, the two transposed neighbour weights, the transposed SUM of the two
  self weights, and the row of the SUM of the two biases. In the reference's form it is two neighbour terms added
  (then clamped at zero after the first layer), each term = (aggregate / clamped count) · Wlᵀ + bias + own · Wrᵀ.
  Read at an entry (row `r`, column `q`) both are sums over the 128 features of the same numbers; the law joining
  them is `sage_pair` (a quotient by a nonzero count is a product with its reciprocal; the product against the
  summed self weights splits because the own features and the self weights are real numbers; sums re-associate).
  The index functions the reference's reading lemmas use are identified with coordinates once per operation.
  This module: the user side of the second layer (neighbour blocks 230 and 263).
-/
import proofs.«147864_j85770496901303_2_alg».proof.Proof.BridgeBase
import proofs.«147864_j85770496901303_2_alg».proof.Proof.RealPieces

noncomputable section

namespace Cert.Bridge

open Cert.ReferenceIdeal Cert.ReferenceIdeal.Read Cert.Sage
open Idealize.ShloMosaic Idealize.ShloMosaic.ValueIdx

/-! ### The neighbour term whose aggregate is operation 230 -/

theorem lidx_241 (i : S100000x128.Idx) (k : Fin 128) : lidx_main_v241 i k = ix2 (n0 := 100000) (n1 := 128) (i 0) k := by
  funext a; match a with | ⟨0, _⟩ => rfl | ⟨1, _⟩ => rfl
theorem ridx_241 (i : S100000x128.Idx) (k : Fin 128) : ridx_main_v241 i k = ix2 (n0 := 128) (n1 := 128) k (i 1) := by
  funext a; match a with | ⟨0, _⟩ => rfl | ⟨1, _⟩ => rfl
theorem lidx_246 (i : S100000x128.Idx) (k : Fin 128) : lidx_main_v246 i k = ix2 (n0 := 100000) (n1 := 128) (i 0) k := by
  funext a; match a with | ⟨0, _⟩ => rfl | ⟨1, _⟩ => rfl
/-- The count is read at the entry's row, whatever the contracted feature. -/
theorem cidx_230 (i : S100000x128.Idx) (k : Fin 128) :
    idx_main_v237 (idx_main_v238 (lidx_main_v241 i k)) = ix1 (n := 100000) (i 0) := by
  funext a; match a with | ⟨0, _⟩ => rfl
/-- The bias is read at the entry's column. -/
theorem bidx_230 (i : S100000x128.Idx) : idx_main_v242 (idx_main_v243 i) = ix1 (n := 128) (i 1) := by
  funext a; match a with | ⟨0, _⟩ => rfl
/-- The transposed self weights at (feature, column) are the self weights at (column, feature). -/
theorem widx_230 (i : S100000x128.Idx) (k : Fin 128) :
    idx_main_v245 (ridx_main_v246 i k) = ix2 (n0 := 128) (n1 := 128) (i 1) k := by
  funext a; match a with | ⟨0, _⟩ => rfl | ⟨1, _⟩ => rfl

/-- The clamped neighbour count is not zero. -/
theorem cnt_ne_230 (x5 : (⟨S500000, .i32⟩ : BufTy).Contents (Elt Ideal)) (j : S100000.Idx) : (val_main_v236 (F := Ideal) x5) j ≠ 0 :=
  max_one_ne_zero _

/-- The neighbour term at an entry: the mean of the neighbours' rows against the weight column, the bias entry,
    and the node's own row against the self-weight column. -/
theorem sage_230 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal)) (i : S100000x128.Idx) :
    (val_main_v247 (F := Ideal) x0 x1 x2 x3 x4 x5 x6 x7 x8) i
      = ((∑ k : Fin 128, Ideal.div ((val_main_v230 (F := Ideal) x0 x1 x2 x3 x4 x5 x6 x7 x8) (ix2 (i 0) k)) ((val_main_v236 (F := Ideal) x5) (ix1 (i 0))) * (val_main_v240 (F := Ideal) x2) (ix2 k (i 1)))
          + (val_main_v218 (F := Ideal) x3) (ix1 (i 1)))
        + ∑ k : Fin 128, (val_main_v140 (F := Ideal) x0 x1 x2 x3 x4 x5 x6 x7 x8) (ix2 (i 0) k) * (val_main_v220 (F := Ideal) x4) (ix2 (i 1) k) := by
  rw [val_main_v247_apply, val_main_v244_apply, val_main_v241_apply, val_main_v246_apply]
  simp only [val_main_v239_apply, val_main_v238_apply, val_main_v237_apply, val_main_v243_apply,
    val_main_v242_apply, val_main_v245_apply, Ideal.hostDivf_def, Ideal.addf_def]
  simp only [cidx_230, bidx_230, widx_230]
  simp only [lidx_241, ridx_241, lidx_246]

/-! ### The neighbour term whose aggregate is operation 263 -/

theorem lidx_274 (i : S100000x128.Idx) (k : Fin 128) : lidx_main_v274 i k = ix2 (n0 := 100000) (n1 := 128) (i 0) k := by
  funext a; match a with | ⟨0, _⟩ => rfl | ⟨1, _⟩ => rfl
theorem ridx_274 (i : S100000x128.Idx) (k : Fin 128) : ridx_main_v274 i k = ix2 (n0 := 128) (n1 := 128) k (i 1) := by
  funext a; match a with | ⟨0, _⟩ => rfl | ⟨1, _⟩ => rfl
theorem lidx_279 (i : S100000x128.Idx) (k : Fin 128) : lidx_main_v279 i k = ix2 (n0 := 100000) (n1 := 128) (i 0) k := by
  funext a; match a with | ⟨0, _⟩ => rfl | ⟨1, _⟩ => rfl
/-- The count is read at the entry's row, whatever the contracted feature. -/
theorem cidx_263 (i : S100000x128.Idx) (k : Fin 128) :
    idx_main_v270 (idx_main_v271 (lidx_main_v274 i k)) = ix1 (n := 100000) (i 0) := by
  funext a; match a with | ⟨0, _⟩ => rfl
/-- The bias is read at the entry's column. -/
theorem bidx_263 (i : S100000x128.Idx) : idx_main_v275 (idx_main_v276 i) = ix1 (n := 128) (i 1) := by
  funext a; match a with | ⟨0, _⟩ => rfl
/-- The transposed self weights at (feature, column) are the self weights at (column, feature). -/
theorem widx_263 (i : S100000x128.Idx) (k : Fin 128) :
    idx_main_v278 (ridx_main_v279 i k) = ix2 (n0 := 128) (n1 := 128) (i 1) k := by
  funext a; match a with | ⟨0, _⟩ => rfl | ⟨1, _⟩ => rfl

/-- The clamped neighbour count is not zero. -/
theorem cnt_ne_263 (x7 : (⟨S150000, .i32⟩ : BufTy).Contents (Elt Ideal)) (j : S100000.Idx) : (val_main_v269 (F := Ideal) x7) j ≠ 0 :=
  max_one_ne_zero _

/-- The neighbour term at an entry: the mean of the neighbours' rows against the weight column, the bias entry,
    and the node's own row against the self-weight column. -/
theorem sage_263 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal)) (i : S100000x128.Idx) :
    (val_main_v280 (F := Ideal) x0 x1 x2 x3 x4 x5 x6 x7 x8) i
      = ((∑ k : Fin 128, Ideal.div ((val_main_v263 (F := Ideal) x0 x1 x2 x3 x4 x5 x6 x7 x8) (ix2 (i 0) k)) ((val_main_v269 (F := Ideal) x7) (ix1 (i 0))) * (val_main_v273 (F := Ideal) x2) (ix2 k (i 1)))
          + (val_main_v251 (F := Ideal) x3) (ix1 (i 1)))
        + ∑ k : Fin 128, (val_main_v140 (F := Ideal) x0 x1 x2 x3 x4 x5 x6 x7 x8) (ix2 (i 0) k) * (val_main_v253 (F := Ideal) x4) (ix2 (i 1) k) := by
  rw [val_main_v280_apply, val_main_v277_apply, val_main_v274_apply, val_main_v279_apply]
  simp only [val_main_v272_apply, val_main_v271_apply, val_main_v270_apply, val_main_v276_apply,
    val_main_v275_apply, val_main_v278_apply, Ideal.hostDivf_def, Ideal.addf_def]
  simp only [cidx_263, bidx_263, widx_263]
  simp only [lidx_274, ridx_274, lidx_279]

/-! ### The user2 side -/

/-- The combined output of the kernel's form of this side (reciprocal counts as a column, self weights summed
    and transposed, biases summed into a row) is the reference's two neighbour terms added. -/
theorem side_user2 (x0 : (⟨S100000x128, .f32⟩ : BufTy).Contents (Elt Ideal)) (x1 : (⟨S200000x128, .f32⟩ : BufTy).Contents (Elt Ideal)) (x2 : (⟨S2x4x128x128, .f32⟩ : BufTy).Contents (Elt Ideal)) (x3 : (⟨S2x4x128, .f32⟩ : BufTy).Contents (Elt Ideal)) (x4 : (⟨S2x4x128x128, .f32⟩ : BufTy).Contents (Elt Ideal)) (x5 : (⟨S500000, .i32⟩ : BufTy).Contents (Elt Ideal)) (x6 : (⟨S500000, .i32⟩ : BufTy).Contents (Elt Ideal)) (x7 : (⟨S150000, .i32⟩ : BufTy).Contents (Elt Ideal)) (x8 : (⟨S150000, .i32⟩ : BufTy).Contents (Elt Ideal))
    (hb : S_.BroadcastsInDim S100000 (![] : Fin 0 → Fin S100000.rank)) (hsc : S100000.ShapeCasts S100000x1)
    (htr : S128x128.Transposes [1, 0] S128x128) (hsr : S128.ShapeCasts S1x128)
    (hx : ∀ j, IsReal ((val_main_v140 (F := Ideal) x0 x1 x2 x3 x4 x5 x6 x7 x8) j)) (hrA : ∀ j, IsReal ((val_main_v220 (F := Ideal) x4) j)) (hrB : ∀ j, IsReal ((val_main_v253 (F := Ideal) x4) j)) :
    combine 100000 false (val_main_v230 (F := Ideal) x0 x1 x2 x3 x4 x5 x6 x7 x8) (val_main_v263 (F := Ideal) x0 x1 x2 x3 x4 x5 x6 x7 x8)
      (shapeCast S100000x1 (Host.divf (broadcastInDim S100000 ![] hb (constant (F := Ideal) S_ .f32 0x3F800000#32)) (val_main_v236 (F := Ideal) x5)) hsc)
      (shapeCast S100000x1 (Host.divf (broadcastInDim S100000 ![] hb (constant (F := Ideal) S_ .f32 0x3F800000#32)) (val_main_v269 (F := Ideal) x7)) hsc)
      (val_main_v140 (F := Ideal) x0 x1 x2 x3 x4 x5 x6 x7 x8) (val_main_v240 (F := Ideal) x2) (val_main_v273 (F := Ideal) x2)
      (transpose S128x128 [1, 0] (addf (F := Ideal) (φ := .f32) (val_main_v220 (F := Ideal) x4) (val_main_v253 (F := Ideal) x4)) htr)
      (shapeCast S1x128 (addf (F := Ideal) (φ := .f32) (val_main_v218 (F := Ideal) x3) (val_main_v251 (F := Ideal) x3)) hsr)
    = (val_main_v281 (F := Ideal) x0 x1 x2 x3 x4 x5 x6 x7 x8) := by
  funext i
  refine Eq.trans ?_ ((sage_pair false
    (fun k => (val_main_v230 (F := Ideal) x0 x1 x2 x3 x4 x5 x6 x7 x8) (ix2 (i 0) k)) (fun k => (val_main_v263 (F := Ideal) x0 x1 x2 x3 x4 x5 x6 x7 x8) (ix2 (i 0) k)) (fun k => (val_main_v140 (F := Ideal) x0 x1 x2 x3 x4 x5 x6 x7 x8) (ix2 (i 0) k))
    ((val_main_v236 (F := Ideal) x5) (ix1 (i 0))) ((val_main_v269 (F := Ideal) x7) (ix1 (i 0)))
    (fun k => (val_main_v240 (F := Ideal) x2) (ix2 k (i 1))) (fun k => (val_main_v273 (F := Ideal) x2) (ix2 k (i 1)))
    (fun k => (val_main_v220 (F := Ideal) x4) (ix2 (i 1) k)) (fun k => (val_main_v253 (F := Ideal) x4) (ix2 (i 1) k))
    ((val_main_v218 (F := Ideal) x3) (ix1 (i 1))) ((val_main_v251 (F := Ideal) x3) (ix1 (i 1)))
    (cnt_ne_230 _ _) (cnt_ne_263 _ _) (fun k => hx _) (fun k => hrA _) (fun k => hrB _)).trans ?_)
  · unfold combine
    have e1 := col_apply (Host.divf (broadcastInDim S100000 ![] hb (constant (F := Ideal) S_ .f32 0x3F800000#32)) (val_main_v236 (F := Ideal) x5)) hsc (i 0) 0
    have e2 := col_apply (Host.divf (broadcastInDim S100000 ![] hb (constant (F := Ideal) S_ .f32 0x3F800000#32)) (val_main_v269 (F := Ideal) x7)) hsc (i 0) 0
    have e3 := row_apply (addf (F := Ideal) (φ := .f32) (val_main_v218 (F := Ideal) x3) (val_main_v251 (F := Ideal) x3)) hsr 0 (i 1)
    have e4 : (fun k : Fin 128 => transpose S128x128 [1, 0] (addf (F := Ideal) (φ := .f32) (val_main_v220 (F := Ideal) x4) (val_main_v253 (F := Ideal) x4)) htr (ix2 k (i 1)))
        = fun k => (val_main_v220 (F := Ideal) x4) (ix2 (i 1) k) + (val_main_v253 (F := Ideal) x4) (ix2 (i 1) k) :=
      funext fun k => transpose_add_apply _ _ htr k (i 1)
    rw [e1, e2, e3, e4]
    simp only [hostDivf_apply, one_bcast_100000 hb, addf_apply]
  · rw [val_main_v281_apply, sage_230, sage_263]
    rfl

end Cert.Bridge

end
-- ==== Proof.Bridge.lean ====
/-
  The two programs agree, one destination side of one layer at a time.

  A side's output in the kernel's form is `combine` of: the two neighbour aggregates, the two reciprocal clamped
  counts as columns, the side's own features, the two transposed neighbour weights, the transposed SUM of the two
  self weights, and the row of the SUM of the two biases. In the reference's form it is two neighbour terms added
  (then clamped at zero after the first layer), each term = (aggregate / clamped count) · Wlᵀ + bias + own · Wrᵀ.
  Read at an entry (row `r`, column `q`) both are sums over the 128 features of the same numbers; the law joining
  them is `sage_pair` (a quotient by a nonzero count is a product with its reciprocal; the product against the
  summed self weights splits because the own features and the self weights are real numbers; sums re-associate).
  The index functions the reference's reading lemmas use are identified with coordinates once per operation.
  This module only gathers the four sides.
-/
import proofs.«147864_j85770496901303_2_alg».proof.Proof.BridgePost1
import proofs.«147864_j85770496901303_2_alg».proof.Proof.BridgeUser1
import proofs.«147864_j85770496901303_2_alg».proof.Proof.BridgePost2
import proofs.«147864_j85770496901303_2_alg».proof.Proof.BridgeUser2
-- ==== Proof.Region0.lean ====
/-
  The output array of region 0 as one function of the nine arrays the region reads.

  The region walks 50 grid points; at point `t` it reads rows `4000 t … 4000 t + 3999` of the five row-blocked arrays
  (two summed-neighbour feature arrays, their two reciprocal-count columns, the nodes' own features), the three
  `128 × 128` weight matrices and the `1 × 128` bias whole, and writes rows `4000 t … 4000 t + 3999` of the output. Read at
  an entry, the body's value is the combined output of `Cert.Sage.combineAt`, with `max · 0`: the casts to the narrower
  format are the identity at the ideal values and each matrix product is the sum over the contracted feature. The
  50 blocks tile the 200000 rows, so the output array ends as `Cert.Sage.combine 200000 …` of the arrays as the
  region finds them.
-/
import proofs.«147864_j85770496901303_2_alg».proof.Proof.Gen.KernelIdeal.Frame
import proofs.«147864_j85770496901303_2_alg».proof.Proof.Combine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## Small readings at an index -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a `4000 × 128` block by a `128 × 128` matrix into a zero accumulator, read at `(p, q)`: the sum over
    the contracted coordinate of the products of the entries. -/
theorem matmul_block_apply {φ₁ φ₂ : FTy} (A : FVec Ideal S4000x128 φ₁) (B : FVec Ideal S128x128 φ₂)
    (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  show FloatOps.matmul dot_S4000x128_S128x128_S4000x128_1_0_0_1_n_n none A B (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have ck := contrEquiv1_symm_val dot_S4000x128_S128x128_S4000x128_1_0_0_1_n_n 128 rfl rfl k
  have hl : dot_S4000x128_S128x128_S4000x128_1_0_0_1_n_n.lhsIdx (ix2 p q) ((contrEquiv1 dot_S4000x128_S128x128_S4000x128_1_0_0_1_n_n 128 rfl rfl).symm k) = ix2 p k := by
    funext ax; apply Fin.ext
    match ax with
    | ⟨0, _⟩ => rfl
    | ⟨1, _⟩ => exact (dot_S4000x128_S128x128_S4000x128_1_0_0_1_n_n.lhsIdx_val_of_single (cl := (1 : Fin 2)) rfl (ix2 p q) _).trans ck
  have hr : dot_S4000x128_S128x128_S4000x128_1_0_0_1_n_n.rhsIdx (ix2 p q) ((contrEquiv1 dot_S4000x128_S128x128_S4000x128_1_0_0_1_n_n 128 rfl rfl).symm k) = ix2 k q := by
    funext ax; apply Fin.ext
    match ax with
    | ⟨0, _⟩ => exact (dot_S4000x128_S128x128_S4000x128_1_0_0_1_n_n.rhsIdx_val_of_single (cr := (0 : Fin 2)) rfl (ix2 p q) _).trans ck
    | ⟨1, _⟩ => rfl
  rw [hl, hr]

/-! ## The body's payload at an index -/

/-- The payload of the first region's body, read at row `p` and column `q` of its block: the combined entry of the
    block's row `p` (the two summed-neighbour rows scaled by their reciprocal counts, the node's own row) against column
    `q` of the three weight matrices, plus the bias entry, through `max · 0`. The casts to the narrower format are the
    identity at the ideal values and each product is a sum over the contracted feature. -/
theorem pay0_apply (aggA : Vec Ideal S4000x128 .f32) (invA : Vec Ideal S4000x1 .f32) (aggB : Vec Ideal S4000x128 .f32)
    (invB : Vec Ideal S4000x1 .f32) (x : Vec Ideal S4000x128 .f32) (wlA wlB wr : Vec Ideal S128x128 .f32)
    (bias : Vec Ideal S1x128 .f32) (p : Fin 4000) (q : Fin 128) :
    k0_pay1 aggA invA aggB invB x wlA wlB wr bias (ix2 p q)
      = Cert.Sage.combineAt true (fun k => aggA (ix2 p k)) (fun k => aggB (ix2 p k)) (fun k => x (ix2 p k))
          (invA (ix2 p 0)) (invB (ix2 p 0)) (fun k => wlA (ix2 k q)) (fun k => wlB (ix2 k q)) (fun k => wr (ix2 k q))
          (bias (ix2 0 q)) := by
  unfold k0_pay1
  simp only [shapeCast_self]
  rw [maximumf_apply, addf_apply, addf_apply, addf_apply, matmul_block_apply, matmul_block_apply, matmul_block_apply,
    broadcastTo_1b_ab_apply, broadcast_apply]
  simp only [truncf_apply, mulf_apply, broadcastTo_a1_ab_apply]
  rfl

/-! ## One entry of a block against the whole arrays -/

/-- If a block's row `p` holds the arrays' row `r` (the three feature rows and the two reciprocal counts) and its
    weight and bias blocks hold the arrays' own entries in column `q`, the payload at `(p, q)` is the combined output
    of the whole arrays at `(r, q)`. -/
theorem pay0_eq_combine {n : ℕ}
    (aggA aggB : (⟨2, ![n, 128]⟩ : Shape).Idx → EReal) (invA invB : (⟨2, ![n, 1]⟩ : Shape).Idx → EReal)
    (x : (⟨2, ![n, 128]⟩ : Shape).Idx → EReal) (wlA wlB wr : (⟨2, ![128, 128]⟩ : Shape).Idx → EReal)
    (bias : (⟨2, ![1, 128]⟩ : Shape).Idx → EReal)
    (bA : Vec Ideal S4000x128 .f32) (bIA : Vec Ideal S4000x1 .f32) (bB : Vec Ideal S4000x128 .f32)
    (bIB : Vec Ideal S4000x1 .f32) (bX : Vec Ideal S4000x128 .f32) (bWA bWB bWr : Vec Ideal S128x128 .f32)
    (bBias : Vec Ideal S1x128 .f32) (r : Fin n) (p : Fin 4000) (q : Fin 128)
    (hA : ∀ k : Fin 128, bA (ix2 p k) = aggA (ix2 r k)) (hB : ∀ k : Fin 128, bB (ix2 p k) = aggB (ix2 r k))
    (hX : ∀ k : Fin 128, bX (ix2 p k) = x (ix2 r k))
    (hIA : bIA (ix2 p 0) = invA (ix2 r 0)) (hIB : bIB (ix2 p 0) = invB (ix2 r 0))
    (hWA : ∀ k : Fin 128, bWA (ix2 k q) = wlA (ix2 k q)) (hWB : ∀ k : Fin 128, bWB (ix2 k q) = wlB (ix2 k q))
    (hWr : ∀ k : Fin 128, bWr (ix2 k q) = wr (ix2 k q)) (hBias : bBias (ix2 0 q) = bias (ix2 0 q)) :
    k0_pay1 bA bIA bB bIB bX bWA bWB bWr bBias (ix2 p q)
      = Cert.Sage.combine n true aggA aggB invA invB x wlA wlB wr bias (ix2 r q) := by
  rw [pay0_apply]
  show _ = Cert.Sage.combineAt true (fun k => aggA (ix2 r k)) (fun k => aggB (ix2 r k)) (fun k => x (ix2 r k))
    (invA (ix2 r 0)) (invB (ix2 r 0)) (fun k => wlA (ix2 k q)) (fun k => wlB (ix2 k q)) (fun k => wr (ix2 k q))
    (bias (ix2 0 q))
  rw [funext hA, funext hB, funext hX, hIA, hIB, funext hWA, funext hWB, funext hWr, hBias]

/-! ## The grid's index maps -/

theorem hz : (![0, 0] : Fin 2 → Nat) = fun _ => 0 := funext fun a => by fin_cases a <;> rfl

/-- The index maps, decided over the grid: the five row-blocked inputs and the output sit at block `(t, 0)` at
    point `t`, the three weight matrices and the bias row at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## From the blocks to the array -/

/-- What point `t` writes back is the body's payload of the input windows' blocks at `t`. -/
theorem flushed0_pay (V : (c : Dev nD) → (b : Ref sig .tc) → Buf (Elt Ideal) ((c : Thread nD τ).loc b)) (c : Dev nD) (t : Fin cfg0.N) :
    (Gen.dat0 (F := Ideal) V c).flushed 9 t
      = (cfg0.win 9).cut (grid0.coords t) (k0_pay1 (iblk0 V c 0 t) (iblk0 V c 2 t) (iblk0 V c 1 t) (iblk0 V c 3 t)
          (iblk0 V c 4 t) (iblk0 V c 5 t) (iblk0 V c 6 t) (iblk0 V c 7 t) (iblk0 V c 8 t)) := by
  show (cfg0.win 9).cut (grid0.coords t) ((Gen.dat0 (F := Ideal) V c).after 9 t) = _
  rw [after0_9]
  unfold out0_9
  rw [View.canon_unit_zero hz]
  simp only [View.ld_unit_zero (S := S4000x128) hz, View.ld_unit_zero (S := S4000x1) hz,
    View.ld_unit_zero (S := S128x128) hz, View.ld_unit_zero (S := S1x128) hz]

/-- Entry `(p, q)` of the output's block at point `t` is entry `(4000 t + p, q)` of the output array. -/
theorem emb0_9 (t : Fin cfg0.N) (p : Fin 4000) (q : Fin 128) (r : Fin 200000) (hr : r.val = t.val * 4000 + p.val) :
    ((cfg0.win 9).blk t).view.emb (ix2 p q) = ix2 r q := by
  obtain ⟨-, -, -, -, -, -, -, -, -, -, -, -, -, -, -, -, -, -, e90, e91⟩ := idx_facts0 t
  funext a; apply Fin.ext
  match a with
  | ⟨0, _⟩ => show win0_9.index t (0 : Fin 2) * 4000 + 1 * p.val = r.val; omega
  | ⟨1, _⟩ => show win0_9.index t (1 : Fin 2) * 128 + 1 * q.val = q.val; omega

/-- Row `p` of the first neighbour sum's block at point `t` is row `4000 t + p` of its array. -/
theorem iblk0_0_apply (V : (c : Dev nD) → (b : Ref sig .tc) → Buf (Elt Ideal) ((c : Thread nD τ).loc b)) (c : Dev nD) (t : Fin cfg0.N) (p : Fin 4000) (k : Fin 128) (r : Fin 200000)
    (hr : r.val = t.val * 4000 + p.val) :
    iblk0 V c 0 t (ix2 p k) = V c (Pipeline.arrRef spec0 0) (ix2 r k) := by
  obtain ⟨e00, e01, e10, e11, e20, e21, e30, e31, e40, e41, -⟩ := idx_facts0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- Row `p` of the second neighbour sum's block at point `t` is row `4000 t + p` of its array. -/
theorem iblk0_1_apply (V : (c : Dev nD) → (b : Ref sig .tc) → Buf (Elt Ideal) ((c : Thread nD τ).loc b)) (c : Dev nD) (t : Fin cfg0.N) (p : Fin 4000) (k : Fin 128) (r : Fin 200000)
    (hr : r.val = t.val * 4000 + p.val) :
    iblk0 V c 1 t (ix2 p k) = V c (Pipeline.arrRef spec0 1) (ix2 r k) := by
  obtain ⟨e00, e01, e10, e11, e20, e21, e30, e31, e40, e41, -⟩ := idx_facts0 t
  show V c (Pipeline.arrRef spec0 1) (((cfg0.win 1).blk t).view.emb (ix2 p k)) = V c (Pipeline.arrRef spec0 1) (ix2 r k)
  refine congrArg _ (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

/-- Entry `p` of the first reciprocal count's block at point `t` is entry `4000 t + p` of its column. -/
theorem iblk0_2_apply (V : (c : Dev nD) → (b : Ref sig .tc) → Buf (Elt Ideal) ((c : Thread nD τ).loc b)) (c : Dev nD) (t : Fin cfg0.N) (p : Fin 4000) (r : Fin 200000)
    (hr : r.val = t.val * 4000 + p.val) :
    iblk0 V c 2 t (ix2 p 0) = V c (Pipeline.arrRef spec0 2) (ix2 r 0) := by
  obtain ⟨e00, e01, e10, e11, e20, e21, e30, e31, e40, e41, -⟩ := idx_facts0 t
  show V c (Pipeline.arrRef spec0 2) (((cfg0.win 2).blk t).view.emb (ix2 p 0)) = V c (Pipeline.arrRef spec0 2) (ix2 r 0)
  refine congrArg _ (funext fun a => Fin.ext ?_)
  match a with
  | ⟨0, _⟩ => show win0_2.index t (0 : Fin 2) * 4000 + 1 * p.val = r.val; omega
  | ⟨1, _⟩ => show win0_2.index t (1 : Fin 2) * 1 + 1 * 0 = 0; omega

/-- Entry `p` of the second reciprocal count's block at point `t` is entry `4000 t + p` of its column. -/
theorem iblk0_3_apply (V : (c : Dev nD) → (b : Ref sig .tc) → Buf (Elt Ideal) ((c : Thread nD τ).loc b)) (c : Dev nD) (t : Fin cfg0.N) (p : Fin 4000) (r : Fin 200000)
    (hr : r.val = t.val * 4000 + p.val) :
    iblk0 V c 3 t (ix2 p 0) = V c (Pipeline.arrRef spec0 3) (ix2 r 0) := by
  obtain ⟨e00, e01, e10, e11, e20, e21, e30, e31, e40, e41, -⟩ := idx_facts0 t
  show V c (Pipeline.arrRef spec0 3) (((cfg0.win 3).blk t).view.emb (ix2 p 0)) = V c (Pipeline.arrRef spec0 3) (ix2 r 0)
  refine congrArg _ (funext fun a => Fin.ext ?_)
  match a with
  | ⟨0, _⟩ => show win0_3.index t (0 : Fin 2) * 4000 + 1 * p.val = r.val; omega
  | ⟨1, _⟩ => show win0_3.index t (1 : Fin 2) * 1 + 1 * 0 = 0; omega

/-- Row `p` of the nodes' own features's block at point `t` is row `4000 t + p` of its array. -/
theorem iblk0_4_apply (V : (c : Dev nD) → (b : Ref sig .tc) → Buf (Elt Ideal) ((c : Thread nD τ).loc b)) (c : Dev nD) (t : Fin cfg0.N) (p : Fin 4000) (k : Fin 128) (r : Fin 200000)
    (hr : r.val = t.val * 4000 + p.val) :
    iblk0 V c 4 t (ix2 p k) = V c (Pipeline.arrRef spec0 4) (ix2 r k) := by
  obtain ⟨e00, e01, e10, e11, e20, e21, e30, e31, e40, e41, -⟩ := idx_facts0 t
  show V c (Pipeline.arrRef spec0 4) (((cfg0.win 4).blk t).view.emb (ix2 p k)) = V c (Pipeline.arrRef spec0 4) (ix2 r k)
  refine congrArg _ (funext fun a => Fin.ext ?_)
  match a with
  | ⟨0, _⟩ => show win0_4.index t (0 : Fin 2) * 4000 + 1 * p.val = r.val; omega
  | ⟨1, _⟩ => show win0_4.index t (1 : Fin 2) * 128 + 1 * k.val = k.val; omega

/-- The first neighbour weight's block at every point is the whole matrix. -/
theorem iblk0_5_apply (V : (c : Dev nD) → (b : Ref sig .tc) → Buf (Elt Ideal) ((c : Thread nD τ).loc b)) (c : Dev nD) (t : Fin cfg0.N) (k q : Fin 128) :
    iblk0 V c 5 t (ix2 k q) = V c (Pipeline.arrRef spec0 5) (ix2 k q) := by
  obtain ⟨-, -, -, -, -, -, -, -, -, -, e50, e51, e60, e61, e70, e71, e80, e81, -⟩ := idx_facts0 t
  show V c (Pipeline.arrRef spec0 5) (((cfg0.win 5).blk t).view.emb (ix2 k q)) = V c (Pipeline.arrRef spec0 5) (ix2 k q)
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- The second neighbour weight's block at every point is the whole matrix. -/
theorem iblk0_6_apply (V : (c : Dev nD) → (b : Ref sig .tc) → Buf (Elt Ideal) ((c : Thread nD τ).loc b)) (c : Dev nD) (t : Fin cfg0.N) (k q : Fin 128) :
    iblk0 V c 6 t (ix2 k q) = V c (Pipeline.arrRef spec0 6) (ix2 k q) := by
  obtain ⟨-, -, -, -, -, -, -, -, -, -, e50, e51, e60, e61, e70, e71, e80, e81, -⟩ := idx_facts0 t
  show V c (Pipeline.arrRef spec0 6) (((cfg0.win 6).blk t).view.emb (ix2 k q)) = V c (Pipeline.arrRef spec0 6) (ix2 k q)
  refine congrArg _ (funext fun a => Fin.ext ?_)
  match a with
  | ⟨0, _⟩ => show win0_6.index t (0 : Fin 2) * 128 + 1 * k.val = k.val; omega
  | ⟨1, _⟩ => show win0_6.index t (1 : Fin 2) * 128 + 1 * q.val = q.val; omega

/-- The self weight's block at every point is the whole matrix. -/
theorem iblk0_7_apply (V : (c : Dev nD) → (b : Ref sig .tc) → Buf (Elt Ideal) ((c : Thread nD τ).loc b)) (c : Dev nD) (t : Fin cfg0.N) (k q : Fin 128) :
    iblk0 V c 7 t (ix2 k q) = V c (Pipeline.arrRef spec0 7) (ix2 k q) := by
  obtain ⟨-, -, -, -, -, -, -, -, -, -, e50, e51, e60, e61, e70, e71, e80, e81, -⟩ := idx_facts0 t
  show V c (Pipeline.arrRef spec0 7) (((cfg0.win 7).blk t).view.emb (ix2 k q)) = V c (Pipeline.arrRef spec0 7) (ix2 k q)
  refine congrArg _ (funext fun a => Fin.ext ?_)
  match a with
  | ⟨0, _⟩ => show win0_7.index t (0 : Fin 2) * 128 + 1 * k.val = k.val; omega
  | ⟨1, _⟩ => show win0_7.index t (1 : Fin 2) * 128 + 1 * q.val = q.val; omega

/-- The bias window's block at every point is the whole row. -/
theorem iblk0_8_apply (V : (c : Dev nD) → (b : Ref sig .tc) → Buf (Elt Ideal) ((c : Thread nD τ).loc b)) (c : Dev nD) (t : Fin cfg0.N) (q : Fin 128) :
    iblk0 V c 8 t (ix2 0 q) = V c (Pipeline.arrRef spec0 8) (ix2 0 q) := by
  obtain ⟨-, -, -, -, -, -, -, -, -, -, e50, e51, e60, e61, e70, e71, e80, e81, -⟩ := idx_facts0 t
  show V c (Pipeline.arrRef spec0 8) (((cfg0.win 8).blk t).view.emb (ix2 0 q)) = V c (Pipeline.arrRef spec0 8) (ix2 0 q)
  refine congrArg _ (funext fun a => Fin.ext ?_)
  match a with
  | ⟨0, _⟩ => show win0_8.index t (0 : Fin 2) * 1 + 1 * 0 = 0; omega
  | ⟨1, _⟩ => show win0_8.index t (1 : Fin 2) * 128 + 1 * q.val = q.val; omega

/-- A block of the output window at point `t`, cut for the write-back, is block `t` of an array `G` as soon as its
    entry `(p, q)` is `G`'s entry `(4000 t + p, q)`. -/
theorem cut0_9_eq_read (t : Fin cfg0.N) (X : S4000x128.Idx → EReal) (G : S200000x128.Idx → EReal)
    (h : ∀ (p : Fin 4000) (q : Fin 128) (r : Fin 200000), r.val = t.val * 4000 + p.val → X (ix2 p q) = G (ix2 r q)) :
    (cfg0.win 9).cut (grid0.coords t) X = ((cfg0.win 9).blk t).view.read (Elt Ideal) G := by
  have hN : cfg0.N = 50 := N_0
  have ht : t.val < 50 := hN ▸ t.isLt
  funext j
  obtain ⟨p, q, rfl⟩ : ∃ (p : Fin 4000) (q : Fin 128), j = ix2 p q := ⟨j 0, j 1, eq_ix2 j⟩
  have hr : t.val * 4000 + p.val < 200000 := by have := p.isLt; omega
  show X (ix2 p q) = G (((cfg0.win 9).blk t).view.emb (ix2 p q))
  rw [emb0_9 t p q ⟨t.val * 4000 + p.val, hr⟩ rfl]
  exact h p q _ rfl

/-- Entry `(p, q)` of the payload of the blocks at point `t` is the combined output of the arrays, as the region finds
    them, at `(4000 t + p, q)`. -/
theorem block0_entry (V : (c : Dev nD) → (b : Ref sig .tc) → Buf (Elt Ideal) ((c : Thread nD τ).loc b)) (c : Dev nD) (t : Fin cfg0.N) (p : Fin 4000) (q : Fin 128) (r : Fin 200000)
    (hr : r.val = t.val * 4000 + p.val) :
    k0_pay1 (iblk0 V c 0 t) (iblk0 V c 2 t) (iblk0 V c 1 t) (iblk0 V c 3 t) (iblk0 V c 4 t) (iblk0 V c 5 t)
        (iblk0 V c 6 t) (iblk0 V c 7 t) (iblk0 V c 8 t) (ix2 p q)
      = (Cert.Sage.combine 200000 true (V c (Pipeline.arrRef spec0 0)) (V c (Pipeline.arrRef spec0 1))
        (V c (Pipeline.arrRef spec0 2)) (V c (Pipeline.arrRef spec0 3)) (V c (Pipeline.arrRef spec0 4))
        (V c (Pipeline.arrRef spec0 5)) (V c (Pipeline.arrRef spec0 6)) (V c (Pipeline.arrRef spec0 7))
        (V c (Pipeline.arrRef spec0 8))) (ix2 r q) :=
  pay0_eq_combine (n := 200000) _ _ _ _ _ _ _ _ _ _ _ _ _ _ _ _ _ _ r p q
    (fun k => iblk0_0_apply V c t p k r hr) (fun k => iblk0_1_apply V c t p k r hr)
    (fun k => iblk0_4_apply V c t p k r hr) (iblk0_2_apply V c t p r hr) (iblk0_3_apply V c t p r hr)
    (fun k => iblk0_5_apply V c t k q) (fun k => iblk0_6_apply V c t k q) (fun k => iblk0_7_apply V c t k q)
    (iblk0_8_apply V c t q)

/-- What point `t` writes back is block `t` of the combined output of the arrays as the region finds them. -/
theorem flushed0_eq (V : (c : Dev nD) → (b : Ref sig .tc) → Buf (Elt Ideal) ((c : Thread nD τ).loc b)) (c : Dev nD) (t : Fin cfg0.N) :
    (Gen.dat0 (F := Ideal) V c).flushed 9 t = ((cfg0.win 9).blk t).view.read (Elt Ideal)
      (Cert.Sage.combine 200000 true (V c (Pipeline.arrRef spec0 0)) (V c (Pipeline.arrRef spec0 1))
        (V c (Pipeline.arrRef spec0 2)) (V c (Pipeline.arrRef spec0 3)) (V c (Pipeline.arrRef spec0 4))
        (V c (Pipeline.arrRef spec0 5)) (V c (Pipeline.arrRef spec0 6)) (V c (Pipeline.arrRef spec0 7))
        (V c (Pipeline.arrRef spec0 8))) :=
  (flushed0_pay V c t).trans (cut0_9_eq_read t _ _ fun p q r hr => block0_entry V c t p q r hr)

/-- An index of the output array is in point `t`'s block iff each coordinate is in the block's range on its axis. -/
theorem mem_blk0 (t : Fin cfg0.N) (i : S200000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v113).slice (win0_9.rect t)).set ↔ _
  rw [View.set_slice_whole, Rect.mem_set_unit]
  exact Iff.rfl

/-- The output array after the first region: the combined output (with `max · 0`) of the nine arrays as the region finds
    them. The blocks of 4000 rows tile the 200000 rows: row `r` is in the block of point `r / 4000`. -/
theorem region0 (V : (c : Dev nD) → (b : Ref sig .tc) → Buf (Elt Ideal) ((c : Thread nD τ).loc b)) (c : Dev nD) :
    (Gen.dat0 (F := Ideal) V c).arrAt 9 cfg0.N
      = Cert.Sage.combine 200000 true (V c (Pipeline.arrRef spec0 0)) (V c (Pipeline.arrRef spec0 1))
        (V c (Pipeline.arrRef spec0 2)) (V c (Pipeline.arrRef spec0 3)) (V c (Pipeline.arrRef spec0 4))
        (V c (Pipeline.arrRef spec0 5)) (V c (Pipeline.arrRef spec0 6)) (V c (Pipeline.arrRef spec0 7))
        (V c (Pipeline.arrRef spec0 8)) :=
  (Gen.dat0 (F := Ideal) V c).arrAt_eq_of_cover 9 _ (fun t _ => flushed0_eq V c t) fun i => by
    have hi0 : (i 0).val < 200000 := (i 0).isLt
    have hi1 : (i 1).val < 128 := (i 1).isLt
    have hN : cfg0.N = 50 := N_0
    have hlt : (i 0).val / 4000 < cfg0.N := by rw [hN]; omega
    obtain ⟨-, -, -, -, -, -, -, -, -, -, -, -, -, -, -, -, -, -, e90, e91⟩ := idx_facts0 ⟨(i 0).val / 4000, hlt⟩
    have e90' : win0_9.index ⟨(i 0).val / 4000, hlt⟩ (0 : Fin 2) = (i 0).val / 4000 := e90
    refine ⟨⟨(i 0).val / 4000, hlt⟩, flush0_9 _, ?_⟩
    rw [mem_blk0]
    intro a
    match a with
    | ⟨0, _⟩ =>
      show win0_9.index ⟨(i 0).val / 4000, hlt⟩ (0 : Fin 2) * 4000 ≤ (i 0).val
        ∧ (i 0).val < win0_9.index ⟨(i 0).val / 4000, hlt⟩ (0 : Fin 2) * 4000 + 4000
      omega
    | ⟨1, _⟩ =>
      show win0_9.index ⟨(i 0).val / 4000, hlt⟩ (1 : Fin 2) * 128 ≤ (i 1).val
        ∧ (i 1).val < win0_9.index ⟨(i 0).val / 4000, hlt⟩ (1 : Fin 2) * 128 + 128
      omega

end Cert.KernelIdeal.RegionValue

end
-- ==== Proof.Region1.lean ====
/-
  The output array of region 1 as one function of the nine arrays the region reads.

  The region walks 25 grid points; at point `t` it reads rows `4000 t … 4000 t + 3999` of the five row-blocked arrays
  (two summed-neighbour feature arrays, their two reciprocal-count columns, the nodes' own features), the three
  `128 × 128` weight matrices and the `1 × 128` bias whole, and writes rows `4000 t … 4000 t + 3999` of the output. Read at
  an entry, the body's value is the combined output of `Cert.Sage.combineAt`, with `max · 0`: the casts to the narrower
  format are the identity at the ideal values and each matrix product is the sum over the contracted feature. The
  25 blocks tile the 100000 rows, so the output array ends as `Cert.Sage.combine 100000 …` of the arrays as the
  region finds them.
-/
import proofs.«147864_j85770496901303_2_alg».proof.Proof.Gen.KernelIdeal.Frame
import proofs.«147864_j85770496901303_2_alg».proof.Proof.Combine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## Small readings at an index -/

/-- An `[a, 1]` column broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a `4000 × 128` block by a `128 × 128` matrix into a zero accumulator, read at `(p, q)`: the sum over
    the contracted coordinate of the products of the entries. -/
private theorem matmul_block_apply {φ₁ φ₂ : FTy} (A : FVec Ideal S4000x128 φ₁) (B : FVec Ideal S128x128 φ₂)
    (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  show FloatOps.matmul dot_S4000x128_S128x128_S4000x128_1_0_0_1_n_n none A B (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have ck := contrEquiv1_symm_val dot_S4000x128_S128x128_S4000x128_1_0_0_1_n_n 128 rfl rfl k
  have hl : dot_S4000x128_S128x128_S4000x128_1_0_0_1_n_n.lhsIdx (ix2 p q) ((contrEquiv1 dot_S4000x128_S128x128_S4000x128_1_0_0_1_n_n 128 rfl rfl).symm k) = ix2 p k := by
    funext ax; apply Fin.ext
    match ax with
    | ⟨0, _⟩ => rfl
    | ⟨1, _⟩ => exact (dot_S4000x128_S128x128_S4000x128_1_0_0_1_n_n.lhsIdx_val_of_single (cl := (1 : Fin 2)) rfl (ix2 p q) _).trans ck
  have hr : dot_S4000x128_S128x128_S4000x128_1_0_0_1_n_n.rhsIdx (ix2 p q) ((contrEquiv1 dot_S4000x128_S128x128_S4000x128_1_0_0_1_n_n 128 rfl rfl).symm k) = ix2 k q := by
    funext ax; apply Fin.ext
    match ax with
    | ⟨0, _⟩ => exact (dot_S4000x128_S128x128_S4000x128_1_0_0_1_n_n.rhsIdx_val_of_single (cr := (0 : Fin 2)) rfl (ix2 p q) _).trans ck
    | ⟨1, _⟩ => rfl
  rw [hl, hr]

/-! ## The body's payload at an index -/

/-- The payload of the second region's body, read at row `p` and column `q` of its block: the combined entry of the
    block's row `p` (the two summed-neighbour rows scaled by their reciprocal counts, the node's own row) against column
    `q` of the three weight matrices, plus the bias entry, through `max · 0`. The casts to the narrower format are the
    identity at the ideal values and each product is a sum over the contracted feature. -/
theorem pay1_apply (aggA : Vec Ideal S4000x128 .f32) (invA : Vec Ideal S4000x1 .f32) (aggB : Vec Ideal S4000x128 .f32)
    (invB : Vec Ideal S4000x1 .f32) (x : Vec Ideal S4000x128 .f32) (wlA wlB wr : Vec Ideal S128x128 .f32)
    (bias : Vec Ideal S1x128 .f32) (p : Fin 4000) (q : Fin 128) :
    k1_pay1 aggA invA aggB invB x wlA wlB wr bias (ix2 p q)
      = Cert.Sage.combineAt true (fun k => aggA (ix2 p k)) (fun k => aggB (ix2 p k)) (fun k => x (ix2 p k))
          (invA (ix2 p 0)) (invB (ix2 p 0)) (fun k => wlA (ix2 k q)) (fun k => wlB (ix2 k q)) (fun k => wr (ix2 k q))
          (bias (ix2 0 q)) := by
  unfold k1_pay1
  simp only [shapeCast_self]
  rw [maximumf_apply, addf_apply, addf_apply, addf_apply, matmul_block_apply, matmul_block_apply, matmul_block_apply,
    broadcastTo_1b_ab_apply, broadcast_apply]
  simp only [truncf_apply, mulf_apply, broadcastTo_a1_ab_apply]
  rfl

/-! ## One entry of a block against the whole arrays -/

/-- If a block's row `p` holds the arrays' row `r` (the three feature rows and the two reciprocal counts) and its
    weight and bias blocks hold the arrays' own entries in column `q`, the payload at `(p, q)` is the combined output
    of the whole arrays at `(r, q)`. -/
theorem pay1_eq_combine {n : ℕ}
    (aggA aggB : (⟨2, ![n, 128]⟩ : Shape).Idx → EReal) (invA invB : (⟨2, ![n, 1]⟩ : Shape).Idx → EReal)
    (x : (⟨2, ![n, 128]⟩ : Shape).Idx → EReal) (wlA wlB wr : (⟨2, ![128, 128]⟩ : Shape).Idx → EReal)
    (bias : (⟨2, ![1, 128]⟩ : Shape).Idx → EReal)
    (bA : Vec Ideal S4000x128 .f32) (bIA : Vec Ideal S4000x1 .f32) (bB : Vec Ideal S4000x128 .f32)
    (bIB : Vec Ideal S4000x1 .f32) (bX : Vec Ideal S4000x128 .f32) (bWA bWB bWr : Vec Ideal S128x128 .f32)
    (bBias : Vec Ideal S1x128 .f32) (r : Fin n) (p : Fin 4000) (q : Fin 128)
    (hA : ∀ k : Fin 128, bA (ix2 p k) = aggA (ix2 r k)) (hB : ∀ k : Fin 128, bB (ix2 p k) = aggB (ix2 r k))
    (hX : ∀ k : Fin 128, bX (ix2 p k) = x (ix2 r k))
    (hIA : bIA (ix2 p 0) = invA (ix2 r 0)) (hIB : bIB (ix2 p 0) = invB (ix2 r 0))
    (hWA : ∀ k : Fin 128, bWA (ix2 k q) = wlA (ix2 k q)) (hWB : ∀ k : Fin 128, bWB (ix2 k q) = wlB (ix2 k q))
    (hWr : ∀ k : Fin 128, bWr (ix2 k q) = wr (ix2 k q)) (hBias : bBias (ix2 0 q) = bias (ix2 0 q)) :
    k1_pay1 bA bIA bB bIB bX bWA bWB bWr bBias (ix2 p q)
      = Cert.Sage.combine n true aggA aggB invA invB x wlA wlB wr bias (ix2 r q) := by
  rw [pay1_apply]
  show _ = Cert.Sage.combineAt true (fun k => aggA (ix2 r k)) (fun k => aggB (ix2 r k)) (fun k => x (ix2 r k))
    (invA (ix2 r 0)) (invB (ix2 r 0)) (fun k => wlA (ix2 k q)) (fun k => wlB (ix2 k q)) (fun k => wr (ix2 k q))
    (bias (ix2 0 q))
  rw [funext hA, funext hB, funext hX, hIA, hIB, funext hWA, funext hWB, funext hWr, hBias]

/-! ## The grid's index maps -/

private theorem hz : (![0, 0] : Fin 2 → Nat) = fun _ => 0 := funext fun a => by fin_cases a <;> rfl

/-- The index maps, decided over the grid: the five row-blocked inputs and the output sit at block `(t, 0)` at
    point `t`, the three weight matrices and the bias row at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-! ## From the blocks to the array -/

/-- What point `t` writes back is the body's payload of the input windows' blocks at `t`. -/
theorem flushed1_pay (V : (c : Dev nD) → (b : Ref sig .tc) → Buf (Elt Ideal) ((c : Thread nD τ).loc b)) (c : Dev nD) (t : Fin cfg1.N) :
    (Gen.dat1 (F := Ideal) V c).flushed 9 t
      = (cfg1.win 9).cut (grid1.coords t) (k1_pay1 (iblk1 V c 0 t) (iblk1 V c 2 t) (iblk1 V c 1 t) (iblk1 V c 3 t)
          (iblk1 V c 4 t) (iblk1 V c 5 t) (iblk1 V c 6 t) (iblk1 V c 7 t) (iblk1 V c 8 t)) := by
  show (cfg1.win 9).cut (grid1.coords t) ((Gen.dat1 (F := Ideal) V c).after 9 t) = _
  rw [after1_9]
  unfold out1_9
  rw [View.canon_unit_zero hz]
  simp only [View.ld_unit_zero (S := S4000x128) hz, View.ld_unit_zero (S := S4000x1) hz,
    View.ld_unit_zero (S := S128x128) hz, View.ld_unit_zero (S := S1x128) hz]

/-- Entry `(p, q)` of the output's block at point `t` is entry `(4000 t + p, q)` of the output array. -/
theorem emb1_9 (t : Fin cfg1.N) (p : Fin 4000) (q : Fin 128) (r : Fin 100000) (hr : r.val = t.val * 4000 + p.val) :
    ((cfg1.win 9).blk t).view.emb (ix2 p q) = ix2 r q := by
  obtain ⟨-, -, -, -, -, -, -, -, -, -, -, -, -, -, -, -, -, -, e90, e91⟩ := idx_facts1 t
  funext a; apply Fin.ext
  match a with
  | ⟨0, _⟩ => show win1_9.index t (0 : Fin 2) * 4000 + 1 * p.val = r.val; omega
  | ⟨1, _⟩ => show win1_9.index t (1 : Fin 2) * 128 + 1 * q.val = q.val; omega

/-- Row `p` of the first neighbour sum's block at point `t` is row `4000 t + p` of its array. -/
theorem iblk1_0_apply (V : (c : Dev nD) → (b : Ref sig .tc) → Buf (Elt Ideal) ((c : Thread nD τ).loc b)) (c : Dev nD) (t : Fin cfg1.N) (p : Fin 4000) (k : Fin 128) (r : Fin 100000)
    (hr : r.val = t.val * 4000 + p.val) :
    iblk1 V c 0 t (ix2 p k) = V c (Pipeline.arrRef spec1 0) (ix2 r k) := by
  obtain ⟨e00, e01, e10, e11, e20, e21, e30, e31, e40, e41, -⟩ := idx_facts1 t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row `p` of the second neighbour sum's block at point `t` is row `4000 t + p` of its array. -/
theorem iblk1_1_apply (V : (c : Dev nD) → (b : Ref sig .tc) → Buf (Elt Ideal) ((c : Thread nD τ).loc b)) (c : Dev nD) (t : Fin cfg1.N) (p : Fin 4000) (k : Fin 128) (r : Fin 100000)
    (hr : r.val = t.val * 4000 + p.val) :
    iblk1 V c 1 t (ix2 p k) = V c (Pipeline.arrRef spec1 1) (ix2 r k) := by
  obtain ⟨e00, e01, e10, e11, e20, e21, e30, e31, e40, e41, -⟩ := idx_facts1 t
  show V c (Pipeline.arrRef spec1 1) (((cfg1.win 1).blk t).view.emb (ix2 p k)) = V c (Pipeline.arrRef spec1 1) (ix2 r k)
  refine congrArg _ (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- Entry `p` of the first reciprocal count's block at point `t` is entry `4000 t + p` of its column. -/
theorem iblk1_2_apply (V : (c : Dev nD) → (b : Ref sig .tc) → Buf (Elt Ideal) ((c : Thread nD τ).loc b)) (c : Dev nD) (t : Fin cfg1.N) (p : Fin 4000) (r : Fin 100000)
    (hr : r.val = t.val * 4000 + p.val) :
    iblk1 V c 2 t (ix2 p 0) = V c (Pipeline.arrRef spec1 2) (ix2 r 0) := by
  obtain ⟨e00, e01, e10, e11, e20, e21, e30, e31, e40, e41, -⟩ := idx_facts1 t
  show V c (Pipeline.arrRef spec1 2) (((cfg1.win 2).blk t).view.emb (ix2 p 0)) = V c (Pipeline.arrRef spec1 2) (ix2 r 0)
  refine congrArg _ (funext fun a => Fin.ext ?_)
  match a with
  | ⟨0, _⟩ => show win1_2.index t (0 : Fin 2) * 4000 + 1 * p.val = r.val; omega
  | ⟨1, _⟩ => show win1_2.index t (1 : Fin 2) * 1 + 1 * 0 = 0; omega

/-- Entry `p` of the second reciprocal count's block at point `t` is entry `4000 t + p` of its column. -/
theorem iblk1_3_apply (V : (c : Dev nD) → (b : Ref sig .tc) → Buf (Elt Ideal) ((c : Thread nD τ).loc b)) (c : Dev nD) (t : Fin cfg1.N) (p : Fin 4000) (r : Fin 100000)
    (hr : r.val = t.val * 4000 + p.val) :
    iblk1 V c 3 t (ix2 p 0) = V c (Pipeline.arrRef spec1 3) (ix2 r 0) := by
  obtain ⟨e00, e01, e10, e11, e20, e21, e30, e31, e40, e41, -⟩ := idx_facts1 t
  show V c (Pipeline.arrRef spec1 3) (((cfg1.win 3).blk t).view.emb (ix2 p 0)) = V c (Pipeline.arrRef spec1 3) (ix2 r 0)
  refine congrArg _ (funext fun a => Fin.ext ?_)
  match a with
  | ⟨0, _⟩ => show win1_3.index t (0 : Fin 2) * 4000 + 1 * p.val = r.val; omega
  | ⟨1, _⟩ => show win1_3.index t (1 : Fin 2) * 1 + 1 * 0 = 0; omega

/-- Row `p` of the nodes' own features's block at point `t` is row `4000 t + p` of its array. -/
theorem iblk1_4_apply (V : (c : Dev nD) → (b : Ref sig .tc) → Buf (Elt Ideal) ((c : Thread nD τ).loc b)) (c : Dev nD) (t : Fin cfg1.N) (p : Fin 4000) (k : Fin 128) (r : Fin 100000)
    (hr : r.val = t.val * 4000 + p.val) :
    iblk1 V c 4 t (ix2 p k) = V c (Pipeline.arrRef spec1 4) (ix2 r k) := by
  obtain ⟨e00, e01, e10, e11, e20, e21, e30, e31, e40, e41, -⟩ := idx_facts1 t
  show V c (Pipeline.arrRef spec1 4) (((cfg1.win 4).blk t).view.emb (ix2 p k)) = V c (Pipeline.arrRef spec1 4) (ix2 r k)
  refine congrArg _ (funext fun a => Fin.ext ?_)
  match a with
  | ⟨0, _⟩ => show win1_4.index t (0 : Fin 2) * 4000 + 1 * p.val = r.val; omega
  | ⟨1, _⟩ => show win1_4.index t (1 : Fin 2) * 128 + 1 * k.val = k.val; omega

/-- The first neighbour weight's block at every point is the whole matrix. -/
theorem iblk1_5_apply (V : (c : Dev nD) → (b : Ref sig .tc) → Buf (Elt Ideal) ((c : Thread nD τ).loc b)) (c : Dev nD) (t : Fin cfg1.N) (k q : Fin 128) :
    iblk1 V c 5 t (ix2 k q) = V c (Pipeline.arrRef spec1 5) (ix2 k q) := by
  obtain ⟨-, -, -, -, -, -, -, -, -, -, e50, e51, e60, e61, e70, e71, e80, e81, -⟩ := idx_facts1 t
  show V c (Pipeline.arrRef spec1 5) (((cfg1.win 5).blk t).view.emb (ix2 k q)) = V c (Pipeline.arrRef spec1 5) (ix2 k q)
  refine congrArg _ (funext fun a => Fin.ext ?_)
  match a with
  | ⟨0, _⟩ => show win1_5.index t (0 : Fin 2) * 128 + 1 * k.val = k.val; omega
  | ⟨1, _⟩ => show win1_5.index t (1 : Fin 2) * 128 + 1 * q.val = q.val; omega

/-- The second neighbour weight's block at every point is the whole matrix. -/
theorem iblk1_6_apply (V : (c : Dev nD) → (b : Ref sig .tc) → Buf (Elt Ideal) ((c : Thread nD τ).loc b)) (c : Dev nD) (t : Fin cfg1.N) (k q : Fin 128) :
    iblk1 V c 6 t (ix2 k q) = V c (Pipeline.arrRef spec1 6) (ix2 k q) := by
  obtain ⟨-, -, -, -, -, -, -, -, -, -, e50, e51, e60, e61, e70, e71, e80, e81, -⟩ := idx_facts1 t
  show V c (Pipeline.arrRef spec1 6) (((cfg1.win 6).blk t).view.emb (ix2 k q)) = V c (Pipeline.arrRef spec1 6) (ix2 k q)
  refine congrArg _ (funext fun a => Fin.ext ?_)
  match a with
  | ⟨0, _⟩ => show win1_6.index t (0 : Fin 2) * 128 + 1 * k.val = k.val; omega
  | ⟨1, _⟩ => show win1_6.index t (1 : Fin 2) * 128 + 1 * q.val = q.val; omega

/-- The self weight's block at every point is the whole matrix. -/
theorem iblk1_7_apply (V : (c : Dev nD) → (b : Ref sig .tc) → Buf (Elt Ideal) ((c : Thread nD τ).loc b)) (c : Dev nD) (t : Fin cfg1.N) (k q : Fin 128) :
    iblk1 V c 7 t (ix2 k q) = V c (Pipeline.arrRef spec1 7) (ix2 k q) := by
  obtain ⟨-, -, -, -, -, -, -, -, -, -, e50, e51, e60, e61, e70, e71, e80, e81, -⟩ := idx_facts1 t
  show V c (Pipeline.arrRef spec1 7) (((cfg1.win 7).blk t).view.emb (ix2 k q)) = V c (Pipeline.arrRef spec1 7) (ix2 k q)
  refine congrArg _ (funext fun a => Fin.ext ?_)
  match a with
  | ⟨0, _⟩ => show win1_7.index t (0 : Fin 2) * 128 + 1 * k.val = k.val; omega
  | ⟨1, _⟩ => show win1_7.index t (1 : Fin 2) * 128 + 1 * q.val = q.val; omega

/-- The bias window's block at every point is the whole row. -/
theorem iblk1_8_apply (V : (c : Dev nD) → (b : Ref sig .tc) → Buf (Elt Ideal) ((c : Thread nD τ).loc b)) (c : Dev nD) (t : Fin cfg1.N) (q : Fin 128) :
    iblk1 V c 8 t (ix2 0 q) = V c (Pipeline.arrRef spec1 8) (ix2 0 q) := by
  obtain ⟨-, -, -, -, -, -, -, -, -, -, e50, e51, e60, e61, e70, e71, e80, e81, -⟩ := idx_facts1 t
  show V c (Pipeline.arrRef spec1 8) (((cfg1.win 8).blk t).view.emb (ix2 0 q)) = V c (Pipeline.arrRef spec1 8) (ix2 0 q)
  refine congrArg _ (funext fun a => Fin.ext ?_)
  match a with
  | ⟨0, _⟩ => show win1_8.index t (0 : Fin 2) * 1 + 1 * 0 = 0; omega
  | ⟨1, _⟩ => show win1_8.index t (1 : Fin 2) * 128 + 1 * q.val = q.val; omega

/-- A block of the output window at point `t`, cut for the write-back, is block `t` of an array `G` as soon as its
    entry `(p, q)` is `G`'s entry `(4000 t + p, q)`. -/
theorem cut1_9_eq_read (t : Fin cfg1.N) (X : S4000x128.Idx → EReal) (G : S100000x128.Idx → EReal)
    (h : ∀ (p : Fin 4000) (q : Fin 128) (r : Fin 100000), r.val = t.val * 4000 + p.val → X (ix2 p q) = G (ix2 r q)) :
    (cfg1.win 9).cut (grid1.coords t) X = ((cfg1.win 9).blk t).view.read (Elt Ideal) G := by
  have hN : cfg1.N = 25 := N_1
  have ht : t.val < 25 := hN ▸ t.isLt
  funext j
  obtain ⟨p, q, rfl⟩ : ∃ (p : Fin 4000) (q : Fin 128), j = ix2 p q := ⟨j 0, j 1, eq_ix2 j⟩
  have hr : t.val * 4000 + p.val < 100000 := by have := p.isLt; omega
  show X (ix2 p q) = G (((cfg1.win 9).blk t).view.emb (ix2 p q))
  rw [emb1_9 t p q ⟨t.val * 4000 + p.val, hr⟩ rfl]
  exact h p q _ rfl

/-- Entry `(p, q)` of the payload of the blocks at point `t` is the combined output of the arrays, as the region finds
    them, at `(4000 t + p, q)`. -/
theorem block1_entry (V : (c : Dev nD) → (b : Ref sig .tc) → Buf (Elt Ideal) ((c : Thread nD τ).loc b)) (c : Dev nD) (t : Fin cfg1.N) (p : Fin 4000) (q : Fin 128) (r : Fin 100000)
    (hr : r.val = t.val * 4000 + p.val) :
    k1_pay1 (iblk1 V c 0 t) (iblk1 V c 2 t) (iblk1 V c 1 t) (iblk1 V c 3 t) (iblk1 V c 4 t) (iblk1 V c 5 t)
        (iblk1 V c 6 t) (iblk1 V c 7 t) (iblk1 V c 8 t) (ix2 p q)
      = (Cert.Sage.combine 100000 true (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)) (V c (Pipeline.arrRef spec1 7))
        (V c (Pipeline.arrRef spec1 8))) (ix2 r q) :=
  pay1_eq_combine (n := 100000) _ _ _ _ _ _ _ _ _ _ _ _ _ _ _ _ _ _ r p q
    (fun k => iblk1_0_apply V c t p k r hr) (fun k => iblk1_1_apply V c t p k r hr)
    (fun k => iblk1_4_apply V c t p k r hr) (iblk1_2_apply V c t p r hr) (iblk1_3_apply V c t p r hr)
    (fun k => iblk1_5_apply V c t k q) (fun k => iblk1_6_apply V c t k q) (fun k => iblk1_7_apply V c t k q)
    (iblk1_8_apply V c t q)

/-- What point `t` writes back is block `t` of the combined output of the arrays as the region finds them. -/
theorem flushed1_eq (V : (c : Dev nD) → (b : Ref sig .tc) → Buf (Elt Ideal) ((c : Thread nD τ).loc b)) (c : Dev nD) (t : Fin cfg1.N) :
    (Gen.dat1 (F := Ideal) V c).flushed 9 t = ((cfg1.win 9).blk t).view.read (Elt Ideal)
      (Cert.Sage.combine 100000 true (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)) (V c (Pipeline.arrRef spec1 7))
        (V c (Pipeline.arrRef spec1 8))) :=
  (flushed1_pay V c t).trans (cut1_9_eq_read t _ _ fun p q r hr => block1_entry V c t p q r hr)

/-- An index of the output array is in point `t`'s block iff each coordinate is in the block's range on its axis. -/
theorem mem_blk1 (t : Fin cfg1.N) (i : S100000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v117).slice (win1_9.rect t)).set ↔ _
  rw [View.set_slice_whole, Rect.mem_set_unit]
  exact Iff.rfl

/-- The output array after the second region: the combined output (with `max · 0`) of the nine arrays as the region finds
    them. The blocks of 4000 rows tile the 100000 rows: row `r` is in the block of point `r / 4000`. -/
theorem region1 (V : (c : Dev nD) → (b : Ref sig .tc) → Buf (Elt Ideal) ((c : Thread nD τ).loc b)) (c : Dev nD) :
    (Gen.dat1 (F := Ideal) V c).arrAt 9 cfg1.N
      = Cert.Sage.combine 100000 true (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)) (V c (Pipeline.arrRef spec1 7))
        (V c (Pipeline.arrRef spec1 8)) :=
  (Gen.dat1 (F := Ideal) V c).arrAt_eq_of_cover 9 _ (fun t _ => flushed1_eq V c t) fun i => by
    have hi0 : (i 0).val < 100000 := (i 0).isLt
    have hi1 : (i 1).val < 128 := (i 1).isLt
    have hN : cfg1.N = 25 := N_1
    have hlt : (i 0).val / 4000 < cfg1.N := by rw [hN]; omega
    obtain ⟨-, -, -, -, -, -, -, -, -, -, -, -, -, -, -, -, -, -, e90, e91⟩ := idx_facts1 ⟨(i 0).val / 4000, hlt⟩
    have e90' : win1_9.index ⟨(i 0).val / 4000, hlt⟩ (0 : Fin 2) = (i 0).val / 4000 := e90
    refine ⟨⟨(i 0).val / 4000, hlt⟩, flush1_9 _, ?_⟩
    rw [mem_blk1]
    intro a
    match a with
    | ⟨0, _⟩ =>
      show win1_9.index ⟨(i 0).val / 4000, hlt⟩ (0 : Fin 2) * 4000 ≤ (i 0).val
        ∧ (i 0).val < win1_9.index ⟨(i 0).val / 4000, hlt⟩ (0 : Fin 2) * 4000 + 4000
      omega
    | ⟨1, _⟩ =>
      show win1_9.index ⟨(i 0).val / 4000, hlt⟩ (1 : Fin 2) * 128 ≤ (i 1).val
        ∧ (i 1).val < win1_9.index ⟨(i 0).val / 4000, hlt⟩ (1 : Fin 2) * 128 + 128
      omega

end Cert.KernelIdeal.RegionValue

end
-- ==== Proof.Region2.lean ====
/-
  The output array of region 2 as one function of the nine arrays the region reads.

  The region walks 50 grid points; at point `t` it reads rows `4000 t … 4000 t + 3999` of the five row-blocked arrays
  (two summed-neighbour feature arrays, their two reciprocal-count columns, the nodes' own features), the three
  `128 × 128` weight matrices and the `1 × 128` bias whole, and writes rows `4000 t … 4000 t + 3999` of the output. Read at
  an entry, the body's value is the combined output of `Cert.Sage.combineAt`, with no activation after it: the casts to the narrower
  format are the identity at the ideal values and each matrix product is the sum over the contracted feature. The
  50 blocks tile the 200000 rows, so the output array ends as `Cert.Sage.combine 200000 …` of the arrays as the
  region finds them.
-/
import proofs.«147864_j85770496901303_2_alg».proof.Proof.Gen.KernelIdeal.Frame
import proofs.«147864_j85770496901303_2_alg».proof.Proof.Combine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## Small readings at an index -/

/-- An `[a, 1]` column broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a `4000 × 128` block by a `128 × 128` matrix into a zero accumulator, read at `(p, q)`: the sum over
    the contracted coordinate of the products of the entries. -/
private theorem matmul_block_apply {φ₁ φ₂ : FTy} (A : FVec Ideal S4000x128 φ₁) (B : FVec Ideal S128x128 φ₂)
    (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  show FloatOps.matmul dot_S4000x128_S128x128_S4000x128_1_0_0_1_n_n none A B (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have ck := contrEquiv1_symm_val dot_S4000x128_S128x128_S4000x128_1_0_0_1_n_n 128 rfl rfl k
  have hl : dot_S4000x128_S128x128_S4000x128_1_0_0_1_n_n.lhsIdx (ix2 p q) ((contrEquiv1 dot_S4000x128_S128x128_S4000x128_1_0_0_1_n_n 128 rfl rfl).symm k) = ix2 p k := by
    funext ax; apply Fin.ext
    match ax with
    | ⟨0, _⟩ => rfl
    | ⟨1, _⟩ => exact (dot_S4000x128_S128x128_S4000x128_1_0_0_1_n_n.lhsIdx_val_of_single (cl := (1 : Fin 2)) rfl (ix2 p q) _).trans ck
  have hr : dot_S4000x128_S128x128_S4000x128_1_0_0_1_n_n.rhsIdx (ix2 p q) ((contrEquiv1 dot_S4000x128_S128x128_S4000x128_1_0_0_1_n_n 128 rfl rfl).symm k) = ix2 k q := by
    funext ax; apply Fin.ext
    match ax with
    | ⟨0, _⟩ => exact (dot_S4000x128_S128x128_S4000x128_1_0_0_1_n_n.rhsIdx_val_of_single (cr := (0 : Fin 2)) rfl (ix2 p q) _).trans ck
    | ⟨1, _⟩ => rfl
  rw [hl, hr]

/-! ## The body's payload at an index -/

/-- The payload of the third region's body, read at row `p` and column `q` of its block: the combined entry of the
    block's row `p` (the two summed-neighbour rows scaled by their reciprocal counts, the node's own row) against column
    `q` of the three weight matrices, plus the bias entry, with no activation after it. The casts to the narrower format are the
    identity at the ideal values and each product is a sum over the contracted feature. -/
theorem pay2_apply (aggA : Vec Ideal S4000x128 .f32) (invA : Vec Ideal S4000x1 .f32) (aggB : Vec Ideal S4000x128 .f32)
    (invB : Vec Ideal S4000x1 .f32) (x : Vec Ideal S4000x128 .f32) (wlA wlB wr : Vec Ideal S128x128 .f32)
    (bias : Vec Ideal S1x128 .f32) (p : Fin 4000) (q : Fin 128) :
    k2_pay1 aggA invA aggB invB x wlA wlB wr bias (ix2 p q)
      = Cert.Sage.combineAt false (fun k => aggA (ix2 p k)) (fun k => aggB (ix2 p k)) (fun k => x (ix2 p k))
          (invA (ix2 p 0)) (invB (ix2 p 0)) (fun k => wlA (ix2 k q)) (fun k => wlB (ix2 k q)) (fun k => wr (ix2 k q))
          (bias (ix2 0 q)) := by
  unfold k2_pay1
  simp only [shapeCast_self]
  rw [addf_apply, addf_apply, addf_apply, matmul_block_apply, matmul_block_apply, matmul_block_apply,
    broadcastTo_1b_ab_apply]
  simp only [truncf_apply, mulf_apply, broadcastTo_a1_ab_apply]
  rfl

/-! ## One entry of a block against the whole arrays -/

/-- If a block's row `p` holds the arrays' row `r` (the three feature rows and the two reciprocal counts) and its
    weight and bias blocks hold the arrays' own entries in column `q`, the payload at `(p, q)` is the combined output
    of the whole arrays at `(r, q)`. -/
theorem pay2_eq_combine {n : ℕ}
    (aggA aggB : (⟨2, ![n, 128]⟩ : Shape).Idx → EReal) (invA invB : (⟨2, ![n, 1]⟩ : Shape).Idx → EReal)
    (x : (⟨2, ![n, 128]⟩ : Shape).Idx → EReal) (wlA wlB wr : (⟨2, ![128, 128]⟩ : Shape).Idx → EReal)
    (bias : (⟨2, ![1, 128]⟩ : Shape).Idx → EReal)
    (bA : Vec Ideal S4000x128 .f32) (bIA : Vec Ideal S4000x1 .f32) (bB : Vec Ideal S4000x128 .f32)
    (bIB : Vec Ideal S4000x1 .f32) (bX : Vec Ideal S4000x128 .f32) (bWA bWB bWr : Vec Ideal S128x128 .f32)
    (bBias : Vec Ideal S1x128 .f32) (r : Fin n) (p : Fin 4000) (q : Fin 128)
    (hA : ∀ k : Fin 128, bA (ix2 p k) = aggA (ix2 r k)) (hB : ∀ k : Fin 128, bB (ix2 p k) = aggB (ix2 r k))
    (hX : ∀ k : Fin 128, bX (ix2 p k) = x (ix2 r k))
    (hIA : bIA (ix2 p 0) = invA (ix2 r 0)) (hIB : bIB (ix2 p 0) = invB (ix2 r 0))
    (hWA : ∀ k : Fin 128, bWA (ix2 k q) = wlA (ix2 k q)) (hWB : ∀ k : Fin 128, bWB (ix2 k q) = wlB (ix2 k q))
    (hWr : ∀ k : Fin 128, bWr (ix2 k q) = wr (ix2 k q)) (hBias : bBias (ix2 0 q) = bias (ix2 0 q)) :
    k2_pay1 bA bIA bB bIB bX bWA bWB bWr bBias (ix2 p q)
      = Cert.Sage.combine n false aggA aggB invA invB x wlA wlB wr bias (ix2 r q) := by
  rw [pay2_apply]
  show _ = Cert.Sage.combineAt false (fun k => aggA (ix2 r k)) (fun k => aggB (ix2 r k)) (fun k => x (ix2 r k))
    (invA (ix2 r 0)) (invB (ix2 r 0)) (fun k => wlA (ix2 k q)) (fun k => wlB (ix2 k q)) (fun k => wr (ix2 k q))
    (bias (ix2 0 q))
  rw [funext hA, funext hB, funext hX, hIA, hIB, funext hWA, funext hWB, funext hWr, hBias]

/-! ## The grid's index maps -/

private theorem hz : (![0, 0] : Fin 2 → Nat) = fun _ => 0 := funext fun a => by fin_cases a <;> rfl

/-- The index maps, decided over the grid: the five row-blocked inputs and the output sit at block `(t, 0)` at
    point `t`, the three weight matrices and the bias row at block `(0, 0)`. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-! ## From the blocks to the array -/

/-- What point `t` writes back is the body's payload of the input windows' blocks at `t`. -/
theorem flushed2_pay (V : (c : Dev nD) → (b : Ref sig .tc) → Buf (Elt Ideal) ((c : Thread nD τ).loc b)) (c : Dev nD) (t : Fin cfg2.N) :
    (Gen.dat2 (F := Ideal) V c).flushed 9 t
      = (cfg2.win 9).cut (grid2.coords t) (k2_pay1 (iblk2 V c 0 t) (iblk2 V c 2 t) (iblk2 V c 1 t) (iblk2 V c 3 t)
          (iblk2 V c 4 t) (iblk2 V c 5 t) (iblk2 V c 6 t) (iblk2 V c 7 t) (iblk2 V c 8 t)) := by
  show (cfg2.win 9).cut (grid2.coords t) ((Gen.dat2 (F := Ideal) V c).after 9 t) = _
  rw [after2_9]
  unfold out2_9
  rw [View.canon_unit_zero hz]
  simp only [View.ld_unit_zero (S := S4000x128) hz, View.ld_unit_zero (S := S4000x1) hz,
    View.ld_unit_zero (S := S128x128) hz, View.ld_unit_zero (S := S1x128) hz]

/-- Entry `(p, q)` of the output's block at point `t` is entry `(4000 t + p, q)` of the output array. -/
theorem emb2_9 (t : Fin cfg2.N) (p : Fin 4000) (q : Fin 128) (r : Fin 200000) (hr : r.val = t.val * 4000 + p.val) :
    ((cfg2.win 9).blk t).view.emb (ix2 p q) = ix2 r q := by
  obtain ⟨-, -, -, -, -, -, -, -, -, -, -, -, -, -, -, -, -, -, e90, e91⟩ := idx_facts2 t
  funext a; apply Fin.ext
  match a with
  | ⟨0, _⟩ => show win2_9.index t (0 : Fin 2) * 4000 + 1 * p.val = r.val; omega
  | ⟨1, _⟩ => show win2_9.index t (1 : Fin 2) * 128 + 1 * q.val = q.val; omega

/-- Row `p` of the first neighbour sum's block at point `t` is row `4000 t + p` of its array. -/
theorem iblk2_0_apply (V : (c : Dev nD) → (b : Ref sig .tc) → Buf (Elt Ideal) ((c : Thread nD τ).loc b)) (c : Dev nD) (t : Fin cfg2.N) (p : Fin 4000) (k : Fin 128) (r : Fin 200000)
    (hr : r.val = t.val * 4000 + p.val) :
    iblk2 V c 0 t (ix2 p k) = V c (Pipeline.arrRef spec2 0) (ix2 r k) := by
  obtain ⟨e00, e01, e10, e11, e20, e21, e30, e31, e40, e41, -⟩ := idx_facts2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- Row `p` of the second neighbour sum's block at point `t` is row `4000 t + p` of its array. -/
theorem iblk2_1_apply (V : (c : Dev nD) → (b : Ref sig .tc) → Buf (Elt Ideal) ((c : Thread nD τ).loc b)) (c : Dev nD) (t : Fin cfg2.N) (p : Fin 4000) (k : Fin 128) (r : Fin 200000)
    (hr : r.val = t.val * 4000 + p.val) :
    iblk2 V c 1 t (ix2 p k) = V c (Pipeline.arrRef spec2 1) (ix2 r k) := by
  obtain ⟨e00, e01, e10, e11, e20, e21, e30, e31, e40, e41, -⟩ := idx_facts2 t
  show V c (Pipeline.arrRef spec2 1) (((cfg2.win 1).blk t).view.emb (ix2 p k)) = V c (Pipeline.arrRef spec2 1) (ix2 r k)
  refine congrArg _ (funext fun a => Fin.ext ?_)
  match a with
  | ⟨0, _⟩ => show win2_1.index t (0 : Fin 2) * 4000 + 1 * p.val = r.val; omega
  | ⟨1, _⟩ => show win2_1.index t (1 : Fin 2) * 128 + 1 * k.val = k.val; omega

/-- Entry `p` of the first reciprocal count's block at point `t` is entry `4000 t + p` of its column. -/
theorem iblk2_2_apply (V : (c : Dev nD) → (b : Ref sig .tc) → Buf (Elt Ideal) ((c : Thread nD τ).loc b)) (c : Dev nD) (t : Fin cfg2.N) (p : Fin 4000) (r : Fin 200000)
    (hr : r.val = t.val * 4000 + p.val) :
    iblk2 V c 2 t (ix2 p 0) = V c (Pipeline.arrRef spec2 2) (ix2 r 0) := by
  obtain ⟨e00, e01, e10, e11, e20, e21, e30, e31, e40, e41, -⟩ := idx_facts2 t
  show V c (Pipeline.arrRef spec2 2) (((cfg2.win 2).blk t).view.emb (ix2 p 0)) = V c (Pipeline.arrRef spec2 2) (ix2 r 0)
  refine congrArg _ (funext fun a => Fin.ext ?_)
  match a with
  | ⟨0, _⟩ => show win2_2.index t (0 : Fin 2) * 4000 + 1 * p.val = r.val; omega
  | ⟨1, _⟩ => show win2_2.index t (1 : Fin 2) * 1 + 1 * 0 = 0; omega

/-- Entry `p` of the second reciprocal count's block at point `t` is entry `4000 t + p` of its column. -/
theorem iblk2_3_apply (V : (c : Dev nD) → (b : Ref sig .tc) → Buf (Elt Ideal) ((c : Thread nD τ).loc b)) (c : Dev nD) (t : Fin cfg2.N) (p : Fin 4000) (r : Fin 200000)
    (hr : r.val = t.val * 4000 + p.val) :
    iblk2 V c 3 t (ix2 p 0) = V c (Pipeline.arrRef spec2 3) (ix2 r 0) := by
  obtain ⟨e00, e01, e10, e11, e20, e21, e30, e31, e40, e41, -⟩ := idx_facts2 t
  show V c (Pipeline.arrRef spec2 3) (((cfg2.win 3).blk t).view.emb (ix2 p 0)) = V c (Pipeline.arrRef spec2 3) (ix2 r 0)
  refine congrArg _ (funext fun a => Fin.ext ?_)
  match a with
  | ⟨0, _⟩ => show win2_3.index t (0 : Fin 2) * 4000 + 1 * p.val = r.val; omega
  | ⟨1, _⟩ => show win2_3.index t (1 : Fin 2) * 1 + 1 * 0 = 0; omega

/-- Row `p` of the nodes' own features's block at point `t` is row `4000 t + p` of its array. -/
theorem iblk2_4_apply (V : (c : Dev nD) → (b : Ref sig .tc) → Buf (Elt Ideal) ((c : Thread nD τ).loc b)) (c : Dev nD) (t : Fin cfg2.N) (p : Fin 4000) (k : Fin 128) (r : Fin 200000)
    (hr : r.val = t.val * 4000 + p.val) :
    iblk2 V c 4 t (ix2 p k) = V c (Pipeline.arrRef spec2 4) (ix2 r k) := by
  obtain ⟨e00, e01, e10, e11, e20, e21, e30, e31, e40, e41, -⟩ := idx_facts2 t
  show V c (Pipeline.arrRef spec2 4) (((cfg2.win 4).blk t).view.emb (ix2 p k)) = V c (Pipeline.arrRef spec2 4) (ix2 r k)
  refine congrArg _ (funext fun a => Fin.ext ?_)
  match a with
  | ⟨0, _⟩ => show win2_4.index t (0 : Fin 2) * 4000 + 1 * p.val = r.val; omega
  | ⟨1, _⟩ => show win2_4.index t (1 : Fin 2) * 128 + 1 * k.val = k.val; omega

/-- The first neighbour weight's block at every point is the whole matrix. -/
theorem iblk2_5_apply (V : (c : Dev nD) → (b : Ref sig .tc) → Buf (Elt Ideal) ((c : Thread nD τ).loc b)) (c : Dev nD) (t : Fin cfg2.N) (k q : Fin 128) :
    iblk2 V c 5 t (ix2 k q) = V c (Pipeline.arrRef spec2 5) (ix2 k q) := by
  obtain ⟨-, -, -, -, -, -, -, -, -, -, e50, e51, e60, e61, e70, e71, e80, e81, -⟩ := idx_facts2 t
  show V c (Pipeline.arrRef spec2 5) (((cfg2.win 5).blk t).view.emb (ix2 k q)) = V c (Pipeline.arrRef spec2 5) (ix2 k q)
  refine congrArg _ (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

/-- The second neighbour weight's block at every point is the whole matrix. -/
theorem iblk2_6_apply (V : (c : Dev nD) → (b : Ref sig .tc) → Buf (Elt Ideal) ((c : Thread nD τ).loc b)) (c : Dev nD) (t : Fin cfg2.N) (k q : Fin 128) :
    iblk2 V c 6 t (ix2 k q) = V c (Pipeline.arrRef spec2 6) (ix2 k q) := by
  obtain ⟨-, -, -, -, -, -, -, -, -, -, e50, e51, e60, e61, e70, e71, e80, e81, -⟩ := idx_facts2 t
  show V c (Pipeline.arrRef spec2 6) (((cfg2.win 6).blk t).view.emb (ix2 k q)) = V c (Pipeline.arrRef spec2 6) (ix2 k q)
  refine congrArg _ (funext fun a => Fin.ext ?_)
  match a with
  | ⟨0, _⟩ => show win2_6.index t (0 : Fin 2) * 128 + 1 * k.val = k.val; omega
  | ⟨1, _⟩ => show win2_6.index t (1 : Fin 2) * 128 + 1 * q.val = q.val; omega

/-- The self weight's block at every point is the whole matrix. -/
theorem iblk2_7_apply (V : (c : Dev nD) → (b : Ref sig .tc) → Buf (Elt Ideal) ((c : Thread nD τ).loc b)) (c : Dev nD) (t : Fin cfg2.N) (k q : Fin 128) :
    iblk2 V c 7 t (ix2 k q) = V c (Pipeline.arrRef spec2 7) (ix2 k q) := by
  obtain ⟨-, -, -, -, -, -, -, -, -, -, e50, e51, e60, e61, e70, e71, e80, e81, -⟩ := idx_facts2 t
  show V c (Pipeline.arrRef spec2 7) (((cfg2.win 7).blk t).view.emb (ix2 k q)) = V c (Pipeline.arrRef spec2 7) (ix2 k q)
  refine congrArg _ (funext fun a => Fin.ext ?_)
  match a with
  | ⟨0, _⟩ => show win2_7.index t (0 : Fin 2) * 128 + 1 * k.val = k.val; omega
  | ⟨1, _⟩ => show win2_7.index t (1 : Fin 2) * 128 + 1 * q.val = q.val; omega

/-- The bias window's block at every point is the whole row. -/
theorem iblk2_8_apply (V : (c : Dev nD) → (b : Ref sig .tc) → Buf (Elt Ideal) ((c : Thread nD τ).loc b)) (c : Dev nD) (t : Fin cfg2.N) (q : Fin 128) :
    iblk2 V c 8 t (ix2 0 q) = V c (Pipeline.arrRef spec2 8) (ix2 0 q) := by
  obtain ⟨-, -, -, -, -, -, -, -, -, -, e50, e51, e60, e61, e70, e71, e80, e81, -⟩ := idx_facts2 t
  show V c (Pipeline.arrRef spec2 8) (((cfg2.win 8).blk t).view.emb (ix2 0 q)) = V c (Pipeline.arrRef spec2 8) (ix2 0 q)
  refine congrArg _ (funext fun a => Fin.ext ?_)
  match a with
  | ⟨0, _⟩ => show win2_8.index t (0 : Fin 2) * 1 + 1 * 0 = 0; omega
  | ⟨1, _⟩ => show win2_8.index t (1 : Fin 2) * 128 + 1 * q.val = q.val; omega

/-- A block of the output window at point `t`, cut for the write-back, is block `t` of an array `G` as soon as its
    entry `(p, q)` is `G`'s entry `(4000 t + p, q)`. -/
theorem cut2_9_eq_read (t : Fin cfg2.N) (X : S4000x128.Idx → EReal) (G : S200000x128.Idx → EReal)
    (h : ∀ (p : Fin 4000) (q : Fin 128) (r : Fin 200000), r.val = t.val * 4000 + p.val → X (ix2 p q) = G (ix2 r q)) :
    (cfg2.win 9).cut (grid2.coords t) X = ((cfg2.win 9).blk t).view.read (Elt Ideal) G := by
  have hN : cfg2.N = 50 := N_2
  have ht : t.val < 50 := hN ▸ t.isLt
  funext j
  obtain ⟨p, q, rfl⟩ : ∃ (p : Fin 4000) (q : Fin 128), j = ix2 p q := ⟨j 0, j 1, eq_ix2 j⟩
  have hr : t.val * 4000 + p.val < 200000 := by have := p.isLt; omega
  show X (ix2 p q) = G (((cfg2.win 9).blk t).view.emb (ix2 p q))
  rw [emb2_9 t p q ⟨t.val * 4000 + p.val, hr⟩ rfl]
  exact h p q _ rfl

/-- Entry `(p, q)` of the payload of the blocks at point `t` is the combined output of the arrays, as the region finds
    them, at `(4000 t + p, q)`. -/
theorem block2_entry (V : (c : Dev nD) → (b : Ref sig .tc) → Buf (Elt Ideal) ((c : Thread nD τ).loc b)) (c : Dev nD) (t : Fin cfg2.N) (p : Fin 4000) (q : Fin 128) (r : Fin 200000)
    (hr : r.val = t.val * 4000 + p.val) :
    k2_pay1 (iblk2 V c 0 t) (iblk2 V c 2 t) (iblk2 V c 1 t) (iblk2 V c 3 t) (iblk2 V c 4 t) (iblk2 V c 5 t)
        (iblk2 V c 6 t) (iblk2 V c 7 t) (iblk2 V c 8 t) (ix2 p q)
      = (Cert.Sage.combine 200000 false (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (V c (Pipeline.arrRef spec2 6)) (V c (Pipeline.arrRef spec2 7))
        (V c (Pipeline.arrRef spec2 8))) (ix2 r q) :=
  pay2_eq_combine (n := 200000) _ _ _ _ _ _ _ _ _ _ _ _ _ _ _ _ _ _ r p q
    (fun k => iblk2_0_apply V c t p k r hr) (fun k => iblk2_1_apply V c t p k r hr)
    (fun k => iblk2_4_apply V c t p k r hr) (iblk2_2_apply V c t p r hr) (iblk2_3_apply V c t p r hr)
    (fun k => iblk2_5_apply V c t k q) (fun k => iblk2_6_apply V c t k q) (fun k => iblk2_7_apply V c t k q)
    (iblk2_8_apply V c t q)

/-- What point `t` writes back is block `t` of the combined output of the arrays as the region finds them. -/
theorem flushed2_eq (V : (c : Dev nD) → (b : Ref sig .tc) → Buf (Elt Ideal) ((c : Thread nD τ).loc b)) (c : Dev nD) (t : Fin cfg2.N) :
    (Gen.dat2 (F := Ideal) V c).flushed 9 t = ((cfg2.win 9).blk t).view.read (Elt Ideal)
      (Cert.Sage.combine 200000 false (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (V c (Pipeline.arrRef spec2 6)) (V c (Pipeline.arrRef spec2 7))
        (V c (Pipeline.arrRef spec2 8))) :=
  (flushed2_pay V c t).trans (cut2_9_eq_read t _ _ fun p q r hr => block2_entry V c t p q r hr)

/-- An index of the output array is in point `t`'s block iff each coordinate is in the block's range on its axis. -/
theorem mem_blk2 (t : Fin cfg2.N) (i : S200000x128.Idx) :
    i ∈ ((cfg2.win 9).blk t).view.set ↔ ∀ a : Fin 2, win2_9.index t a * S4000x128.size a ≤ (i a).val
      ∧ (i a).val < win2_9.index t a * S4000x128.size a + S4000x128.size a := by
  show i ∈ ((View.whole main_v201).slice (win2_9.rect t)).set ↔ _
  rw [View.set_slice_whole, Rect.mem_set_unit]
  exact Iff.rfl

/-- The output array after the third region: the combined output (with no activation) of the nine arrays as the region finds
    them. The blocks of 4000 rows tile the 200000 rows: row `r` is in the block of point `r / 4000`. -/
theorem region2 (V : (c : Dev nD) → (b : Ref sig .tc) → Buf (Elt Ideal) ((c : Thread nD τ).loc b)) (c : Dev nD) :
    (Gen.dat2 (F := Ideal) V c).arrAt 9 cfg2.N
      = Cert.Sage.combine 200000 false (V c (Pipeline.arrRef spec2 0)) (V c (Pipeline.arrRef spec2 1))
        (V c (Pipeline.arrRef spec2 2)) (V c (Pipeline.arrRef spec2 3)) (V c (Pipeline.arrRef spec2 4))
        (V c (Pipeline.arrRef spec2 5)) (V c (Pipeline.arrRef spec2 6)) (V c (Pipeline.arrRef spec2 7))
        (V c (Pipeline.arrRef spec2 8)) :=
  (Gen.dat2 (F := Ideal) V c).arrAt_eq_of_cover 9 _ (fun t _ => flushed2_eq V c t) fun i => by
    have hi0 : (i 0).val < 200000 := (i 0).isLt
    have hi1 : (i 1).val < 128 := (i 1).isLt
    have hN : cfg2.N = 50 := N_2
    have hlt : (i 0).val / 4000 < cfg2.N := by rw [hN]; omega
    obtain ⟨-, -, -, -, -, -, -, -, -, -, -, -, -, -, -, -, -, -, e90, e91⟩ := idx_facts2 ⟨(i 0).val / 4000, hlt⟩
    have e90' : win2_9.index ⟨(i 0).val / 4000, hlt⟩ (0 : Fin 2) = (i 0).val / 4000 := e90
    refine ⟨⟨(i 0).val / 4000, hlt⟩, flush2_9 _, ?_⟩
    rw [mem_blk2]
    intro a
    match a with
    | ⟨0, _⟩ =>
      show win2_9.index ⟨(i 0).val / 4000, hlt⟩ (0 : Fin 2) * 4000 ≤ (i 0).val
        ∧ (i 0).val < win2_9.index ⟨(i 0).val / 4000, hlt⟩ (0 : Fin 2) * 4000 + 4000
      omega
    | ⟨1, _⟩ =>
      show win2_9.index ⟨(i 0).val / 4000, hlt⟩ (1 : Fin 2) * 128 ≤ (i 1).val
        ∧ (i 1).val < win2_9.index ⟨(i 0).val / 4000, hlt⟩ (1 : Fin 2) * 128 + 128
      omega

end Cert.KernelIdeal.RegionValue

end
-- ==== Proof.Region3.lean ====
/-
  The output array of region 3 as one function of the nine arrays the region reads.

  The region walks 25 grid points; at point `t` it reads rows `4000 t … 4000 t + 3999` of the five row-blocked arrays
  (two summed-neighbour feature arrays, their two reciprocal-count columns, the nodes' own features), the three
  `128 × 128` weight matrices and the `1 × 128` bias whole, and writes rows `4000 t … 4000 t + 3999` of the output. Read at
  an entry, the body's value is the combined output of `Cert.Sage.combineAt`, with no activation after it: the casts to the narrower
  format are the identity at the ideal values and each matrix product is the sum over the contracted feature. The
  25 blocks tile the 100000 rows, so the output array ends as `Cert.Sage.combine 100000 …` of the arrays as the
  region finds them.
-/
import proofs.«147864_j85770496901303_2_alg».proof.Proof.Gen.KernelIdeal.Frame
import proofs.«147864_j85770496901303_2_alg».proof.Proof.Combine
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## Small readings at an index -/

/-- An `[a, 1]` column broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product of a `4000 × 128` block by a `128 × 128` matrix into a zero accumulator, read at `(p, q)`: the sum over
    the contracted coordinate of the products of the entries. -/
private theorem matmul_block_apply {φ₁ φ₂ : FTy} (A : FVec Ideal S4000x128 φ₁) (B : FVec Ideal S128x128 φ₂)
    (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) := by
  show FloatOps.matmul dot_S4000x128_S128x128_S4000x128_1_0_0_1_n_n none A B (constant (F := Ideal) S4000x128 .f32 0x00000000#32) (ix2 p q) = _
  rw [Ideal.matmul_constant_zero_apply, ← Equiv.sum_comp (contrEquiv1 dot_S4000x128_S128x128_S4000x128_1_0_0_1_n_n 128 rfl rfl).symm]
  refine Finset.sum_congr rfl fun k _ => ?_
  have ck := contrEquiv1_symm_val dot_S4000x128_S128x128_S4000x128_1_0_0_1_n_n 128 rfl rfl k
  have hl : dot_S4000x128_S128x128_S4000x128_1_0_0_1_n_n.lhsIdx (ix2 p q) ((contrEquiv1 dot_S4000x128_S128x128_S4000x128_1_0_0_1_n_n 128 rfl rfl).symm k) = ix2 p k := by
    funext ax; apply Fin.ext
    match ax with
    | ⟨0, _⟩ => rfl
    | ⟨1, _⟩ => exact (dot_S4000x128_S128x128_S4000x128_1_0_0_1_n_n.lhsIdx_val_of_single (cl := (1 : Fin 2)) rfl (ix2 p q) _).trans ck
  have hr : dot_S4000x128_S128x128_S4000x128_1_0_0_1_n_n.rhsIdx (ix2 p q) ((contrEquiv1 dot_S4000x128_S128x128_S4000x128_1_0_0_1_n_n 128 rfl rfl).symm k) = ix2 k q := by
    funext ax; apply Fin.ext
    match ax with
    | ⟨0, _⟩ => exact (dot_S4000x128_S128x128_S4000x128_1_0_0_1_n_n.rhsIdx_val_of_single (cr := (0 : Fin 2)) rfl (ix2 p q) _).trans ck
    | ⟨1, _⟩ => rfl
  rw [hl, hr]

/-! ## The body's payload at an index -/

/-- The payload of the fourth region's body, read at row `p` and column `q` of its block: the combined entry of the
    block's row `p` (the two summed-neighbour rows scaled by their reciprocal counts, the node's own row) against column
    `q` of the three weight matrices, plus the bias entry, with no activation after it. The casts to the narrower format are the
    identity at the ideal values and each product is a sum over the contracted feature. -/
theorem pay3_apply (aggA : Vec Ideal S4000x128 .f32) (invA : Vec Ideal S4000x1 .f32) (aggB : Vec Ideal S4000x128 .f32)
    (invB : Vec Ideal S4000x1 .f32) (x : Vec Ideal S4000x128 .f32) (wlA wlB wr : Vec Ideal S128x128 .f32)
    (bias : Vec Ideal S1x128 .f32) (p : Fin 4000) (q : Fin 128) :
    k3_pay1 aggA invA aggB invB x wlA wlB wr bias (ix2 p q)
      = Cert.Sage.combineAt false (fun k => aggA (ix2 p k)) (fun k => aggB (ix2 p k)) (fun k => x (ix2 p k))
          (invA (ix2 p 0)) (invB (ix2 p 0)) (fun k => wlA (ix2 k q)) (fun k => wlB (ix2 k q)) (fun k => wr (ix2 k q))
          (bias (ix2 0 q)) := by
  unfold k3_pay1
  simp only [shapeCast_self]
  rw [addf_apply, addf_apply, addf_apply, matmul_block_apply, matmul_block_apply, matmul_block_apply,
    broadcastTo_1b_ab_apply]
  simp only [truncf_apply, mulf_apply, broadcastTo_a1_ab_apply]
  rfl

/-! ## One entry of a block against the whole arrays -/

/-- If a block's row `p` holds the arrays' row `r` (the three feature rows and the two reciprocal counts) and its
    weight and bias blocks hold the arrays' own entries in column `q`, the payload at `(p, q)` is the combined output
    of the whole arrays at `(r, q)`. -/
theorem pay3_eq_combine {n : ℕ}
    (aggA aggB : (⟨2, ![n, 128]⟩ : Shape).Idx → EReal) (invA invB : (⟨2, ![n, 1]⟩ : Shape).Idx → EReal)
    (x : (⟨2, ![n, 128]⟩ : Shape).Idx → EReal) (wlA wlB wr : (⟨2, ![128, 128]⟩ : Shape).Idx → EReal)
    (bias : (⟨2, ![1, 128]⟩ : Shape).Idx → EReal)
    (bA : Vec Ideal S4000x128 .f32) (bIA : Vec Ideal S4000x1 .f32) (bB : Vec Ideal S4000x128 .f32)
    (bIB : Vec Ideal S4000x1 .f32) (bX : Vec Ideal S4000x128 .f32) (bWA bWB bWr : Vec Ideal S128x128 .f32)
    (bBias : Vec Ideal S1x128 .f32) (r : Fin n) (p : Fin 4000) (q : Fin 128)
    (hA : ∀ k : Fin 128, bA (ix2 p k) = aggA (ix2 r k)) (hB : ∀ k : Fin 128, bB (ix2 p k) = aggB (ix2 r k))
    (hX : ∀ k : Fin 128, bX (ix2 p k) = x (ix2 r k))
    (hIA : bIA (ix2 p 0) = invA (ix2 r 0)) (hIB : bIB (ix2 p 0) = invB (ix2 r 0))
    (hWA : ∀ k : Fin 128, bWA (ix2 k q) = wlA (ix2 k q)) (hWB : ∀ k : Fin 128, bWB (ix2 k q) = wlB (ix2 k q))
    (hWr : ∀ k : Fin 128, bWr (ix2 k q) = wr (ix2 k q)) (hBias : bBias (ix2 0 q) = bias (ix2 0 q)) :
    k3_pay1 bA bIA bB bIB bX bWA bWB bWr bBias (ix2 p q)
      = Cert.Sage.combine n false aggA aggB invA invB x wlA wlB wr bias (ix2 r q) := by
  rw [pay3_apply]
  show _ = Cert.Sage.combineAt false (fun k => aggA (ix2 r k)) (fun k => aggB (ix2 r k)) (fun k => x (ix2 r k))
    (invA (ix2 r 0)) (invB (ix2 r 0)) (fun k => wlA (ix2 k q)) (fun k => wlB (ix2 k q)) (fun k => wr (ix2 k q))
    (bias (ix2 0 q))
  rw [funext hA, funext hB, funext hX, hIA, hIB, funext hWA, funext hWB, funext hWr, hBias]

/-! ## The grid's index maps -/

private theorem hz : (![0, 0] : Fin 2 → Nat) = fun _ => 0 := funext fun a => by fin_cases a <;> rfl

/-- The index maps, decided over the grid: the five row-blocked inputs and the output sit at block `(t, 0)` at
    point `t`, the three weight matrices and the bias row at block `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-! ## From the blocks to the array -/

/-- What point `t` writes back is the body's payload of the input windows' blocks at `t`. -/
theorem flushed3_pay (V : (c : Dev nD) → (b : Ref sig .tc) → Buf (Elt Ideal) ((c : Thread nD τ).loc b)) (c : Dev nD) (t : Fin cfg3.N) :
    (Gen.dat3 (F := Ideal) V c).flushed 9 t
      = (cfg3.win 9).cut (grid3.coords t) (k3_pay1 (iblk3 V c 0 t) (iblk3 V c 2 t) (iblk3 V c 1 t) (iblk3 V c 3 t)
          (iblk3 V c 4 t) (iblk3 V c 5 t) (iblk3 V c 6 t) (iblk3 V c 7 t) (iblk3 V c 8 t)) := by
  show (cfg3.win 9).cut (grid3.coords t) ((Gen.dat3 (F := Ideal) V c).after 9 t) = _
  rw [after3_9]
  unfold out3_9
  rw [View.canon_unit_zero hz]
  simp only [View.ld_unit_zero (S := S4000x128) hz, View.ld_unit_zero (S := S4000x1) hz,
    View.ld_unit_zero (S := S128x128) hz, View.ld_unit_zero (S := S1x128) hz]

/-- Entry `(p, q)` of the output's block at point `t` is entry `(4000 t + p, q)` of the output array. -/
theorem emb3_9 (t : Fin cfg3.N) (p : Fin 4000) (q : Fin 128) (r : Fin 100000) (hr : r.val = t.val * 4000 + p.val) :
    ((cfg3.win 9).blk t).view.emb (ix2 p q) = ix2 r q := by
  obtain ⟨-, -, -, -, -, -, -, -, -, -, -, -, -, -, -, -, -, -, e90, e91⟩ := idx_facts3 t
  funext a; apply Fin.ext
  match a with
  | ⟨0, _⟩ => show win3_9.index t (0 : Fin 2) * 4000 + 1 * p.val = r.val; omega
  | ⟨1, _⟩ => show win3_9.index t (1 : Fin 2) * 128 + 1 * q.val = q.val; omega

/-- Row `p` of the first neighbour sum's block at point `t` is row `4000 t + p` of its array. -/
theorem iblk3_0_apply (V : (c : Dev nD) → (b : Ref sig .tc) → Buf (Elt Ideal) ((c : Thread nD τ).loc b)) (c : Dev nD) (t : Fin cfg3.N) (p : Fin 4000) (k : Fin 128) (r : Fin 100000)
    (hr : r.val = t.val * 4000 + p.val) :
    iblk3 V c 0 t (ix2 p k) = V c (Pipeline.arrRef spec3 0) (ix2 r k) := by
  obtain ⟨e00, e01, e10, e11, e20, e21, e30, e31, e40, e41, -⟩ := idx_facts3 t
  show V c (Pipeline.arrRef spec3 0) (((cfg3.win 0).blk t).view.emb (ix2 p k)) = V c (Pipeline.arrRef spec3 0) (ix2 r k)
  refine congrArg _ (funext fun a => Fin.ext ?_)
  match a with
  | ⟨0, _⟩ => show win3_0.index t (0 : Fin 2) * 4000 + 1 * p.val = r.val; omega
  | ⟨1, _⟩ => show win3_0.index t (1 : Fin 2) * 128 + 1 * k.val = k.val; omega

/-- Row `p` of the second neighbour sum's block at point `t` is row `4000 t + p` of its array. -/
theorem iblk3_1_apply (V : (c : Dev nD) → (b : Ref sig .tc) → Buf (Elt Ideal) ((c : Thread nD τ).loc b)) (c : Dev nD) (t : Fin cfg3.N) (p : Fin 4000) (k : Fin 128) (r : Fin 100000)
    (hr : r.val = t.val * 4000 + p.val) :
    iblk3 V c 1 t (ix2 p k) = V c (Pipeline.arrRef spec3 1) (ix2 r k) := by
  obtain ⟨e00, e01, e10, e11, e20, e21, e30, e31, e40, e41, -⟩ := idx_facts3 t
  show V c (Pipeline.arrRef spec3 1) (((cfg3.win 1).blk t).view.emb (ix2 p k)) = V c (Pipeline.arrRef spec3 1) (ix2 r k)
  refine congrArg _ (funext fun a => Fin.ext ?_)
  match a with
  | ⟨0, _⟩ => show win3_1.index t (0 : Fin 2) * 4000 + 1 * p.val = r.val; omega
  | ⟨1, _⟩ => show win3_1.index t (1 : Fin 2) * 128 + 1 * k.val = k.val; omega

/-- Entry `p` of the first reciprocal count's block at point `t` is entry `4000 t + p` of its column. -/
theorem iblk3_2_apply (V : (c : Dev nD) → (b : Ref sig .tc) → Buf (Elt Ideal) ((c : Thread nD τ).loc b)) (c : Dev nD) (t : Fin cfg3.N) (p : Fin 4000) (r : Fin 100000)
    (hr : r.val = t.val * 4000 + p.val) :
    iblk3 V c 2 t (ix2 p 0) = V c (Pipeline.arrRef spec3 2) (ix2 r 0) := by
  obtain ⟨e00, e01, e10, e11, e20, e21, e30, e31, e40, e41, -⟩ := idx_facts3 t
  show V c (Pipeline.arrRef spec3 2) (((cfg3.win 2).blk t).view.emb (ix2 p 0)) = V c (Pipeline.arrRef spec3 2) (ix2 r 0)
  refine congrArg _ (funext fun a => Fin.ext ?_)
  match a with
  | ⟨0, _⟩ => show win3_2.index t (0 : Fin 2) * 4000 + 1 * p.val = r.val; omega
  | ⟨1, _⟩ => show win3_2.index t (1 : Fin 2) * 1 + 1 * 0 = 0; omega

/-- Entry `p` of the second reciprocal count's block at point `t` is entry `4000 t + p` of its column. -/
theorem iblk3_3_apply (V : (c : Dev nD) → (b : Ref sig .tc) → Buf (Elt Ideal) ((c : Thread nD τ).loc b)) (c : Dev nD) (t : Fin cfg3.N) (p : Fin 4000) (r : Fin 100000)
    (hr : r.val = t.val * 4000 + p.val) :
    iblk3 V c 3 t (ix2 p 0) = V c (Pipeline.arrRef spec3 3) (ix2 r 0) := by
  obtain ⟨e00, e01, e10, e11, e20, e21, e30, e31, e40, e41, -⟩ := idx_facts3 t
  show V c (Pipeline.arrRef spec3 3) (((cfg3.win 3).blk t).view.emb (ix2 p 0)) = V c (Pipeline.arrRef spec3 3) (ix2 r 0)
  refine congrArg _ (funext fun a => Fin.ext ?_)
  match a with
  | ⟨0, _⟩ => show win3_3.index t (0 : Fin 2) * 4000 + 1 * p.val = r.val; omega
  | ⟨1, _⟩ => show win3_3.index t (1 : Fin 2) * 1 + 1 * 0 = 0; omega

/-- Row `p` of the nodes' own features's block at point `t` is row `4000 t + p` of its array. -/
theorem iblk3_4_apply (V : (c : Dev nD) → (b : Ref sig .tc) → Buf (Elt Ideal) ((c : Thread nD τ).loc b)) (c : Dev nD) (t : Fin cfg3.N) (p : Fin 4000) (k : Fin 128) (r : Fin 100000)
    (hr : r.val = t.val * 4000 + p.val) :
    iblk3 V c 4 t (ix2 p k) = V c (Pipeline.arrRef spec3 4) (ix2 r k) := by
  obtain ⟨e00, e01, e10, e11, e20, e21, e30, e31, e40, e41, -⟩ := idx_facts3 t
  show V c (Pipeline.arrRef spec3 4) (((cfg3.win 4).blk t).view.emb (ix2 p k)) = V c (Pipeline.arrRef spec3 4) (ix2 r k)
  refine congrArg _ (funext fun a => Fin.ext ?_)
  match a with
  | ⟨0, _⟩ => show win3_4.index t (0 : Fin 2) * 4000 + 1 * p.val = r.val; omega
  | ⟨1, _⟩ => show win3_4.index t (1 : Fin 2) * 128 + 1 * k.val = k.val; omega

/-- The first neighbour weight's block at every point is the whole matrix. -/
theorem iblk3_5_apply (V : (c : Dev nD) → (b : Ref sig .tc) → Buf (Elt Ideal) ((c : Thread nD τ).loc b)) (c : Dev nD) (t : Fin cfg3.N) (k q : Fin 128) :
    iblk3 V c 5 t (ix2 k q) = V c (Pipeline.arrRef spec3 5) (ix2 k q) := by
  obtain ⟨-, -, -, -, -, -, -, -, -, -, e50, e51, e60, e61, e70, e71, e80, e81, -⟩ := idx_facts3 t
  show V c (Pipeline.arrRef spec3 5) (((cfg3.win 5).blk t).view.emb (ix2 k q)) = V c (Pipeline.arrRef spec3 5) (ix2 k q)
  refine congrArg _ (funext fun a => Fin.ext ?_)
  match a with
  | ⟨0, _⟩ => show win3_5.index t (0 : Fin 2) * 128 + 1 * k.val = k.val; omega
  | ⟨1, _⟩ => show win3_5.index t (1 : Fin 2) * 128 + 1 * q.val = q.val; omega

/-- The second neighbour weight's block at every point is the whole matrix. -/
theorem iblk3_6_apply (V : (c : Dev nD) → (b : Ref sig .tc) → Buf (Elt Ideal) ((c : Thread nD τ).loc b)) (c : Dev nD) (t : Fin cfg3.N) (k q : Fin 128) :
    iblk3 V c 6 t (ix2 k q) = V c (Pipeline.arrRef spec3 6) (ix2 k q) := by
  obtain ⟨-, -, -, -, -, -, -, -, -, -, e50, e51, e60, e61, e70, e71, e80, e81, -⟩ := idx_facts3 t
  show V c (Pipeline.arrRef spec3 6) (((cfg3.win 6).blk t).view.emb (ix2 k q)) = V c (Pipeline.arrRef spec3 6) (ix2 k q)
  refine congrArg _ (funext fun a => Fin.ext ?_)
  match a with
  | ⟨0, _⟩ => show win3_6.index t (0 : Fin 2) * 128 + 1 * k.val = k.val; omega
  | ⟨1, _⟩ => show win3_6.index t (1 : Fin 2) * 128 + 1 * q.val = q.val; omega

/-- The self weight's block at every point is the whole matrix. -/
theorem iblk3_7_apply (V : (c : Dev nD) → (b : Ref sig .tc) → Buf (Elt Ideal) ((c : Thread nD τ).loc b)) (c : Dev nD) (t : Fin cfg3.N) (k q : Fin 128) :
    iblk3 V c 7 t (ix2 k q) = V c (Pipeline.arrRef spec3 7) (ix2 k q) := by
  obtain ⟨-, -, -, -, -, -, -, -, -, -, e50, e51, e60, e61, e70, e71, e80, e81, -⟩ := idx_facts3 t
  show V c (Pipeline.arrRef spec3 7) (((cfg3.win 7).blk t).view.emb (ix2 k q)) = V c (Pipeline.arrRef spec3 7) (ix2 k q)
  refine congrArg _ (funext fun a => Fin.ext ?_)
  match a with
  | ⟨0, _⟩ => show win3_7.index t (0 : Fin 2) * 128 + 1 * k.val = k.val; omega
  | ⟨1, _⟩ => show win3_7.index t (1 : Fin 2) * 128 + 1 * q.val = q.val; omega

/-- The bias window's block at every point is the whole row. -/
theorem iblk3_8_apply (V : (c : Dev nD) → (b : Ref sig .tc) → Buf (Elt Ideal) ((c : Thread nD τ).loc b)) (c : Dev nD) (t : Fin cfg3.N) (q : Fin 128) :
    iblk3 V c 8 t (ix2 0 q) = V c (Pipeline.arrRef spec3 8) (ix2 0 q) := by
  obtain ⟨-, -, -, -, -, -, -, -, -, -, e50, e51, e60, e61, e70, e71, e80, e81, -⟩ := idx_facts3 t
  show V c (Pipeline.arrRef spec3 8) (((cfg3.win 8).blk t).view.emb (ix2 0 q)) = V c (Pipeline.arrRef spec3 8) (ix2 0 q)
  refine congrArg _ (funext fun a => Fin.ext ?_)
  match a with
  | ⟨0, _⟩ => show win3_8.index t (0 : Fin 2) * 1 + 1 * 0 = 0; omega
  | ⟨1, _⟩ => show win3_8.index t (1 : Fin 2) * 128 + 1 * q.val = q.val; omega

/-- A block of the output window at point `t`, cut for the write-back, is block `t` of an array `G` as soon as its
    entry `(p, q)` is `G`'s entry `(4000 t + p, q)`. -/
theorem cut3_9_eq_read (t : Fin cfg3.N) (X : S4000x128.Idx → EReal) (G : S100000x128.Idx → EReal)
    (h : ∀ (p : Fin 4000) (q : Fin 128) (r : Fin 100000), r.val = t.val * 4000 + p.val → X (ix2 p q) = G (ix2 r q)) :
    (cfg3.win 9).cut (grid3.coords t) X = ((cfg3.win 9).blk t).view.read (Elt Ideal) G := by
  have hN : cfg3.N = 25 := N_3
  have ht : t.val < 25 := hN ▸ t.isLt
  funext j
  obtain ⟨p, q, rfl⟩ : ∃ (p : Fin 4000) (q : Fin 128), j = ix2 p q := ⟨j 0, j 1, eq_ix2 j⟩
  have hr : t.val * 4000 + p.val < 100000 := by have := p.isLt; omega
  show X (ix2 p q) = G (((cfg3.win 9).blk t).view.emb (ix2 p q))
  rw [emb3_9 t p q ⟨t.val * 4000 + p.val, hr⟩ rfl]
  exact h p q _ rfl

/-- Entry `(p, q)` of the payload of the blocks at point `t` is the combined output of the arrays, as the region finds
    them, at `(4000 t + p, q)`. -/
theorem block3_entry (V : (c : Dev nD) → (b : Ref sig .tc) → Buf (Elt Ideal) ((c : Thread nD τ).loc b)) (c : Dev nD) (t : Fin cfg3.N) (p : Fin 4000) (q : Fin 128) (r : Fin 100000)
    (hr : r.val = t.val * 4000 + p.val) :
    k3_pay1 (iblk3 V c 0 t) (iblk3 V c 2 t) (iblk3 V c 1 t) (iblk3 V c 3 t) (iblk3 V c 4 t) (iblk3 V c 5 t)
        (iblk3 V c 6 t) (iblk3 V c 7 t) (iblk3 V c 8 t) (ix2 p q)
      = (Cert.Sage.combine 100000 false (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6)) (V c (Pipeline.arrRef spec3 7))
        (V c (Pipeline.arrRef spec3 8))) (ix2 r q) :=
  pay3_eq_combine (n := 100000) _ _ _ _ _ _ _ _ _ _ _ _ _ _ _ _ _ _ r p q
    (fun k => iblk3_0_apply V c t p k r hr) (fun k => iblk3_1_apply V c t p k r hr)
    (fun k => iblk3_4_apply V c t p k r hr) (iblk3_2_apply V c t p r hr) (iblk3_3_apply V c t p r hr)
    (fun k => iblk3_5_apply V c t k q) (fun k => iblk3_6_apply V c t k q) (fun k => iblk3_7_apply V c t k q)
    (iblk3_8_apply V c t q)

/-- What point `t` writes back is block `t` of the combined output of the arrays as the region finds them. -/
theorem flushed3_eq (V : (c : Dev nD) → (b : Ref sig .tc) → Buf (Elt Ideal) ((c : Thread nD τ).loc b)) (c : Dev nD) (t : Fin cfg3.N) :
    (Gen.dat3 (F := Ideal) V c).flushed 9 t = ((cfg3.win 9).blk t).view.read (Elt Ideal)
      (Cert.Sage.combine 100000 false (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6)) (V c (Pipeline.arrRef spec3 7))
        (V c (Pipeline.arrRef spec3 8))) :=
  (flushed3_pay V c t).trans (cut3_9_eq_read t _ _ fun p q r hr => block3_entry V c t p q r hr)

/-- An index of the output array is in point `t`'s block iff each coordinate is in the block's range on its axis. -/
theorem mem_blk3 (t : Fin cfg3.N) (i : S100000x128.Idx) :
    i ∈ ((cfg3.win 9).blk t).view.set ↔ ∀ a : Fin 2, win3_9.index t a * S4000x128.size a ≤ (i a).val
      ∧ (i a).val < win3_9.index t a * S4000x128.size a + S4000x128.size a := by
  show i ∈ ((View.whole main_v205).slice (win3_9.rect t)).set ↔ _
  rw [View.set_slice_whole, Rect.mem_set_unit]
  exact Iff.rfl

/-- The output array after the fourth region: the combined output (with no activation) of the nine arrays as the region finds
    them. The blocks of 4000 rows tile the 100000 rows: row `r` is in the block of point `r / 4000`. -/
theorem region3 (V : (c : Dev nD) → (b : Ref sig .tc) → Buf (Elt Ideal) ((c : Thread nD τ).loc b)) (c : Dev nD) :
    (Gen.dat3 (F := Ideal) V c).arrAt 9 cfg3.N
      = Cert.Sage.combine 100000 false (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6)) (V c (Pipeline.arrRef spec3 7))
        (V c (Pipeline.arrRef spec3 8)) :=
  (Gen.dat3 (F := Ideal) V c).arrAt_eq_of_cover 9 _ (fun t _ => flushed3_eq V c t) fun i => by
    have hi0 : (i 0).val < 100000 := (i 0).isLt
    have hi1 : (i 1).val < 128 := (i 1).isLt
    have hN : cfg3.N = 25 := N_3
    have hlt : (i 0).val / 4000 < cfg3.N := by rw [hN]; omega
    obtain ⟨-, -, -, -, -, -, -, -, -, -, -, -, -, -, -, -, -, -, e90, e91⟩ := idx_facts3 ⟨(i 0).val / 4000, hlt⟩
    have e90' : win3_9.index ⟨(i 0).val / 4000, hlt⟩ (0 : Fin 2) = (i 0).val / 4000 := e90
    refine ⟨⟨(i 0).val / 4000, hlt⟩, flush3_9 _, ?_⟩
    rw [mem_blk3]
    intro a
    match a with
    | ⟨0, _⟩ =>
      show win3_9.index ⟨(i 0).val / 4000, hlt⟩ (0 : Fin 2) * 4000 ≤ (i 0).val
        ∧ (i 0).val < win3_9.index ⟨(i 0).val / 4000, hlt⟩ (0 : Fin 2) * 4000 + 4000
      omega
    | ⟨1, _⟩ =>
      show win3_9.index ⟨(i 0).val / 4000, hlt⟩ (1 : Fin 2) * 128 ≤ (i 1).val
        ∧ (i 1).val < win3_9.index ⟨(i 0).val / 4000, hlt⟩ (1 : Fin 2) * 128 + 128
      omega

end Cert.KernelIdeal.RegionValue

end
-- ==== Proof.KernelValue.lean ====
/-
  What the idealized kernel program leaves in its two result arrays, as the reference's own two result terms.

  The contents of every buffer are followed through the program's eight boundaries (after each stretch of host
  operations and after each kernel region), from the launch memory: a host stretch's results by running its
  operations, a region's output array by the region's value (`combine` of the nine arrays the region finds),
  anything else unchanged. At each region the side's equation (Bridge) turns `combine` of the kernel's form of the
  side into the reference's stage, so the next layer's aggregates, which gather from that array, are the
  reference's aggregates of its own first-layer output. The equations need the float arguments to be real
  numbers (the split of the summed self weights does), which the first layer's outputs then are as well.
-/
import proofs.«147864_j85770496901303_2_alg».proof.Proof.HostOps
import proofs.«147864_j85770496901303_2_alg».proof.Proof.Bridge
import proofs.«147864_j85770496901303_2_alg».proof.Proof.Region0
import proofs.«147864_j85770496901303_2_alg».proof.Proof.Region1
import proofs.«147864_j85770496901303_2_alg».proof.Proof.Region2
import proofs.«147864_j85770496901303_2_alg».proof.Proof.Region3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read Cert.Sage

variable (m : (ℓ : Loc nD τ sig) → Buf (Elt Ideal) ℓ) (ρ : Dev nD → PrngReg) (c : Dev nD)

/-- Every entry of each of the five float argument arrays of core `c` is a real number. -/
structure InputsReal : Prop where
  h0 : ∀ i, IsReal (((m ((c.tc : Thread nD τ).loc main_arg0)) : S100000x128.Idx → EReal) i)
  h1 : ∀ i, IsReal (((m ((c.tc : Thread nD τ).loc main_arg1)) : S200000x128.Idx → EReal) i)
  h2 : ∀ i, IsReal (((m ((c.tc : Thread nD τ).loc main_arg2)) : S2x4x128x128.Idx → EReal) i)
  h3 : ∀ i, IsReal (((m ((c.tc : Thread nD τ).loc main_arg3)) : S2x4x128.Idx → EReal) i)
  h4 : ∀ i, IsReal (((m ((c.tc : Thread nD τ).loc main_arg4)) : S2x4x128x128.Idx → EReal) i)

/-! ## The launch memory -/
theorem W0_main_arg5 : W0 m ρ c (Proc.devRef .tc main_arg5) = (m ((c.tc : Thread nD τ).loc main_arg5)) := rfl
theorem W0_main_arg0 : W0 m ρ c (Proc.devRef .tc main_arg0) = (m ((c.tc : Thread nD τ).loc main_arg0)) := rfl
theorem W0_main_arg6 : W0 m ρ c (Proc.devRef .tc main_arg6) = (m ((c.tc : Thread nD τ).loc main_arg6)) := rfl
theorem W0_main_arg7 : W0 m ρ c (Proc.devRef .tc main_arg7) = (m ((c.tc : Thread nD τ).loc main_arg7)) := rfl
theorem W0_main_arg8 : W0 m ρ c (Proc.devRef .tc main_arg8) = (m ((c.tc : Thread nD τ).loc main_arg8)) := rfl
theorem W0_main_arg1 : W0 m ρ c (Proc.devRef .tc main_arg1) = (m ((c.tc : Thread nD τ).loc main_arg1)) := rfl
theorem W0_main_arg2 : W0 m ρ c (Proc.devRef .tc main_arg2) = (m ((c.tc : Thread nD τ).loc main_arg2)) := rfl
theorem W0_main_arg4 : W0 m ρ c (Proc.devRef .tc main_arg4) = (m ((c.tc : Thread nD τ).loc main_arg4)) := rfl
theorem W0_main_arg3 : W0 m ρ c (Proc.devRef .tc main_arg3) = (m ((c.tc : Thread nD τ).loc main_arg3)) := rfl

/-! ## Boundary 1: after host stretch 0 -/
theorem W1_main_arg5 : W1 m ρ c (Proc.devRef .tc main_arg5) = (m ((c.tc : Thread nD τ).loc main_arg5)) :=
  (HostOps.pass0_main_arg5 (W0 m ρ c)).trans (W0_main_arg5 m ρ c)
theorem W1_main_v45 : W1 m ρ c (Proc.devRef .tc main_v45) = (val_main_v21 (F := Ideal) (m ((c.tc : Thread nD τ).loc main_arg0)) (m ((c.tc : Thread nD τ).loc main_arg5)) (m ((c.tc : Thread nD τ).loc main_arg6))) :=
  (HostOps.ops0_main_v45 (W0 m ρ c)).trans (by rw [W0_main_arg0 m ρ c, W0_main_arg5 m ρ c, W0_main_arg6 m ρ c] <;> rfl)
theorem W1_main_v55 : W1 m ρ c (Proc.devRef .tc main_v55) = (val_main_v54 (F := Ideal) (m ((c.tc : Thread nD τ).loc main_arg0)) (m ((c.tc : Thread nD τ).loc main_arg7)) (m ((c.tc : Thread nD τ).loc main_arg8))) :=
  (HostOps.ops0_main_v55 (W0 m ρ c)).trans (by rw [W0_main_arg0 m ρ c, W0_main_arg7 m ρ c, W0_main_arg8 m ρ c] <;> rfl)
theorem W1_main_v111 : W1 m ρ c (Proc.devRef .tc main_v111) = (shapeCast S200000x1 (Host.divf (broadcastInDim S200000 ![] bcast_S_S200000 (constant (F := Ideal) S_ .f32 0x3F800000#32)) (val_main_v27 (F := Ideal) (m ((c.tc : Thread nD τ).loc main_arg6)))) shapeCasts_S200000_S200000x1) :=
  (HostOps.ops0_main_v111 (W0 m ρ c)).trans (by rw [W0_main_arg6 m ρ c] <;> rfl)
theorem W1_main_v112 : W1 m ρ c (Proc.devRef .tc main_v112) = (shapeCast S200000x1 (Host.divf (broadcastInDim S200000 ![] bcast_S_S200000 (constant (F := Ideal) S_ .f32 0x3F800000#32)) (val_main_v60 (F := Ideal) (m ((c.tc : Thread nD τ).loc main_arg8)))) shapeCasts_S200000_S200000x1) :=
  (HostOps.ops0_main_v112 (W0 m ρ c)).trans (by rw [W0_main_arg8 m ρ c] <;> rfl)
theorem W1_main_arg1 : W1 m ρ c (Proc.devRef .tc main_arg1) = (m ((c.tc : Thread nD τ).loc main_arg1)) :=
  (HostOps.pass0_main_arg1 (W0 m ρ c)).trans (W0_main_arg1 m ρ c)
theorem W1_main_v78 : W1 m ρ c (Proc.devRef .tc main_v78) = (val_main_v31 (F := Ideal) (m ((c.tc : Thread nD τ).loc main_arg2))) :=
  (HostOps.ops0_main_v78 (W0 m ρ c)).trans (by rw [W0_main_arg2 m ρ c] <;> rfl)
theorem W1_main_v81 : W1 m ρ c (Proc.devRef .tc main_v81) = (val_main_v64 (F := Ideal) (m ((c.tc : Thread nD τ).loc main_arg2))) :=
  (HostOps.ops0_main_v81 (W0 m ρ c)).trans (by rw [W0_main_arg2 m ρ c] <;> rfl)
theorem W1_main_v87 : W1 m ρ c (Proc.devRef .tc main_v87) = (transpose S128x128 [1, 0] (addf (F := Ideal) (φ := .f32) (val_main_v11 (F := Ideal) (m ((c.tc : Thread nD τ).loc main_arg4))) (val_main_v44 (F := Ideal) (m ((c.tc : Thread nD τ).loc main_arg4)))) transposes_S128x128_S128x128_1_0) :=
  (HostOps.ops0_main_v87 (W0 m ρ c)).trans (by rw [W0_main_arg4 m ρ c] <;> rfl)
theorem W1_main_v110 : W1 m ρ c (Proc.devRef .tc main_v110) = (shapeCast S1x128 (addf (F := Ideal) (φ := .f32) (val_main_v9 (F := Ideal) (m ((c.tc : Thread nD τ).loc main_arg3))) (val_main_v42 (F := Ideal) (m ((c.tc : Thread nD τ).loc main_arg3)))) shapeCasts_S128_S1x128) :=
  (HostOps.ops0_main_v110 (W0 m ρ c)).trans (by rw [W0_main_arg3 m ρ c] <;> rfl)
theorem W1_main_arg6 : W1 m ρ c (Proc.devRef .tc main_arg6) = (m ((c.tc : Thread nD τ).loc main_arg6)) :=
  (HostOps.pass0_main_arg6 (W0 m ρ c)).trans (W0_main_arg6 m ρ c)
theorem W1_main_arg7 : W1 m ρ c (Proc.devRef .tc main_arg7) = (m ((c.tc : Thread nD τ).loc main_arg7)) :=
  (HostOps.pass0_main_arg7 (W0 m ρ c)).trans (W0_main_arg7 m ρ c)
theorem W1_main_arg8 : W1 m ρ c (Proc.devRef .tc main_arg8) = (m ((c.tc : Thread nD τ).loc main_arg8)) :=
  (HostOps.pass0_main_arg8 (W0 m ρ c)).trans (W0_main_arg8 m ρ c)
theorem W1_main_v25 : W1 m ρ c (Proc.devRef .tc main_v25) = (Host.divf (broadcastInDim S100000 ![] bcast_S_S100000 (constant (F := Ideal) S_ .f32 0x3F800000#32)) (val_main_v94 (F := Ideal) (m ((c.tc : Thread nD τ).loc main_arg5)))) :=
  (HostOps.ops0_main_v25 (W0 m ρ c)).trans (by rw [W0_main_arg5 m ρ c] <;> rfl)
theorem W1_main_v29 : W1 m ρ c (Proc.devRef .tc main_v29) = (Host.divf (broadcastInDim S100000 ![] bcast_S_S100000 (constant (F := Ideal) S_ .f32 0x3F800000#32)) (val_main_v127 (F := Ideal) (m ((c.tc : Thread nD τ).loc main_arg7)))) :=
  (HostOps.ops0_main_v29 (W0 m ρ c)).trans (by rw [W0_main_arg7 m ρ c] <;> rfl)
theorem W1_main_v65 : W1 m ρ c (Proc.devRef .tc main_v65) = (val_main_v88 (F := Ideal) (m ((c.tc : Thread nD τ).loc main_arg1)) (m ((c.tc : Thread nD τ).loc main_arg5)) (m ((c.tc : Thread nD τ).loc main_arg6))) :=
  (HostOps.ops0_main_v65 (W0 m ρ c)).trans (by rw [W0_main_arg1 m ρ c, W0_main_arg5 m ρ c, W0_main_arg6 m ρ c] <;> rfl)
theorem W1_main_v75 : W1 m ρ c (Proc.devRef .tc main_v75) = (val_main_v121 (F := Ideal) (m ((c.tc : Thread nD τ).loc main_arg1)) (m ((c.tc : Thread nD τ).loc main_arg7)) (m ((c.tc : Thread nD τ).loc main_arg8))) :=
  (HostOps.ops0_main_v75 (W0 m ρ c)).trans (by rw [W0_main_arg1 m ρ c, W0_main_arg7 m ρ c, W0_main_arg8 m ρ c] <;> rfl)
theorem W1_main_arg0 : W1 m ρ c (Proc.devRef .tc main_arg0) = (m ((c.tc : Thread nD τ).loc main_arg0)) :=
  (HostOps.pass0_main_arg0 (W0 m ρ c)).trans (W0_main_arg0 m ρ c)
theorem W1_main_v95 : W1 m ρ c (Proc.devRef .tc main_v95) = (val_main_v98 (F := Ideal) (m ((c.tc : Thread nD τ).loc main_arg2))) :=
  (HostOps.ops0_main_v95 (W0 m ρ c)).trans (by rw [W0_main_arg2 m ρ c] <;> rfl)
theorem W1_main_v98 : W1 m ρ c (Proc.devRef .tc main_v98) = (val_main_v131 (F := Ideal) (m ((c.tc : Thread nD τ).loc main_arg2))) :=
  (HostOps.ops0_main_v98 (W0 m ρ c)).trans (by rw [W0_main_arg2 m ρ c] <;> rfl)
theorem W1_main_v104 : W1 m ρ c (Proc.devRef .tc main_v104) = (transpose S128x128 [1, 0] (addf (F := Ideal) (φ := .f32) (val_main_v78 (F := Ideal) (m ((c.tc : Thread nD τ).loc main_arg4))) (val_main_v111 (F := Ideal) (m ((c.tc : Thread nD τ).loc main_arg4)))) transposes_S128x128_S128x128_1_0) :=
  (HostOps.ops0_main_v104 (W0 m ρ c)).trans (by rw [W0_main_arg4 m ρ c] <;> rfl)
theorem W1_main_v109 : W1 m ρ c (Proc.devRef .tc main_v109) = (addf (F := Ideal) (φ := .f32) (val_main_v76 (F := Ideal) (m ((c.tc : Thread nD τ).loc main_arg3))) (val_main_v109 (F := Ideal) (m ((c.tc : Thread nD τ).loc main_arg3)))) :=
  (HostOps.ops0_main_v109 (W0 m ρ c)).trans (by rw [W0_main_arg3 m ρ c] <;> rfl)
theorem W1_main_arg2 : W1 m ρ c (Proc.devRef .tc main_arg2) = (m ((c.tc : Thread nD τ).loc main_arg2)) :=
  (HostOps.pass0_main_arg2 (W0 m ρ c)).trans (W0_main_arg2 m ρ c)
theorem W1_main_arg4 : W1 m ρ c (Proc.devRef .tc main_arg4) = (m ((c.tc : Thread nD τ).loc main_arg4)) :=
  (HostOps.pass0_main_arg4 (W0 m ρ c)).trans (W0_main_arg4 m ρ c)
theorem W1_main_arg3 : W1 m ρ c (Proc.devRef .tc main_arg3) = (m ((c.tc : Thread nD τ).loc main_arg3)) :=
  (HostOps.pass0_main_arg3 (W0 m ρ c)).trans (W0_main_arg3 m ρ c)
theorem W1_main_v17 : W1 m ρ c (Proc.devRef .tc main_v17) = (Host.divf (broadcastInDim S200000 ![] bcast_S_S200000 (constant (F := Ideal) S_ .f32 0x3F800000#32)) (val_main_v27 (F := Ideal) (m ((c.tc : Thread nD τ).loc main_arg6)))) :=
  (HostOps.ops0_main_v17 (W0 m ρ c)).trans (by rw [W0_main_arg6 m ρ c] <;> rfl)
theorem W1_main_v21 : W1 m ρ c (Proc.devRef .tc main_v21) = (Host.divf (broadcastInDim S200000 ![] bcast_S_S200000 (constant (F := Ideal) S_ .f32 0x3F800000#32)) (val_main_v60 (F := Ideal) (m ((c.tc : Thread nD τ).loc main_arg8)))) :=
  (HostOps.ops0_main_v21 (W0 m ρ c)).trans (by rw [W0_main_arg8 m ρ c] <;> rfl)

/-! ## Boundary 2: after kernel region 0 -/
theorem W2_main_arg5 : W2 m ρ c (Proc.devRef .tc main_arg5) = (m ((c.tc : Thread nD τ).loc main_arg5)) :=
  (W2_of_ne m ρ c main_arg5 (by decide)).trans (W1_main_arg5 m ρ c)
set_option maxHeartbeats 16000000 in
theorem W2_main_v113 (hf : InputsReal m c) : W2 m ρ c (Proc.devRef .tc main_v113) = (val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W2_arr m ρ c 9).trans ((RegionValue.region0 (V1 m ρ) c).trans (by
    rw [show V1 m ρ c (Pipeline.arrRef spec0 0) = (val_main_v21 (F := Ideal) (m ((c.tc : Thread nD τ).loc main_arg0)) (m ((c.tc : Thread nD τ).loc main_arg5)) (m ((c.tc : Thread nD τ).loc main_arg6))) from W1_main_v45 m ρ c,
      show V1 m ρ c (Pipeline.arrRef spec0 1) = (val_main_v54 (F := Ideal) (m ((c.tc : Thread nD τ).loc main_arg0)) (m ((c.tc : Thread nD τ).loc main_arg7)) (m ((c.tc : Thread nD τ).loc main_arg8))) from W1_main_v55 m ρ c,
      show V1 m ρ c (Pipeline.arrRef spec0 2) = (shapeCast S200000x1 (Host.divf (broadcastInDim S200000 ![] bcast_S_S200000 (constant (F := Ideal) S_ .f32 0x3F800000#32)) (val_main_v27 (F := Ideal) (m ((c.tc : Thread nD τ).loc main_arg6)))) shapeCasts_S200000_S200000x1) from W1_main_v111 m ρ c,
      show V1 m ρ c (Pipeline.arrRef spec0 3) = (shapeCast S200000x1 (Host.divf (broadcastInDim S200000 ![] bcast_S_S200000 (constant (F := Ideal) S_ .f32 0x3F800000#32)) (val_main_v60 (F := Ideal) (m ((c.tc : Thread nD τ).loc main_arg8)))) shapeCasts_S200000_S200000x1) from W1_main_v112 m ρ c,
      show V1 m ρ c (Pipeline.arrRef spec0 4) = (m ((c.tc : Thread nD τ).loc main_arg1)) from W1_main_arg1 m ρ c,
      show V1 m ρ c (Pipeline.arrRef spec0 5) = (val_main_v31 (F := Ideal) (m ((c.tc : Thread nD τ).loc main_arg2))) from W1_main_v78 m ρ c,
      show V1 m ρ c (Pipeline.arrRef spec0 6) = (val_main_v64 (F := Ideal) (m ((c.tc : Thread nD τ).loc main_arg2))) from W1_main_v81 m ρ c,
      show V1 m ρ c (Pipeline.arrRef spec0 7) = (transpose S128x128 [1, 0] (addf (F := Ideal) (φ := .f32) (val_main_v11 (F := Ideal) (m ((c.tc : Thread nD τ).loc main_arg4))) (val_main_v44 (F := Ideal) (m ((c.tc : Thread nD τ).loc main_arg4)))) transposes_S128x128_S128x128_1_0) from W1_main_v87 m ρ c,
      show V1 m ρ c (Pipeline.arrRef spec0 8) = (shapeCast S1x128 (addf (F := Ideal) (φ := .f32) (val_main_v9 (F := Ideal) (m ((c.tc : Thread nD τ).loc main_arg3))) (val_main_v42 (F := Ideal) (m ((c.tc : Thread nD τ).loc main_arg3)))) shapeCasts_S128_S1x128) from W1_main_v110 m ρ c]
    exact Cert.Bridge.side_post1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) bcast_S_S200000 shapeCasts_S200000_S200000x1 transposes_S128x128_S128x128_1_0 shapeCasts_S128_S1x128
      hf.h1 (Cert.Bridge.real_wr_21 _ hf.h4) (Cert.Bridge.real_wr_54 _ hf.h4)))
theorem W2_main_arg6 : W2 m ρ c (Proc.devRef .tc main_arg6) = (m ((c.tc : Thread nD τ).loc main_arg6)) :=
  (W2_of_ne m ρ c main_arg6 (by decide)).trans (W1_main_arg6 m ρ c)
theorem W2_main_arg7 : W2 m ρ c (Proc.devRef .tc main_arg7) = (m ((c.tc : Thread nD τ).loc main_arg7)) :=
  (W2_of_ne m ρ c main_arg7 (by decide)).trans (W1_main_arg7 m ρ c)
theorem W2_main_arg8 : W2 m ρ c (Proc.devRef .tc main_arg8) = (m ((c.tc : Thread nD τ).loc main_arg8)) :=
  (W2_of_ne m ρ c main_arg8 (by decide)).trans (W1_main_arg8 m ρ c)
theorem W2_main_v25 : W2 m ρ c (Proc.devRef .tc main_v25) = (Host.divf (broadcastInDim S100000 ![] bcast_S_S100000 (constant (F := Ideal) S_ .f32 0x3F800000#32)) (val_main_v94 (F := Ideal) (m ((c.tc : Thread nD τ).loc main_arg5)))) :=
  (W2_of_ne m ρ c main_v25 (by decide)).trans (W1_main_v25 m ρ c)
theorem W2_main_v29 : W2 m ρ c (Proc.devRef .tc main_v29) = (Host.divf (broadcastInDim S100000 ![] bcast_S_S100000 (constant (F := Ideal) S_ .f32 0x3F800000#32)) (val_main_v127 (F := Ideal) (m ((c.tc : Thread nD τ).loc main_arg7)))) :=
  (W2_of_ne m ρ c main_v29 (by decide)).trans (W1_main_v29 m ρ c)
theorem W2_main_v65 : W2 m ρ c (Proc.devRef .tc main_v65) = (val_main_v88 (F := Ideal) (m ((c.tc : Thread nD τ).loc main_arg1)) (m ((c.tc : Thread nD τ).loc main_arg5)) (m ((c.tc : Thread nD τ).loc main_arg6))) :=
  (W2_of_ne m ρ c main_v65 (by decide)).trans (W1_main_v65 m ρ c)
theorem W2_main_v75 : W2 m ρ c (Proc.devRef .tc main_v75) = (val_main_v121 (F := Ideal) (m ((c.tc : Thread nD τ).loc main_arg1)) (m ((c.tc : Thread nD τ).loc main_arg7)) (m ((c.tc : Thread nD τ).loc main_arg8))) :=
  (W2_of_ne m ρ c main_v75 (by decide)).trans (W1_main_v75 m ρ c)
theorem W2_main_arg0 : W2 m ρ c (Proc.devRef .tc main_arg0) = (m ((c.tc : Thread nD τ).loc main_arg0)) :=
  (W2_of_ne m ρ c main_arg0 (by decide)).trans (W1_main_arg0 m ρ c)
theorem W2_main_v95 : W2 m ρ c (Proc.devRef .tc main_v95) = (val_main_v98 (F := Ideal) (m ((c.tc : Thread nD τ).loc main_arg2))) :=
  (W2_of_ne m ρ c main_v95 (by decide)).trans (W1_main_v95 m ρ c)
theorem W2_main_v98 : W2 m ρ c (Proc.devRef .tc main_v98) = (val_main_v131 (F := Ideal) (m ((c.tc : Thread nD τ).loc main_arg2))) :=
  (W2_of_ne m ρ c main_v98 (by decide)).trans (W1_main_v98 m ρ c)
theorem W2_main_v104 : W2 m ρ c (Proc.devRef .tc main_v104) = (transpose S128x128 [1, 0] (addf (F := Ideal) (φ := .f32) (val_main_v78 (F := Ideal) (m ((c.tc : Thread nD τ).loc main_arg4))) (val_main_v111 (F := Ideal) (m ((c.tc : Thread nD τ).loc main_arg4)))) transposes_S128x128_S128x128_1_0) :=
  (W2_of_ne m ρ c main_v104 (by decide)).trans (W1_main_v104 m ρ c)
theorem W2_main_v109 : W2 m ρ c (Proc.devRef .tc main_v109) = (addf (F := Ideal) (φ := .f32) (val_main_v76 (F := Ideal) (m ((c.tc : Thread nD τ).loc main_arg3))) (val_main_v109 (F := Ideal) (m ((c.tc : Thread nD τ).loc main_arg3)))) :=
  (W2_of_ne m ρ c main_v109 (by decide)).trans (W1_main_v109 m ρ c)
theorem W2_main_arg2 : W2 m ρ c (Proc.devRef .tc main_arg2) = (m ((c.tc : Thread nD τ).loc main_arg2)) :=
  (W2_of_ne m ρ c main_arg2 (by decide)).trans (W1_main_arg2 m ρ c)
theorem W2_main_arg4 : W2 m ρ c (Proc.devRef .tc main_arg4) = (m ((c.tc : Thread nD τ).loc main_arg4)) :=
  (W2_of_ne m ρ c main_arg4 (by decide)).trans (W1_main_arg4 m ρ c)
theorem W2_main_arg3 : W2 m ρ c (Proc.devRef .tc main_arg3) = (m ((c.tc : Thread nD τ).loc main_arg3)) :=
  (W2_of_ne m ρ c main_arg3 (by decide)).trans (W1_main_arg3 m ρ c)
theorem W2_main_v17 : W2 m ρ c (Proc.devRef .tc main_v17) = (Host.divf (broadcastInDim S200000 ![] bcast_S_S200000 (constant (F := Ideal) S_ .f32 0x3F800000#32)) (val_main_v27 (F := Ideal) (m ((c.tc : Thread nD τ).loc main_arg6)))) :=
  (W2_of_ne m ρ c main_v17 (by decide)).trans (W1_main_v17 m ρ c)
theorem W2_main_v21 : W2 m ρ c (Proc.devRef .tc main_v21) = (Host.divf (broadcastInDim S200000 ![] bcast_S_S200000 (constant (F := Ideal) S_ .f32 0x3F800000#32)) (val_main_v60 (F := Ideal) (m ((c.tc : Thread nD τ).loc main_arg8)))) :=
  (W2_of_ne m ρ c main_v21 (by decide)).trans (W1_main_v21 m ρ c)

/-! ## Boundary 3: after host stretch 1 -/
theorem W3_main_arg5 : W3 m ρ c (Proc.devRef .tc main_arg5) = (m ((c.tc : Thread nD τ).loc main_arg5)) :=
  (HostOps.pass1_main_arg5 (W2 m ρ c)).trans (W2_main_arg5 m ρ c)
theorem W3_main_v113 (hf : InputsReal m c) : W3 m ρ c (Proc.devRef .tc main_v113) = (val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.pass1_main_v113 (W2 m ρ c)).trans (W2_main_v113 m ρ c hf)
theorem W3_main_arg6 : W3 m ρ c (Proc.devRef .tc main_arg6) = (m ((c.tc : Thread nD τ).loc main_arg6)) :=
  (HostOps.pass1_main_arg6 (W2 m ρ c)).trans (W2_main_arg6 m ρ c)
theorem W3_main_arg7 : W3 m ρ c (Proc.devRef .tc main_arg7) = (m ((c.tc : Thread nD τ).loc main_arg7)) :=
  (HostOps.pass1_main_arg7 (W2 m ρ c)).trans (W2_main_arg7 m ρ c)
theorem W3_main_arg8 : W3 m ρ c (Proc.devRef .tc main_arg8) = (m ((c.tc : Thread nD τ).loc main_arg8)) :=
  (HostOps.pass1_main_arg8 (W2 m ρ c)).trans (W2_main_arg8 m ρ c)
theorem W3_main_v25 : W3 m ρ c (Proc.devRef .tc main_v25) = (Host.divf (broadcastInDim S100000 ![] bcast_S_S100000 (constant (F := Ideal) S_ .f32 0x3F800000#32)) (val_main_v94 (F := Ideal) (m ((c.tc : Thread nD τ).loc main_arg5)))) :=
  (HostOps.pass1_main_v25 (W2 m ρ c)).trans (W2_main_v25 m ρ c)
theorem W3_main_v29 : W3 m ρ c (Proc.devRef .tc main_v29) = (Host.divf (broadcastInDim S100000 ![] bcast_S_S100000 (constant (F := Ideal) S_ .f32 0x3F800000#32)) (val_main_v127 (F := Ideal) (m ((c.tc : Thread nD τ).loc main_arg7)))) :=
  (HostOps.pass1_main_v29 (W2 m ρ c)).trans (W2_main_v29 m ρ c)
theorem W3_main_v65 : W3 m ρ c (Proc.devRef .tc main_v65) = (val_main_v88 (F := Ideal) (m ((c.tc : Thread nD τ).loc main_arg1)) (m ((c.tc : Thread nD τ).loc main_arg5)) (m ((c.tc : Thread nD τ).loc main_arg6))) :=
  (HostOps.pass1_main_v65 (W2 m ρ c)).trans (W2_main_v65 m ρ c)
theorem W3_main_v75 : W3 m ρ c (Proc.devRef .tc main_v75) = (val_main_v121 (F := Ideal) (m ((c.tc : Thread nD τ).loc main_arg1)) (m ((c.tc : Thread nD τ).loc main_arg7)) (m ((c.tc : Thread nD τ).loc main_arg8))) :=
  (HostOps.pass1_main_v75 (W2 m ρ c)).trans (W2_main_v75 m ρ c)
theorem W3_main_v115 : W3 m ρ c (Proc.devRef .tc main_v115) = (shapeCast S100000x1 (Host.divf (broadcastInDim S100000 ![] bcast_S_S100000 (constant (F := Ideal) S_ .f32 0x3F800000#32)) (val_main_v94 (F := Ideal) (m ((c.tc : Thread nD τ).loc main_arg5)))) shapeCasts_S100000_S100000x1) :=
  (HostOps.ops1_main_v115 (W2 m ρ c)).trans (by rw [W2_main_v25 m ρ c] <;> rfl)
theorem W3_main_v116 : W3 m ρ c (Proc.devRef .tc main_v116) = (shapeCast S100000x1 (Host.divf (broadcastInDim S100000 ![] bcast_S_S100000 (constant (F := Ideal) S_ .f32 0x3F800000#32)) (val_main_v127 (F := Ideal) (m ((c.tc : Thread nD τ).loc main_arg7)))) shapeCasts_S100000_S100000x1) :=
  (HostOps.ops1_main_v116 (W2 m ρ c)).trans (by rw [W2_main_v29 m ρ c] <;> rfl)
theorem W3_main_arg0 : W3 m ρ c (Proc.devRef .tc main_arg0) = (m ((c.tc : Thread nD τ).loc main_arg0)) :=
  (HostOps.pass1_main_arg0 (W2 m ρ c)).trans (W2_main_arg0 m ρ c)
theorem W3_main_v95 : W3 m ρ c (Proc.devRef .tc main_v95) = (val_main_v98 (F := Ideal) (m ((c.tc : Thread nD τ).loc main_arg2))) :=
  (HostOps.pass1_main_v95 (W2 m ρ c)).trans (W2_main_v95 m ρ c)
theorem W3_main_v98 : W3 m ρ c (Proc.devRef .tc main_v98) = (val_main_v131 (F := Ideal) (m ((c.tc : Thread nD τ).loc main_arg2))) :=
  (HostOps.pass1_main_v98 (W2 m ρ c)).trans (W2_main_v98 m ρ c)
theorem W3_main_v104 : W3 m ρ c (Proc.devRef .tc main_v104) = (transpose S128x128 [1, 0] (addf (F := Ideal) (φ := .f32) (val_main_v78 (F := Ideal) (m ((c.tc : Thread nD τ).loc main_arg4))) (val_main_v111 (F := Ideal) (m ((c.tc : Thread nD τ).loc main_arg4)))) transposes_S128x128_S128x128_1_0) :=
  (HostOps.pass1_main_v104 (W2 m ρ c)).trans (W2_main_v104 m ρ c)
theorem W3_main_v114 : W3 m ρ c (Proc.devRef .tc main_v114) = (shapeCast S1x128 (addf (F := Ideal) (φ := .f32) (val_main_v76 (F := Ideal) (m ((c.tc : Thread nD τ).loc main_arg3))) (val_main_v109 (F := Ideal) (m ((c.tc : Thread nD τ).loc main_arg3)))) shapeCasts_S128_S1x128) :=
  (HostOps.ops1_main_v114 (W2 m ρ c)).trans (by rw [W2_main_v109 m ρ c] <;> rfl)
theorem W3_main_arg2 : W3 m ρ c (Proc.devRef .tc main_arg2) = (m ((c.tc : Thread nD τ).loc main_arg2)) :=
  (HostOps.pass1_main_arg2 (W2 m ρ c)).trans (W2_main_arg2 m ρ c)
theorem W3_main_arg4 : W3 m ρ c (Proc.devRef .tc main_arg4) = (m ((c.tc : Thread nD τ).loc main_arg4)) :=
  (HostOps.pass1_main_arg4 (W2 m ρ c)).trans (W2_main_arg4 m ρ c)
theorem W3_main_arg3 : W3 m ρ c (Proc.devRef .tc main_arg3) = (m ((c.tc : Thread nD τ).loc main_arg3)) :=
  (HostOps.pass1_main_arg3 (W2 m ρ c)).trans (W2_main_arg3 m ρ c)
theorem W3_main_v17 : W3 m ρ c (Proc.devRef .tc main_v17) = (Host.divf (broadcastInDim S200000 ![] bcast_S_S200000 (constant (F := Ideal) S_ .f32 0x3F800000#32)) (val_main_v27 (F := Ideal) (m ((c.tc : Thread nD τ).loc main_arg6)))) :=
  (HostOps.pass1_main_v17 (W2 m ρ c)).trans (W2_main_v17 m ρ c)
theorem W3_main_v21 : W3 m ρ c (Proc.devRef .tc main_v21) = (Host.divf (broadcastInDim S200000 ![] bcast_S_S200000 (constant (F := Ideal) S_ .f32 0x3F800000#32)) (val_main_v60 (F := Ideal) (m ((c.tc : Thread nD τ).loc main_arg8)))) :=
  (HostOps.pass1_main_v21 (W2 m ρ c)).trans (W2_main_v21 m ρ c)

/-! ## Boundary 4: after kernel region 1 -/
theorem W4_main_arg5 : W4 m ρ c (Proc.devRef .tc main_arg5) = (m ((c.tc : Thread nD τ).loc main_arg5)) :=
  (W4_of_ne m ρ c main_arg5 (by decide)).trans (W3_main_arg5 m ρ c)
theorem W4_main_v113 (hf : InputsReal m c) : W4 m ρ c (Proc.devRef .tc main_v113) = (val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W4_of_ne m ρ c main_v113 (by decide)).trans (W3_main_v113 m ρ c hf)
theorem W4_main_arg6 : W4 m ρ c (Proc.devRef .tc main_arg6) = (m ((c.tc : Thread nD τ).loc main_arg6)) :=
  (W4_of_ne m ρ c main_arg6 (by decide)).trans (W3_main_arg6 m ρ c)
theorem W4_main_arg7 : W4 m ρ c (Proc.devRef .tc main_arg7) = (m ((c.tc : Thread nD τ).loc main_arg7)) :=
  (W4_of_ne m ρ c main_arg7 (by decide)).trans (W3_main_arg7 m ρ c)
theorem W4_main_arg8 : W4 m ρ c (Proc.devRef .tc main_arg8) = (m ((c.tc : Thread nD τ).loc main_arg8)) :=
  (W4_of_ne m ρ c main_arg8 (by decide)).trans (W3_main_arg8 m ρ c)
theorem W4_main_v25 : W4 m ρ c (Proc.devRef .tc main_v25) = (Host.divf (broadcastInDim S100000 ![] bcast_S_S100000 (constant (F := Ideal) S_ .f32 0x3F800000#32)) (val_main_v94 (F := Ideal) (m ((c.tc : Thread nD τ).loc main_arg5)))) :=
  (W4_of_ne m ρ c main_v25 (by decide)).trans (W3_main_v25 m ρ c)
theorem W4_main_v29 : W4 m ρ c (Proc.devRef .tc main_v29) = (Host.divf (broadcastInDim S100000 ![] bcast_S_S100000 (constant (F := Ideal) S_ .f32 0x3F800000#32)) (val_main_v127 (F := Ideal) (m ((c.tc : Thread nD τ).loc main_arg7)))) :=
  (W4_of_ne m ρ c main_v29 (by decide)).trans (W3_main_v29 m ρ c)
set_option maxHeartbeats 16000000 in
theorem W4_main_v117 (hf : InputsReal m c) : W4 m ρ c (Proc.devRef .tc main_v117) = (val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W4_arr m ρ c 9).trans ((RegionValue.region1 (V3 m ρ) c).trans (by
    rw [show V3 m ρ c (Pipeline.arrRef spec1 0) = (val_main_v88 (F := Ideal) (m ((c.tc : Thread nD τ).loc main_arg1)) (m ((c.tc : Thread nD τ).loc main_arg5)) (m ((c.tc : Thread nD τ).loc main_arg6))) from W3_main_v65 m ρ c,
      show V3 m ρ c (Pipeline.arrRef spec1 1) = (val_main_v121 (F := Ideal) (m ((c.tc : Thread nD τ).loc main_arg1)) (m ((c.tc : Thread nD τ).loc main_arg7)) (m ((c.tc : Thread nD τ).loc main_arg8))) from W3_main_v75 m ρ c,
      show V3 m ρ c (Pipeline.arrRef spec1 2) = (shapeCast S100000x1 (Host.divf (broadcastInDim S100000 ![] bcast_S_S100000 (constant (F := Ideal) S_ .f32 0x3F800000#32)) (val_main_v94 (F := Ideal) (m ((c.tc : Thread nD τ).loc main_arg5)))) shapeCasts_S100000_S100000x1) from W3_main_v115 m ρ c,
      show V3 m ρ c (Pipeline.arrRef spec1 3) = (shapeCast S100000x1 (Host.divf (broadcastInDim S100000 ![] bcast_S_S100000 (constant (F := Ideal) S_ .f32 0x3F800000#32)) (val_main_v127 (F := Ideal) (m ((c.tc : Thread nD τ).loc main_arg7)))) shapeCasts_S100000_S100000x1) from W3_main_v116 m ρ c,
      show V3 m ρ c (Pipeline.arrRef spec1 4) = (m ((c.tc : Thread nD τ).loc main_arg0)) from W3_main_arg0 m ρ c,
      show V3 m ρ c (Pipeline.arrRef spec1 5) = (val_main_v98 (F := Ideal) (m ((c.tc : Thread nD τ).loc main_arg2))) from W3_main_v95 m ρ c,
      show V3 m ρ c (Pipeline.arrRef spec1 6) = (val_main_v131 (F := Ideal) (m ((c.tc : Thread nD τ).loc main_arg2))) from W3_main_v98 m ρ c,
      show V3 m ρ c (Pipeline.arrRef spec1 7) = (transpose S128x128 [1, 0] (addf (F := Ideal) (φ := .f32) (val_main_v78 (F := Ideal) (m ((c.tc : Thread nD τ).loc main_arg4))) (val_main_v111 (F := Ideal) (m ((c.tc : Thread nD τ).loc main_arg4)))) transposes_S128x128_S128x128_1_0) from W3_main_v104 m ρ c,
      show V3 m ρ c (Pipeline.arrRef spec1 8) = (shapeCast S1x128 (addf (F := Ideal) (φ := .f32) (val_main_v76 (F := Ideal) (m ((c.tc : Thread nD τ).loc main_arg3))) (val_main_v109 (F := Ideal) (m ((c.tc : Thread nD τ).loc main_arg3)))) shapeCasts_S128_S1x128) from W3_main_v114 m ρ c]
    exact Cert.Bridge.side_user1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) bcast_S_S100000 shapeCasts_S100000_S100000x1 transposes_S128x128_S128x128_1_0 shapeCasts_S128_S1x128
      hf.h0 (Cert.Bridge.real_wr_88 _ hf.h4) (Cert.Bridge.real_wr_121 _ hf.h4)))
theorem W4_main_arg2 : W4 m ρ c (Proc.devRef .tc main_arg2) = (m ((c.tc : Thread nD τ).loc main_arg2)) :=
  (W4_of_ne m ρ c main_arg2 (by decide)).trans (W3_main_arg2 m ρ c)
theorem W4_main_arg4 : W4 m ρ c (Proc.devRef .tc main_arg4) = (m ((c.tc : Thread nD τ).loc main_arg4)) :=
  (W4_of_ne m ρ c main_arg4 (by decide)).trans (W3_main_arg4 m ρ c)
theorem W4_main_arg3 : W4 m ρ c (Proc.devRef .tc main_arg3) = (m ((c.tc : Thread nD τ).loc main_arg3)) :=
  (W4_of_ne m ρ c main_arg3 (by decide)).trans (W3_main_arg3 m ρ c)
theorem W4_main_v17 : W4 m ρ c (Proc.devRef .tc main_v17) = (Host.divf (broadcastInDim S200000 ![] bcast_S_S200000 (constant (F := Ideal) S_ .f32 0x3F800000#32)) (val_main_v27 (F := Ideal) (m ((c.tc : Thread nD τ).loc main_arg6)))) :=
  (W4_of_ne m ρ c main_v17 (by decide)).trans (W3_main_v17 m ρ c)
theorem W4_main_v21 : W4 m ρ c (Proc.devRef .tc main_v21) = (Host.divf (broadcastInDim S200000 ![] bcast_S_S200000 (constant (F := Ideal) S_ .f32 0x3F800000#32)) (val_main_v60 (F := Ideal) (m ((c.tc : Thread nD τ).loc main_arg8)))) :=
  (W4_of_ne m ρ c main_v21 (by decide)).trans (W3_main_v21 m ρ c)

/-! ## Boundary 5: after host stretch 2 -/
theorem W5_main_v153 (hf : InputsReal m c) : W5 m ρ c (Proc.devRef .tc main_v153) = (val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.ops2_main_v153 (W4 m ρ c)).trans (by rw [W4_main_arg5 m ρ c, W4_main_v113 m ρ c hf, W4_main_arg6 m ρ c] <;> rfl)
theorem W5_main_v163 (hf : InputsReal m c) : W5 m ρ c (Proc.devRef .tc main_v163) = (val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.ops2_main_v163 (W4 m ρ c)).trans (by rw [W4_main_arg7 m ρ c, W4_main_v113 m ρ c hf, W4_main_arg8 m ρ c] <;> rfl)
theorem W5_main_v25 : W5 m ρ c (Proc.devRef .tc main_v25) = (Host.divf (broadcastInDim S100000 ![] bcast_S_S100000 (constant (F := Ideal) S_ .f32 0x3F800000#32)) (val_main_v94 (F := Ideal) (m ((c.tc : Thread nD τ).loc main_arg5)))) :=
  (HostOps.pass2_main_v25 (W4 m ρ c)).trans (W4_main_v25 m ρ c)
theorem W5_main_v29 : W5 m ρ c (Proc.devRef .tc main_v29) = (Host.divf (broadcastInDim S100000 ![] bcast_S_S100000 (constant (F := Ideal) S_ .f32 0x3F800000#32)) (val_main_v127 (F := Ideal) (m ((c.tc : Thread nD τ).loc main_arg7)))) :=
  (HostOps.pass2_main_v29 (W4 m ρ c)).trans (W4_main_v29 m ρ c)
theorem W5_main_v117 (hf : InputsReal m c) : W5 m ρ c (Proc.devRef .tc main_v117) = (val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.pass2_main_v117 (W4 m ρ c)).trans (W4_main_v117 m ρ c hf)
theorem W5_main_v183 : W5 m ρ c (Proc.devRef .tc main_v183) = (val_main_v240 (F := Ideal) (m ((c.tc : Thread nD τ).loc main_arg2))) :=
  (HostOps.ops2_main_v183 (W4 m ρ c)).trans (by rw [W4_main_arg2 m ρ c] <;> rfl)
theorem W5_main_v186 : W5 m ρ c (Proc.devRef .tc main_v186) = (val_main_v273 (F := Ideal) (m ((c.tc : Thread nD τ).loc main_arg2))) :=
  (HostOps.ops2_main_v186 (W4 m ρ c)).trans (by rw [W4_main_arg2 m ρ c] <;> rfl)
theorem W5_main_v192 : W5 m ρ c (Proc.devRef .tc main_v192) = (transpose S128x128 [1, 0] (addf (F := Ideal) (φ := .f32) (val_main_v220 (F := Ideal) (m ((c.tc : Thread nD τ).loc main_arg4))) (val_main_v253 (F := Ideal) (m ((c.tc : Thread nD τ).loc main_arg4)))) transposes_S128x128_S128x128_1_0) :=
  (HostOps.ops2_main_v192 (W4 m ρ c)).trans (by rw [W4_main_arg4 m ρ c] <;> rfl)
theorem W5_main_v197 : W5 m ρ c (Proc.devRef .tc main_v197) = (addf (F := Ideal) (φ := .f32) (val_main_v218 (F := Ideal) (m ((c.tc : Thread nD τ).loc main_arg3))) (val_main_v251 (F := Ideal) (m ((c.tc : Thread nD τ).loc main_arg3)))) :=
  (HostOps.ops2_main_v197 (W4 m ρ c)).trans (by rw [W4_main_arg3 m ρ c] <;> rfl)
theorem W5_main_v133 (hf : InputsReal m c) : W5 m ρ c (Proc.devRef .tc main_v133) = (val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.ops2_main_v133 (W4 m ρ c)).trans (by rw [W4_main_arg6 m ρ c, W4_main_v117 m ρ c hf, W4_main_arg5 m ρ c] <;> rfl)
theorem W5_main_v143 (hf : InputsReal m c) : W5 m ρ c (Proc.devRef .tc main_v143) = (val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.ops2_main_v143 (W4 m ρ c)).trans (by rw [W4_main_arg8 m ρ c, W4_main_v117 m ρ c hf, W4_main_arg7 m ρ c] <;> rfl)
theorem W5_main_v199 : W5 m ρ c (Proc.devRef .tc main_v199) = (shapeCast S200000x1 (Host.divf (broadcastInDim S200000 ![] bcast_S_S200000 (constant (F := Ideal) S_ .f32 0x3F800000#32)) (val_main_v169 (F := Ideal) (m ((c.tc : Thread nD τ).loc main_arg6)))) shapeCasts_S200000_S200000x1) :=
  (HostOps.ops2_main_v199 (W4 m ρ c)).trans (by rw [W4_main_v17 m ρ c] <;> rfl)
theorem W5_main_v200 : W5 m ρ c (Proc.devRef .tc main_v200) = (shapeCast S200000x1 (Host.divf (broadcastInDim S200000 ![] bcast_S_S200000 (constant (F := Ideal) S_ .f32 0x3F800000#32)) (val_main_v202 (F := Ideal) (m ((c.tc : Thread nD τ).loc main_arg8)))) shapeCasts_S200000_S200000x1) :=
  (HostOps.ops2_main_v200 (W4 m ρ c)).trans (by rw [W4_main_v21 m ρ c] <;> rfl)
theorem W5_main_v113 (hf : InputsReal m c) : W5 m ρ c (Proc.devRef .tc main_v113) = (val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.pass2_main_v113 (W4 m ρ c)).trans (W4_main_v113 m ρ c hf)
theorem W5_main_v166 : W5 m ρ c (Proc.devRef .tc main_v166) = (val_main_v173 (F := Ideal) (m ((c.tc : Thread nD τ).loc main_arg2))) :=
  (HostOps.ops2_main_v166 (W4 m ρ c)).trans (by rw [W4_main_arg2 m ρ c] <;> rfl)
theorem W5_main_v169 : W5 m ρ c (Proc.devRef .tc main_v169) = (val_main_v206 (F := Ideal) (m ((c.tc : Thread nD τ).loc main_arg2))) :=
  (HostOps.ops2_main_v169 (W4 m ρ c)).trans (by rw [W4_main_arg2 m ρ c] <;> rfl)
theorem W5_main_v175 : W5 m ρ c (Proc.devRef .tc main_v175) = (transpose S128x128 [1, 0] (addf (F := Ideal) (φ := .f32) (val_main_v153 (F := Ideal) (m ((c.tc : Thread nD τ).loc main_arg4))) (val_main_v186 (F := Ideal) (m ((c.tc : Thread nD τ).loc main_arg4)))) transposes_S128x128_S128x128_1_0) :=
  (HostOps.ops2_main_v175 (W4 m ρ c)).trans (by rw [W4_main_arg4 m ρ c] <;> rfl)
theorem W5_main_v198 : W5 m ρ c (Proc.devRef .tc main_v198) = (shapeCast S1x128 (addf (F := Ideal) (φ := .f32) (val_main_v151 (F := Ideal) (m ((c.tc : Thread nD τ).loc main_arg3))) (val_main_v184 (F := Ideal) (m ((c.tc : Thread nD τ).loc main_arg3)))) shapeCasts_S128_S1x128) :=
  (HostOps.ops2_main_v198 (W4 m ρ c)).trans (by rw [W4_main_arg3 m ρ c] <;> rfl)

/-! ## Boundary 6: after kernel region 2 -/
theorem W6_main_v153 (hf : InputsReal m c) : W6 m ρ c (Proc.devRef .tc main_v153) = (val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W6_of_ne m ρ c main_v153 (by decide)).trans (W5_main_v153 m ρ c hf)
theorem W6_main_v163 (hf : InputsReal m c) : W6 m ρ c (Proc.devRef .tc main_v163) = (val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W6_of_ne m ρ c main_v163 (by decide)).trans (W5_main_v163 m ρ c hf)
theorem W6_main_v25 : W6 m ρ c (Proc.devRef .tc main_v25) = (Host.divf (broadcastInDim S100000 ![] bcast_S_S100000 (constant (F := Ideal) S_ .f32 0x3F800000#32)) (val_main_v94 (F := Ideal) (m ((c.tc : Thread nD τ).loc main_arg5)))) :=
  (W6_of_ne m ρ c main_v25 (by decide)).trans (W5_main_v25 m ρ c)
theorem W6_main_v29 : W6 m ρ c (Proc.devRef .tc main_v29) = (Host.divf (broadcastInDim S100000 ![] bcast_S_S100000 (constant (F := Ideal) S_ .f32 0x3F800000#32)) (val_main_v127 (F := Ideal) (m ((c.tc : Thread nD τ).loc main_arg7)))) :=
  (W6_of_ne m ρ c main_v29 (by decide)).trans (W5_main_v29 m ρ c)
theorem W6_main_v117 (hf : InputsReal m c) : W6 m ρ c (Proc.devRef .tc main_v117) = (val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W6_of_ne m ρ c main_v117 (by decide)).trans (W5_main_v117 m ρ c hf)
theorem W6_main_v183 : W6 m ρ c (Proc.devRef .tc main_v183) = (val_main_v240 (F := Ideal) (m ((c.tc : Thread nD τ).loc main_arg2))) :=
  (W6_of_ne m ρ c main_v183 (by decide)).trans (W5_main_v183 m ρ c)
theorem W6_main_v186 : W6 m ρ c (Proc.devRef .tc main_v186) = (val_main_v273 (F := Ideal) (m ((c.tc : Thread nD τ).loc main_arg2))) :=
  (W6_of_ne m ρ c main_v186 (by decide)).trans (W5_main_v186 m ρ c)
theorem W6_main_v192 : W6 m ρ c (Proc.devRef .tc main_v192) = (transpose S128x128 [1, 0] (addf (F := Ideal) (φ := .f32) (val_main_v220 (F := Ideal) (m ((c.tc : Thread nD τ).loc main_arg4))) (val_main_v253 (F := Ideal) (m ((c.tc : Thread nD τ).loc main_arg4)))) transposes_S128x128_S128x128_1_0) :=
  (W6_of_ne m ρ c main_v192 (by decide)).trans (W5_main_v192 m ρ c)
theorem W6_main_v197 : W6 m ρ c (Proc.devRef .tc main_v197) = (addf (F := Ideal) (φ := .f32) (val_main_v218 (F := Ideal) (m ((c.tc : Thread nD τ).loc main_arg3))) (val_main_v251 (F := Ideal) (m ((c.tc : Thread nD τ).loc main_arg3)))) :=
  (W6_of_ne m ρ c main_v197 (by decide)).trans (W5_main_v197 m ρ c)
set_option maxHeartbeats 16000000 in
theorem W6_main_v201 (hf : InputsReal m c) : W6 m ρ c (Proc.devRef .tc main_v201) = (val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W6_arr m ρ c 9).trans ((RegionValue.region2 (V5 m ρ) c).trans (by
    rw [show V5 m ρ c (Pipeline.arrRef spec2 0) = (val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) from W5_main_v133 m ρ c hf,
      show V5 m ρ c (Pipeline.arrRef spec2 1) = (val_main_v196 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) from W5_main_v143 m ρ c hf,
      show V5 m ρ c (Pipeline.arrRef spec2 2) = (shapeCast S200000x1 (Host.divf (broadcastInDim S200000 ![] bcast_S_S200000 (constant (F := Ideal) S_ .f32 0x3F800000#32)) (val_main_v169 (F := Ideal) (m ((c.tc : Thread nD τ).loc main_arg6)))) shapeCasts_S200000_S200000x1) from W5_main_v199 m ρ c,
      show V5 m ρ c (Pipeline.arrRef spec2 3) = (shapeCast S200000x1 (Host.divf (broadcastInDim S200000 ![] bcast_S_S200000 (constant (F := Ideal) S_ .f32 0x3F800000#32)) (val_main_v202 (F := Ideal) (m ((c.tc : Thread nD τ).loc main_arg8)))) shapeCasts_S200000_S200000x1) from W5_main_v200 m ρ c,
      show V5 m ρ c (Pipeline.arrRef spec2 4) = (val_main_v141 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) from W5_main_v113 m ρ c hf,
      show V5 m ρ c (Pipeline.arrRef spec2 5) = (val_main_v173 (F := Ideal) (m ((c.tc : Thread nD τ).loc main_arg2))) from W5_main_v166 m ρ c,
      show V5 m ρ c (Pipeline.arrRef spec2 6) = (val_main_v206 (F := Ideal) (m ((c.tc : Thread nD τ).loc main_arg2))) from W5_main_v169 m ρ c,
      show V5 m ρ c (Pipeline.arrRef spec2 7) = (transpose S128x128 [1, 0] (addf (F := Ideal) (φ := .f32) (val_main_v153 (F := Ideal) (m ((c.tc : Thread nD τ).loc main_arg4))) (val_main_v186 (F := Ideal) (m ((c.tc : Thread nD τ).loc main_arg4)))) transposes_S128x128_S128x128_1_0) from W5_main_v175 m ρ c,
      show V5 m ρ c (Pipeline.arrRef spec2 8) = (shapeCast S1x128 (addf (F := Ideal) (φ := .f32) (val_main_v151 (F := Ideal) (m ((c.tc : Thread nD τ).loc main_arg3))) (val_main_v184 (F := Ideal) (m ((c.tc : Thread nD τ).loc main_arg3)))) shapeCasts_S128_S1x128) from W5_main_v198 m ρ c]
    exact Cert.Bridge.side_post2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) bcast_S_S200000 shapeCasts_S200000_S200000x1 transposes_S128x128_S128x128_1_0 shapeCasts_S128_S1x128
      (fun j => Cert.Bridge.real_out_post1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) bcast_S_S200000 shapeCasts_S200000_S200000x1 transposes_S128x128_S128x128_1_0 shapeCasts_S128_S1x128 hf.h0 hf.h1 hf.h2 hf.h3 hf.h4 j) (Cert.Bridge.real_wr_163 _ hf.h4) (Cert.Bridge.real_wr_196 _ hf.h4)))

/-! ## Boundary 7: after host stretch 3 -/
theorem W7_main_v153 (hf : InputsReal m c) : W7 m ρ c (Proc.devRef .tc main_v153) = (val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.pass3_main_v153 (W6 m ρ c)).trans (W6_main_v153 m ρ c hf)
theorem W7_main_v163 (hf : InputsReal m c) : W7 m ρ c (Proc.devRef .tc main_v163) = (val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.pass3_main_v163 (W6 m ρ c)).trans (W6_main_v163 m ρ c hf)
theorem W7_main_v203 : W7 m ρ c (Proc.devRef .tc main_v203) = (shapeCast S100000x1 (Host.divf (broadcastInDim S100000 ![] bcast_S_S100000 (constant (F := Ideal) S_ .f32 0x3F800000#32)) (val_main_v236 (F := Ideal) (m ((c.tc : Thread nD τ).loc main_arg5)))) shapeCasts_S100000_S100000x1) :=
  (HostOps.ops3_main_v203 (W6 m ρ c)).trans (by rw [W6_main_v25 m ρ c] <;> rfl)
theorem W7_main_v204 : W7 m ρ c (Proc.devRef .tc main_v204) = (shapeCast S100000x1 (Host.divf (broadcastInDim S100000 ![] bcast_S_S100000 (constant (F := Ideal) S_ .f32 0x3F800000#32)) (val_main_v269 (F := Ideal) (m ((c.tc : Thread nD τ).loc main_arg7)))) shapeCasts_S100000_S100000x1) :=
  (HostOps.ops3_main_v204 (W6 m ρ c)).trans (by rw [W6_main_v29 m ρ c] <;> rfl)
theorem W7_main_v117 (hf : InputsReal m c) : W7 m ρ c (Proc.devRef .tc main_v117) = (val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.pass3_main_v117 (W6 m ρ c)).trans (W6_main_v117 m ρ c hf)
theorem W7_main_v183 : W7 m ρ c (Proc.devRef .tc main_v183) = (val_main_v240 (F := Ideal) (m ((c.tc : Thread nD τ).loc main_arg2))) :=
  (HostOps.pass3_main_v183 (W6 m ρ c)).trans (W6_main_v183 m ρ c)
theorem W7_main_v186 : W7 m ρ c (Proc.devRef .tc main_v186) = (val_main_v273 (F := Ideal) (m ((c.tc : Thread nD τ).loc main_arg2))) :=
  (HostOps.pass3_main_v186 (W6 m ρ c)).trans (W6_main_v186 m ρ c)
theorem W7_main_v192 : W7 m ρ c (Proc.devRef .tc main_v192) = (transpose S128x128 [1, 0] (addf (F := Ideal) (φ := .f32) (val_main_v220 (F := Ideal) (m ((c.tc : Thread nD τ).loc main_arg4))) (val_main_v253 (F := Ideal) (m ((c.tc : Thread nD τ).loc main_arg4)))) transposes_S128x128_S128x128_1_0) :=
  (HostOps.pass3_main_v192 (W6 m ρ c)).trans (W6_main_v192 m ρ c)
theorem W7_main_v202 : W7 m ρ c (Proc.devRef .tc main_v202) = (shapeCast S1x128 (addf (F := Ideal) (φ := .f32) (val_main_v218 (F := Ideal) (m ((c.tc : Thread nD τ).loc main_arg3))) (val_main_v251 (F := Ideal) (m ((c.tc : Thread nD τ).loc main_arg3)))) shapeCasts_S128_S1x128) :=
  (HostOps.ops3_main_v202 (W6 m ρ c)).trans (by rw [W6_main_v197 m ρ c] <;> rfl)
theorem W7_main_v201 (hf : InputsReal m c) : W7 m ρ c (Proc.devRef .tc main_v201) = (val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (HostOps.pass3_main_v201 (W6 m ρ c)).trans (W6_main_v201 m ρ c hf)

/-! ## Boundary 8: after kernel region 3 -/
set_option maxHeartbeats 16000000 in
theorem W8_main_v205 (hf : InputsReal m c) : W8 m ρ c (Proc.devRef .tc main_v205) = (val_main_v281 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W8_arr m ρ c 9).trans ((RegionValue.region3 (V7 m ρ) c).trans (by
    rw [show V7 m ρ c (Pipeline.arrRef spec3 0) = (val_main_v230 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) from W7_main_v153 m ρ c hf,
      show V7 m ρ c (Pipeline.arrRef spec3 1) = (val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) from W7_main_v163 m ρ c hf,
      show V7 m ρ c (Pipeline.arrRef spec3 2) = (shapeCast S100000x1 (Host.divf (broadcastInDim S100000 ![] bcast_S_S100000 (constant (F := Ideal) S_ .f32 0x3F800000#32)) (val_main_v236 (F := Ideal) (m ((c.tc : Thread nD τ).loc main_arg5)))) shapeCasts_S100000_S100000x1) from W7_main_v203 m ρ c,
      show V7 m ρ c (Pipeline.arrRef spec3 3) = (shapeCast S100000x1 (Host.divf (broadcastInDim S100000 ![] bcast_S_S100000 (constant (F := Ideal) S_ .f32 0x3F800000#32)) (val_main_v269 (F := Ideal) (m ((c.tc : Thread nD τ).loc main_arg7)))) shapeCasts_S100000_S100000x1) from W7_main_v204 m ρ c,
      show V7 m ρ c (Pipeline.arrRef spec3 4) = (val_main_v140 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) from W7_main_v117 m ρ c hf,
      show V7 m ρ c (Pipeline.arrRef spec3 5) = (val_main_v240 (F := Ideal) (m ((c.tc : Thread nD τ).loc main_arg2))) from W7_main_v183 m ρ c,
      show V7 m ρ c (Pipeline.arrRef spec3 6) = (val_main_v273 (F := Ideal) (m ((c.tc : Thread nD τ).loc main_arg2))) from W7_main_v186 m ρ c,
      show V7 m ρ c (Pipeline.arrRef spec3 7) = (transpose S128x128 [1, 0] (addf (F := Ideal) (φ := .f32) (val_main_v220 (F := Ideal) (m ((c.tc : Thread nD τ).loc main_arg4))) (val_main_v253 (F := Ideal) (m ((c.tc : Thread nD τ).loc main_arg4)))) transposes_S128x128_S128x128_1_0) from W7_main_v192 m ρ c,
      show V7 m ρ c (Pipeline.arrRef spec3 8) = (shapeCast S1x128 (addf (F := Ideal) (φ := .f32) (val_main_v218 (F := Ideal) (m ((c.tc : Thread nD τ).loc main_arg3))) (val_main_v251 (F := Ideal) (m ((c.tc : Thread nD τ).loc main_arg3)))) shapeCasts_S128_S1x128) from W7_main_v202 m ρ c]
    exact Cert.Bridge.side_user2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) bcast_S_S100000 shapeCasts_S100000_S100000x1 transposes_S128x128_S128x128_1_0 shapeCasts_S128_S1x128
      (fun j => Cert.Bridge.real_out_user1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) bcast_S_S100000 shapeCasts_S100000_S100000x1 transposes_S128x128_S128x128_1_0 shapeCasts_S128_S1x128 hf.h0 hf.h1 hf.h2 hf.h3 hf.h4 j) (Cert.Bridge.real_wr_230 _ hf.h4) (Cert.Bridge.real_wr_263 _ hf.h4)))
theorem W8_main_v201 (hf : InputsReal m c) : W8 m ρ c (Proc.devRef .tc main_v201) = (val_main_v214 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W8_of_ne m ρ c main_v201 (by decide)).trans (W7_main_v201 m ρ c hf)

end Cert.KernelIdeal.Hand

end
-- ==== Proof.FiniteInputs.lean ====
/-
  The precondition read back.

  The precondition is the conjunction, over the five float arrays, of "every element has absolute value
  below +∞". An extended real with `max x (-x) < ⊤` is neither infinity, so it is a real number; hence
  under the precondition all five arrays hold real numbers only.
-/
import proofs.«147864_j85770496901303_2_alg».proof.Defs
import proofs.«147864_j85770496901303_2_alg».proof.Proof.Gen.Pre_finite_inputs
import proofs.«147864_j85770496901303_2_alg».proof.Proof.SageMath
import Idealize.ShloMosaic.Lib.ReduceAll
import Idealize.ShloMosaic.Lib.ValueIdx

noncomputable section

namespace Cert.Sage

open Idealize.ShloMosaic

/-- The shape with no axes has one index. -/
instance subsingleton_scalarIdx : Subsingleton Cert.Pre_finite_inputs.S_.Idx :=
  ⟨fun _ _ => funext fun d => d.elim0⟩

/-- The f32 word `0x7F800000` is `+∞`. -/
theorem infW_eq : Ideal.ofBits .f32 0x7F800000#32 = ⊤ := by
  simp [Ideal.ofBits, Ideal.ieee]

/-- An extended real whose absolute value `max x (-x)` compares below `+∞` is a real number:
    at either infinity the absolute value is `+∞` itself. -/
theorem isReal_of_abs_lt_inf {x : EReal}
    (h : Ideal.cmp .olt (max x (-x)) (Ideal.ofBits .f32 0x7F800000#32) = 1#1) : IsReal x := by
  rw [infW_eq] at h
  have hlt : max x (-x) < ⊤ := by
    by_contra hn
    have h' : BitVec.ofBool (decide (max x (-x) < ⊤)) = 1#1 := h
    rw [decide_eq_false hn] at h'
    exact absurd h' (by decide)
  induction x using EReal.rec with
  | bot => simp at hlt
  | top => simp at hlt
  | coe r => exact ⟨r, rfl⟩

/-- The precondition read back: each of the five float arrays holds real numbers only. -/
theorem finite_of_pre [Cert.Pre_finite_inputs.Facts] (a0 : FVec Ideal Cert.Pre_finite_inputs.S100000x128 .f32) (a1 : FVec Ideal Cert.Pre_finite_inputs.S200000x128 .f32) (a2 : FVec Ideal Cert.Pre_finite_inputs.S2x4x128x128 .f32) (a3 : FVec Ideal Cert.Pre_finite_inputs.S2x4x128 .f32) (a4 : FVec Ideal Cert.Pre_finite_inputs.S2x4x128x128 .f32) (a5 a6 : IVec Cert.Pre_finite_inputs.S500000 32) (a7 a8 : IVec Cert.Pre_finite_inputs.S150000 32) (h : Cert.Pre_finite_inputs.fn (F := Ideal) a0 a1 a2 a3 a4 a5 a6 a7 a8 = (fun _ => 1#1)) : (∀ i, IsReal (a0 i)) ∧ (∀ i, IsReal (a1 i)) ∧ (∀ i, IsReal (a2 i)) ∧ (∀ i, IsReal (a3 i)) ∧ (∀ i, IsReal (a4 i)) := by
  have h0 := congrFun h ValueIdx.ix0
  dsimp only [Cert.Pre_finite_inputs.fn, Cert.Pre_finite_inputs.fn_part1] at h0
  -- the result is a conjunction of five "all" reductions, associated to the left
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  refine ⟨fun i => ?_, fun i => ?_, fun i => ?_, fun i => ?_, fun i => ?_⟩
  · exact isReal_of_abs_lt_inf (Host.reduce_andi_all _ _ _ _ _ e0 i)
  · exact isReal_of_abs_lt_inf (Host.reduce_andi_all _ _ _ _ _ e1 i)
  · exact isReal_of_abs_lt_inf (Host.reduce_andi_all _ _ _ _ _ e2 i)
  · exact isReal_of_abs_lt_inf (Host.reduce_andi_all _ _ _ _ _ e3 i)
  · exact isReal_of_abs_lt_inf (Host.reduce_andi_all _ _ _ _ _ e4 i)

end Cert.Sage

end
-- ==== Proof.lean ====
/-
  The certificate's claims for the two-layer heterogeneous message-passing network.

  The kernel program does the dense per-node step of each layer in four pipelined kernel regions (post and user
  side of the first layer, then of the second) and the irregular part (gathering rows along edges, summing them per
  destination, counting neighbours) in host operations; the reference does everything in host operations.
  * The three frames: the two kernel programs' frames are the generated ones; the reference has no kernel, its frame
    is its run with the results dropped.
  * `preserves`: the idealization applied no rewrite, so there is nothing to preserve.
  * `algebraic`: the witnesses are the kernel program's own two final arrays. Its run leaves them in the result
    buffers (KernelRun); followed through the program they are the reference's two result terms of the same
    arguments (KernelValue, over the per-side equations of Bridge and the per-region values of Region0–3), given
    that the float arguments are real numbers, which is what the precondition says (FiniteInputs). The reference's
    run leaves exactly those terms of its own arguments, which agree with the kernel's.
-/
import proofs.«147864_j85770496901303_2_alg».proof.Defs
import proofs.«147864_j85770496901303_2_alg».proof.Proof.Gen.Kernel
import proofs.«147864_j85770496901303_2_alg».proof.Proof.Gen.Kernel.Skeleton
import proofs.«147864_j85770496901303_2_alg».proof.Proof.Gen.Kernel.Launch
import proofs.«147864_j85770496901303_2_alg».proof.Proof.Gen.Kernel.Points
import proofs.«147864_j85770496901303_2_alg».proof.Proof.Gen.Kernel.Frame
import proofs.«147864_j85770496901303_2_alg».proof.Proof.Gen.KernelIdeal
import proofs.«147864_j85770496901303_2_alg».proof.Proof.Gen.KernelIdeal.Skeleton
import proofs.«147864_j85770496901303_2_alg».proof.Proof.Gen.KernelIdeal.Launch
import proofs.«147864_j85770496901303_2_alg».proof.Proof.Gen.KernelIdeal.Points
import proofs.«147864_j85770496901303_2_alg».proof.Proof.Gen.KernelIdeal.Frame
import proofs.«147864_j85770496901303_2_alg».proof.Proof.Gen.ReferenceIdeal
import proofs.«147864_j85770496901303_2_alg».proof.Proof.Gen.Pre_finite_inputs
import proofs.«147864_j85770496901303_2_alg».proof.Proof.RefRead
import proofs.«147864_j85770496901303_2_alg».proof.Proof.KernelRun
import proofs.«147864_j85770496901303_2_alg».proof.Proof.KernelValue
import proofs.«147864_j85770496901303_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The precondition, on core `c`: every entry of the five float arguments is a real number. -/
theorem inputsReal (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Hand.InputsReal m c := by
  obtain ⟨h0, h1, h2, h3, h4⟩ := Cert.Sage.finite_of_pre _ _ _ _ _ _ _ _ _ (hpre c)
  exact ⟨h0, h1, h2, h3, h4⟩

theorem algebraic : Cert.algebraic_KernelIdeal_ReferenceIdeal := by
  intro m ρ m' ρ' hpre hagree
  refine ⟨fun c => Cert.KernelIdeal.Gen.W8 m ρ c (Proc.devRef .tc Cert.KernelIdeal.main_v205),
    fun c => Cert.KernelIdeal.Gen.W8 m ρ c (Proc.devRef .tc Cert.KernelIdeal.main_v201),
    Cert.KernelIdeal.Hand.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v281_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.KernelIdeal.Hand.W8_main_v205 m ρ c (inputsReal m hpre c)).symm
  · rw [Cert.ReferenceIdeal.Read.val_main_v214_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.KernelIdeal.Hand.W8_main_v201 m ρ c (inputsReal m hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
